-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v96)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v96) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S64x128 : Shape := ⟨2, ![64, 128]⟩
abbrev S128 : Shape := ⟨1, ![128]⟩
abbrev S128x32 : Shape := ⟨2, ![128, 32]⟩
abbrev S32 : Shape := ⟨1, ![32]⟩
abbrev S1600000 : Shape := ⟨1, ![1600000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg4 : FVec F S32 .f32) (main_v13 : IVec S_ 1) (main_v16 : IVec S128x32 1) : IVec S_ 1 :=
  let main_c_5 : IVec S_ 1 := constantI S_ 1 1#1
  let main_v17 : IVec S_ 1 := (fun x v => Host.reduce IntOp.andi x v reducesTo_S128x32_S_d0_1 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S100000x64 .f32) (main_arg1 : FVec F S64x128 .f32) (main_arg2 : FVec F S128 .f32) (main_arg3 : FVec F S128x32 .f32) (main_arg4 : FVec F S32 .f32) (main_arg5 : IVec S1600000 32) (main_arg6 : IVec S1600000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x128 .f32 := Host.absf main_arg1
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x32 .f32 := Host.absf main_arg3
  let main_cst_4 : FVec F S_ .f32 := constant S_ .f32 0x7F800000#32
  let main_v15 : FVec F S128x32 .f32 := broadcastInDim S128x32 ![] bcast_S_S128x32 main_cst_4
  let main_v16 : IVec S128x32 1 := cmpf .olt main_v14 main_v15
  fn_part1 (F := F) main_arg4 main_v13 main_v16
-- ==== Kernel.lean ====
abbrev S100000x64 : Shape := ⟨2, ![100000, 64]⟩
abbrev S64x128 : Shape := ⟨2, ![64, 128]⟩
abbrev S128 : Shape := ⟨1, ![128]⟩
abbrev S128x32 : Shape := ⟨2, ![128, 32]⟩
abbrev S32 : Shape := ⟨1, ![32]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x64 : Shape := ⟨2, ![1600000, 64]⟩
abbrev S102400x64 : Shape := ⟨2, ![102400, 64]⟩
abbrev S4096x64 : Shape := ⟨2, ![4096, 64]⟩
abbrev S102400x1 : Shape := ⟨2, ![102400, 1]⟩
abbrev S4096x1 : Shape := ⟨2, ![4096, 1]⟩
abbrev S1x128 : Shape := ⟨2, ![1, 128]⟩
abbrev S102400x128 : Shape := ⟨2, ![102400, 128]⟩
abbrev S4096x128 : Shape := ⟨2, ![4096, 128]⟩
abbrev S100000x128 : Shape := ⟨2, ![100000, 128]⟩
abbrev S102400x32 : Shape := ⟨2, ![102400, 32]⟩
abbrev S4096x32 : Shape := ⟨2, ![4096, 32]⟩
abbrev S100000x32 : Shape := ⟨2, ![100000, 32]⟩
abbrev S1600000x32 : Shape := ⟨2, ![1600000, 32]⟩
abbrev S1x32 : Shape := ⟨2, ![1, 32]⟩

abbrev nBuf : Space → Nat
  | .hbm => 154
  | .vmem => 46
  | .smem => 0
  | _ => 0

abbrev hbmTy0_0 (i : Nat) : BufTy := match i % 128 with
  | 0 => ⟨S100000x64, .f32⟩
  | 1 => ⟨S64x128, .f32⟩
  | 2 => ⟨S128, .f32⟩
  | 3 => ⟨S128x32, .f32⟩
  | 4 => ⟨S32, .f32⟩
  | 5 => ⟨S1600000, .i32⟩
  | 6 => ⟨S1600000, .i32⟩
  | 7 => ⟨S_, .f32⟩
  | 8 => ⟨S1600000, .f32⟩
  | 9 => ⟨S_, .f32⟩
  | 10 => ⟨S100000, .f32⟩
  | 11 => ⟨S1600000x1, .i32⟩
  | 12 => ⟨S100000, .f32⟩
  | 13 => ⟨S_, .f32⟩
  | 14 => ⟨S100000, .f32⟩
  | 15 => ⟨S1600000x1, .i32⟩
  | 16 => ⟨S100000, .f32⟩
  | 17 => ⟨S_, .f32⟩
  | 18 => ⟨S100000, .f32⟩
  | 19 => ⟨S100000, .f32⟩
  | 20 => ⟨S_, .f32⟩
  | 21 => ⟨S100000, .f32⟩
  | 22 => ⟨S100000, .f32⟩
  | 23 => ⟨S100000x1, .f32⟩
  | 24 => ⟨S_, .f32⟩
  | 25 => ⟨S100000, .f32⟩
  | 26 => ⟨S100000, .f32⟩
  | 27 => ⟨S_, .f32⟩
  | 28 => ⟨S100000, .f32⟩
  | 29 => ⟨S100000, .f32⟩
  | 30 => ⟨S100000x1, .f32⟩
  | 31 => ⟨S_, .i32⟩
  | 32 => ⟨S1600000, .i32⟩
  | 33 => ⟨S1600000, .i1⟩
  | 34 => ⟨S_, .i32⟩
  | 35 => ⟨S1600000, .i32⟩
  | 36 => ⟨S1600000, .i32⟩
  | 37 => ⟨S1600000, .i32⟩
  | 38 => ⟨S1600000x1, .i32⟩
  | 39 => ⟨S1600000x64, .f32⟩
  | 40 => ⟨S_, .f32⟩
  | 41 => ⟨S100000x64, .f32⟩
  | 42 => ⟨S1600000x1, .i32⟩
  | 43 => ⟨S100000x64, .f32⟩
  | 44 => ⟨S_, .i32⟩
  | 45 => ⟨S_, .f32⟩
  | 46 => ⟨S102400x64, .f32⟩
  | 47 => ⟨S_, .i32⟩
  | 48 => ⟨S_, .f32⟩
  | 49 => ⟨S102400x64, .f32⟩
  | 50 => ⟨S102400x64, .f32⟩
  | 51 => ⟨S100000x64, .f32⟩
  | 52 => ⟨S_, .i32⟩
  | 53 => ⟨S1600000, .i32⟩
  | 54 => ⟨S1600000, .i1⟩
  | 55 => ⟨S_, .i32⟩
  | 56 => ⟨S1600000, .i32⟩
  | 57 => ⟨S1600000, .i32⟩
  | 58 => ⟨S1600000, .i32⟩
  | 59 => ⟨S1600000x1, .i32⟩
  | 60 => ⟨S1600000x64, .f32⟩
  | 61 => ⟨S_, .f32⟩
  | 62 => ⟨S100000x64, .f32⟩
  | 63 => ⟨S1600000x1, .i32⟩
  | 64 => ⟨S100000x64, .f32⟩
  | 65 => ⟨S_, .i32⟩
  | 66 => ⟨S_, .f32⟩
  | 67 => ⟨S102400x64, .f32⟩
  | 68 => ⟨S_, .i32⟩
  | 69 => ⟨S_, .f32⟩
  | 70 => ⟨S102400x64, .f32⟩
  | 71 => ⟨S102400x64, .f32⟩
  | 72 => ⟨S100000x64, .f32⟩
  | 73 => ⟨S_, .i32⟩
  | 74 => ⟨S1600000, .i32⟩
  | 75 => ⟨S1600000, .i1⟩
  | 76 => ⟨S_, .i32⟩
  | 77 => ⟨S1600000, .i32⟩
  | 78 => ⟨S1600000, .i32⟩
  | 79 => ⟨S1600000, .i32⟩
  | 80 => ⟨S1600000x1, .i32⟩
  | 81 => ⟨S1600000x64, .f32⟩
  | 82 => ⟨S_, .f32⟩
  | 83 => ⟨S100000x64, .f32⟩
  | 84 => ⟨S1600000x1, .i32⟩
  | 85 => ⟨S100000x64, .f32⟩
  | 86 => ⟨S_, .i32⟩
  | 87 => ⟨S_, .f32⟩
  | 88 => ⟨S102400x64, .f32⟩
  | 89 => ⟨S_, .i32⟩
  | 90 => ⟨S_, .f32⟩
  | 91 => ⟨S102400x64, .f32⟩
  | 92 => ⟨S102400x64, .f32⟩
  | 93 => ⟨S100000x64, .f32⟩
  | 94 => ⟨S_, .i32⟩
  | 95 => ⟨S_, .f32⟩
  | 96 => ⟨S102400x64, .f32⟩
  | 97 => ⟨S_, .i32⟩
  | 98 => ⟨S_, .f32⟩
  | 99 => ⟨S102400x1, .f32⟩
  | 100 => ⟨S102400x64, .f32⟩
  | 101 => ⟨S100000x64, .f32⟩
  | 102 => ⟨S_, .i32⟩
  | 103 => ⟨S1600000, .i32⟩
  | 104 => ⟨S1600000, .i1⟩
  | 105 => ⟨S_, .i32⟩
  | 106 => ⟨S1600000, .i32⟩
  | 107 => ⟨S1600000, .i32⟩
  | 108 => ⟨S1600000, .i32⟩
  | 109 => ⟨S1600000x1, .i32⟩
  | 110 => ⟨S1600000x64, .f32⟩
  | 111 => ⟨S_, .f32⟩
  | 112 => ⟨S100000x64, .f32⟩
  | 113 => ⟨S1600000x1, .i32⟩
  | 114 => ⟨S100000x64, .f32⟩
  | 115 => ⟨S_, .i32⟩
  | 116 => ⟨S_, .f32⟩
  | 117 => ⟨S102400x64, .f32⟩
  | 118 => ⟨S_, .i32⟩
  | 119 => ⟨S_, .f32⟩
  | 120 => ⟨S102400x1, .f32⟩
  | 121 => ⟨S1x128, .f32⟩
  | 122 => ⟨S102400x128, .f32⟩
  | 123 => ⟨S100000x128, .f32⟩
  | 124 => ⟨S_, .i32⟩
  | 125 => ⟨S_, .f32⟩
  | 126 => ⟨S102400x128, .f32⟩
  | 127 => ⟨S_, .i32⟩
  | _ => ⟨S100000x64, .f32⟩

abbrev hbmTy0_1 (i : Nat) : BufTy := match i % 128 with
  | 0 => ⟨S_, .f32⟩
  | 1 => ⟨S102400x1, .f32⟩
  | 2 => ⟨S102400x32, .f32⟩
  | 3 => ⟨S100000x32, .f32⟩
  | 4 => ⟨S_, .i32⟩
  | 5 => ⟨S1600000, .i32⟩
  | 6 => ⟨S1600000, .i1⟩
  | 7 => ⟨S_, .i32⟩
  | 8 => ⟨S1600000, .i32⟩
  | 9 => ⟨S1600000, .i32⟩
  | 10 => ⟨S1600000, .i32⟩
  | 11 => ⟨S1600000x1, .i32⟩
  | 12 => ⟨S1600000x32, .f32⟩
  | 13 => ⟨S_, .f32⟩
  | 14 => ⟨S100000x32, .f32⟩
  | 15 => ⟨S1600000x1, .i32⟩
  | 16 => ⟨S100000x32, .f32⟩
  | 17 => ⟨S_, .i32⟩
  | 18 => ⟨S_, .f32⟩
  | 19 => ⟨S102400x32, .f32⟩
  | 20 => ⟨S_, .i32⟩
  | 21 => ⟨S_, .f32⟩
  | 22 => ⟨S102400x1, .f32⟩
  | 23 => ⟨S1x32, .f32⟩
  | 24 => ⟨S102400x32, .f32⟩
  | 25 => ⟨S100000x32, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S4096x64, .f32⟩
  | .local _ .vmem, ⟨1, _⟩ => ⟨S4096x64, .f32⟩
  | .local _ .vmem, ⟨2, _⟩ => ⟨S4096x64, .f32⟩
  | .local _ .vmem, ⟨3, _⟩ => ⟨S4096x64, .f32⟩
  | .local _ .vmem, ⟨4, _⟩ => ⟨S4096x64, .f32⟩
  | .local _ .vmem, ⟨5, _⟩ => ⟨S4096x64, .f32⟩
  | .local _ .vmem, ⟨6, _⟩ => ⟨S4096x64, .f32⟩
  | .local _ .vmem, ⟨7, _⟩ => ⟨S4096x64, .f32⟩
  | .local _ .vmem, ⟨8, _⟩ => ⟨S4096x64, .f32⟩
  | .local _ .vmem, ⟨9, _⟩ => ⟨S4096x64, .f32⟩
  | .local _ .vmem, ⟨10, _⟩ => ⟨S4096x64, .f32⟩
  | .local _ .vmem, ⟨11, _⟩ => ⟨S4096x64, .f32⟩
  | .local _ .vmem, ⟨12, _⟩ => ⟨S4096x64, .f32⟩
  | .local _ .vmem, ⟨13, _⟩ => ⟨S4096x64, .f32⟩
  | .local _ .vmem, ⟨14, _⟩ => ⟨S4096x64, .f32⟩
  | .local _ .vmem, ⟨15, _⟩ => ⟨S4096x64, .f32⟩
  | .local _ .vmem, ⟨16, _⟩ => ⟨S4096x64, .f32⟩
  | .local _ .vmem, ⟨17, _⟩ => ⟨S4096x64, .f32⟩
  | .local _ .vmem, ⟨18, _⟩ => ⟨S4096x64, .f32⟩
  | .local _ .vmem, ⟨19, _⟩ => ⟨S4096x64, .f32⟩
  | .local _ .vmem, ⟨20, _⟩ => ⟨S4096x1, .f32⟩
  | .local _ .vmem, ⟨21, _⟩ => ⟨S4096x1, .f32⟩
  | .local _ .vmem, ⟨22, _⟩ => ⟨S4096x64, .f32⟩
  | .local _ .vmem, ⟨23, _⟩ => ⟨S4096x64, .f32⟩
  | .local _ .vmem, ⟨24, _⟩ => ⟨S4096x64, .f32⟩
  | .local _ .vmem, ⟨25, _⟩ => ⟨S4096x64, .f32⟩
  | .local _ .vmem, ⟨26, _⟩ => ⟨S4096x1, .f32⟩
  | .local _ .vmem, ⟨27, _⟩ => ⟨S4096x1, .f32⟩
  | .local _ .vmem, ⟨28, _⟩ => ⟨S64x128, .f32⟩
  | .local _ .vmem, ⟨29, _⟩ => ⟨S1x128, .f32⟩
  | .local _ .vmem, ⟨30, _⟩ => ⟨S4096x128, .f32⟩
  | .local _ .vmem, ⟨31, _⟩ => ⟨S4096x128, .f32⟩
  | .local _ .vmem, ⟨32, _⟩ => ⟨S4096x128, .f32⟩
  | .local _ .vmem, ⟨33, _⟩ => ⟨S4096x128, .f32⟩
  | .local _ .vmem, ⟨34, _⟩ => ⟨S4096x1, .f32⟩
  | .local _ .vmem, ⟨35, _⟩ => ⟨S4096x1, .f32⟩
  | .local _ .vmem, ⟨36, _⟩ => ⟨S128x32, .f32⟩
  | .local _ .vmem, ⟨37, _⟩ => ⟨S4096x32, .f32⟩
  | .local _ .vmem, ⟨38, _⟩ => ⟨S4096x32, .f32⟩
  | .local _ .vmem, ⟨39, _⟩ => ⟨S4096x32, .f32⟩
  | .local _ .vmem, ⟨40, _⟩ => ⟨S4096x32, .f32⟩
  | .local _ .vmem, ⟨41, _⟩ => ⟨S4096x1, .f32⟩
  | .local _ .vmem, ⟨42, _⟩ => ⟨S4096x1, .f32⟩
  | .local _ .vmem, ⟨43, _⟩ => ⟨S1x32, .f32⟩
  | .local _ .vmem, ⟨44, _⟩ => ⟨S4096x32, .f32⟩
  | .local _ .vmem, ⟨45, _⟩ => ⟨S4096x32, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_4 : Ref sig .tc := ⟨.hbm, 24, rfl⟩
abbrev main_v12 : Ref sig .tc := ⟨.hbm, 25, rfl⟩
abbrev main_v13 : Ref sig .tc := ⟨.hbm, 26, rfl⟩
abbrev main_cst_5 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_6 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_7 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_8 : Ref sig .tc := ⟨.hbm, 44, rfl⟩
abbrev main_call0_v0 : Ref sig .tc := ⟨.hbm, 45, rfl⟩
abbrev main_v27 : Ref sig .tc := ⟨.hbm, 46, rfl⟩
abbrev main_c_9 : Ref sig .tc := ⟨.hbm, 47, rfl⟩
abbrev main_call1_v0 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_10 : Ref sig .tc := ⟨.hbm, 52, rfl⟩
abbrev main_v31 : Ref sig .tc := ⟨.hbm, 53, rfl⟩
abbrev main_v32 : Ref sig .tc := ⟨.hbm, 54, rfl⟩
abbrev main_c_11 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_12 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_c_13 : Ref sig .tc := ⟨.hbm, 65, rfl⟩
abbrev main_call2_v0 : Ref sig .tc := ⟨.hbm, 66, rfl⟩
abbrev main_v41 : Ref sig .tc := ⟨.hbm, 67, rfl⟩
abbrev main_c_14 : Ref sig .tc := ⟨.hbm, 68, rfl⟩
abbrev main_call3_v0 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_c_15 : Ref sig .tc := ⟨.hbm, 73, rfl⟩
abbrev main_v45 : Ref sig .tc := ⟨.hbm, 74, rfl⟩
abbrev main_v46 : Ref sig .tc := ⟨.hbm, 75, rfl⟩
abbrev main_c_16 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_cst_17 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_c_18 : Ref sig .tc := ⟨.hbm, 86, rfl⟩
abbrev main_call4_v0 : Ref sig .tc := ⟨.hbm, 87, rfl⟩
abbrev main_v55 : Ref sig .tc := ⟨.hbm, 88, rfl⟩
abbrev main_c_19 : Ref sig .tc := ⟨.hbm, 89, rfl⟩
abbrev main_call5_v0 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_c_20 : Ref sig .tc := ⟨.hbm, 94, rfl⟩
abbrev main_call6_v0 : Ref sig .tc := ⟨.hbm, 95, rfl⟩
abbrev main_v59 : Ref sig .tc := ⟨.hbm, 96, rfl⟩
abbrev main_c_21 : Ref sig .tc := ⟨.hbm, 97, rfl⟩
abbrev main_call7_v0 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_c_22 : Ref sig .tc := ⟨.hbm, 102, rfl⟩
abbrev main_v63 : Ref sig .tc := ⟨.hbm, 103, rfl⟩
abbrev main_v64 : Ref sig .tc := ⟨.hbm, 104, rfl⟩
abbrev main_c_23 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_cst_24 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_c_25 : Ref sig .tc := ⟨.hbm, 115, rfl⟩
abbrev main_call8_v0 : Ref sig .tc := ⟨.hbm, 116, rfl⟩
abbrev main_v73 : Ref sig .tc := ⟨.hbm, 117, rfl⟩
abbrev main_c_26 : Ref sig .tc := ⟨.hbm, 118, rfl⟩
abbrev main_call9_v0 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_c_27 : Ref sig .tc := ⟨.hbm, 124, rfl⟩
abbrev main_call10_v0 : Ref sig .tc := ⟨.hbm, 125, rfl⟩
abbrev main_v78 : Ref sig .tc := ⟨.hbm, 126, rfl⟩
abbrev main_c_28 : Ref sig .tc := ⟨.hbm, 127, rfl⟩
abbrev main_call11_v0 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_c_29 : Ref sig .tc := ⟨.hbm, 132, rfl⟩
abbrev main_v82 : Ref sig .tc := ⟨.hbm, 133, rfl⟩
abbrev main_v83 : Ref sig .tc := ⟨.hbm, 134, rfl⟩
abbrev main_c_30 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_cst_31 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_c_32 : Ref sig .tc := ⟨.hbm, 145, rfl⟩
abbrev main_call12_v0 : Ref sig .tc := ⟨.hbm, 146, rfl⟩
abbrev main_v92 : Ref sig .tc := ⟨.hbm, 147, rfl⟩
abbrev main_c_33 : Ref sig .tc := ⟨.hbm, 148, rfl⟩
abbrev main_call13_v0 : Ref sig .tc := ⟨.hbm, 149, rfl⟩
abbrev main_v93 : Ref sig .tc := ⟨.hbm, 150, rfl⟩
abbrev main_v94 : Ref sig .tc := ⟨.hbm, 151, rfl⟩
abbrev main_v95 : Ref sig .tc := ⟨.hbm, 152, rfl⟩
abbrev main_v96 : Ref sig .tc := ⟨.hbm, 153, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_stg3_0 : Ref sig .tc := ⟨.vmem, 29, rfl⟩
abbrev cc4_stg4_0 : Ref sig .tc := ⟨.vmem, 30, rfl⟩
abbrev cc4_stg4_1 : Ref sig .tc := ⟨.vmem, 31, rfl⟩
abbrev cc5_stg0_0 : Ref sig .tc := ⟨.vmem, 32, rfl⟩
abbrev cc5_stg0_1 : Ref sig .tc := ⟨.vmem, 33, rfl⟩
abbrev cc5_stg1_0 : Ref sig .tc := ⟨.vmem, 34, rfl⟩
abbrev cc5_stg1_1 : Ref sig .tc := ⟨.vmem, 35, rfl⟩
abbrev cc5_stg2_0 : Ref sig .tc := ⟨.vmem, 36, rfl⟩
abbrev cc5_stg3_0 : Ref sig .tc := ⟨.vmem, 37, rfl⟩
abbrev cc5_stg3_1 : Ref sig .tc := ⟨.vmem, 38, rfl⟩
abbrev cc6_stg0_0 : Ref sig .tc := ⟨.vmem, 39, rfl⟩
abbrev cc6_stg0_1 : Ref sig .tc := ⟨.vmem, 40, rfl⟩
abbrev cc6_stg1_0 : Ref sig .tc := ⟨.vmem, 41, rfl⟩
abbrev cc6_stg1_1 : Ref sig .tc := ⟨.vmem, 42, rfl⟩
abbrev cc6_stg2_0 : Ref sig .tc := ⟨.vmem, 43, rfl⟩
abbrev cc6_stg3_0 : Ref sig .tc := ⟨.vmem, 44, rfl⟩
abbrev cc6_stg3_1 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem3_0 : DmaSem sig := 29
abbrev cc4_sem4_0 : DmaSem sig := 30
abbrev cc4_sem4_1 : DmaSem sig := 31
abbrev cc5_sem0_0 : DmaSem sig := 32
abbrev cc5_sem0_1 : DmaSem sig := 33
abbrev cc5_sem1_0 : DmaSem sig := 34
abbrev cc5_sem1_1 : DmaSem sig := 35
abbrev cc5_sem2_0 : DmaSem sig := 36
abbrev cc5_sem3_0 : DmaSem sig := 37
abbrev cc5_sem3_1 : DmaSem sig := 38
abbrev cc6_sem0_0 : DmaSem sig := 39
abbrev cc6_sem0_1 : DmaSem sig := 40
abbrev cc6_sem1_0 : DmaSem sig := 41
abbrev cc6_sem1_1 : DmaSem sig := 42
abbrev cc6_sem2_0 : DmaSem sig := 43
abbrev cc6_sem3_0 : DmaSem sig := 44
abbrev cc6_sem3_1 : DmaSem sig := 45

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4096x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4096x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4096x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4096x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4096x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4096x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4096x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4096x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4096x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S4096x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4096x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S4096x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x32 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S4096x32 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S4096x32 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S4096x1 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S1x32 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S4096x32 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S_S100000x64 : S_.BroadcastsInDim S100000x64 (![] : Fin 0 → Fin S100000x64.rank)
  pads_S100000x64_S102400x64_024000_000 : S100000x64.Pads (![0, 0] : Fin 2 → Nat) ![2400, 0] ![0, 0] S102400x64
  h_S_ : 0 < S_.numel
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  slices_S102400x64_S100000x64_0_0 : S102400x64.Slices ![0, 0] S100000x64
  pads_S100000x1_S102400x1_024000_000 : S100000x1.Pads (![0, 0] : Fin 2 → Nat) ![2400, 0] ![0, 0] S102400x1
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  broadcasts_S4096x1_S4096x64 : S4096x1.Broadcasts S4096x64
  shapeCasts_S128_S1x128 : S128.ShapeCasts S1x128
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  broadcasts_S4096x1_S4096x128 : S4096x1.Broadcasts S4096x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  inb_S4096x128_S4096x128_0_0 : ∀ a, (![0, 0] : Fin 2 → Nat) a + S4096x128.size a ≤ S4096x128.size a
  h_S4096x128 : 0 < S4096x128.numel
  slices_S102400x128_S100000x128_0_0 : S102400x128.Slices ![0, 0] S100000x128
  pads_S100000x128_S102400x128_024000_000 : S100000x128.Pads (![0, 0] : Fin 2 → Nat) ![2400, 0] ![0, 0] S102400x128
  shapeCasts_S4096x128_S4096x128 : S4096x128.ShapeCasts S4096x128
  inb_S128x32_S128x32_0_0 : ∀ a, (![0, 0] : Fin 2 → Nat) a + S128x32.size a ≤ S128x32.size a
  h_S128x32 : 0 < S128x32.numel
  inb_S4096x32_S4096x32_0_0 : ∀ a, (![0, 0] : Fin 2 → Nat) a + S4096x32.size a ≤ S4096x32.size a
  h_S4096x32 : 0 < S4096x32.numel
  slices_S102400x32_S100000x32_0_0 : S102400x32.Slices ![0, 0] S100000x32
  bcast_S_S100000x32 : S_.BroadcastsInDim S100000x32 (![] : Fin 0 → Fin S100000x32.rank)
  pads_S100000x32_S102400x32_024000_000 : S100000x32.Pads (![0, 0] : Fin 2 → Nat) ![2400, 0] ![0, 0] S102400x32
  shapeCasts_S32_S1x32 : S32.ShapeCasts S1x32
  shapeCasts_S4096x32_S4096x32 : S4096x32.ShapeCasts S4096x32
  broadcasts_S4096x1_S4096x32 : S4096x1.Broadcasts S4096x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S4096x32 : S1x32.Broadcasts S4096x32
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S4096x64_S64x128_S4096x128_1_0_0_1_n_n_wf : DotDims.WF S4096x64 S64x128 S4096x128 [1] [0] [0] [1] [] []
  dot_S4096x128_S128x32_S4096x32_1_0_0_1_n_n_wf : DotDims.WF S4096x128 S128x32 S4096x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x64.size a ≤ S102400x64.size a
  hwx0_0 : ∀ i : grid0.Coords, EltTy.bits .f32 = 32 ∨ (Rect.block (s := S102400x64) S4096x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x64.size a ≤ S102400x64.size a
  hwx0_1 : ∀ i : grid0.Coords, EltTy.bits .f32 = 32 ∨ (Rect.block (s := S102400x64) S4096x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x64.size a ≤ S102400x64.size a
  hwx0_2 : ∀ i : grid0.Coords, EltTy.bits .f32 = 32 ∨ (Rect.block (s := S102400x64) S4096x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x64.size a ≤ S102400x64.size a
  hwx1_0 : ∀ i : grid1.Coords, EltTy.bits .f32 = 32 ∨ (Rect.block (s := S102400x64) S4096x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x64.size a ≤ S102400x64.size a
  hwx1_1 : ∀ i : grid1.Coords, EltTy.bits .f32 = 32 ∨ (Rect.block (s := S102400x64) S4096x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4096x64.size a ≤ S102400x64.size a
  hwx1_2 : ∀ i : grid1.Coords, EltTy.bits .f32 = 32 ∨ (Rect.block (s := S102400x64) S4096x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x64.size a ≤ S102400x64.size a
  hwx2_0 : ∀ i : grid2.Coords, EltTy.bits .f32 = 32 ∨ (Rect.block (s := S102400x64) S4096x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4096x64.size a ≤ S102400x64.size a
  hwx2_1 : ∀ i : grid2.Coords, EltTy.bits .f32 = 32 ∨ (Rect.block (s := S102400x64) S4096x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4096x64.size a ≤ S102400x64.size a
  hwx2_2 : ∀ i : grid2.Coords, EltTy.bits .f32 = 32 ∨ (Rect.block (s := S102400x64) S4096x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4096x64.size a ≤ S102400x64.size a
  hwx3_0 : ∀ i : grid3.Coords, EltTy.bits .f32 = 32 ∨ (Rect.block (s := S102400x64) S4096x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4096x1.size a ≤ S102400x1.size a
  hwx3_1 : ∀ i : grid3.Coords, EltTy.bits .f32 = 32 ∨ (Rect.block (s := S102400x1) S4096x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4096x64.size a ≤ S102400x64.size a
  hwx3_2 : ∀ i : grid3.Coords, EltTy.bits .f32 = 32 ∨ (Rect.block (s := S102400x64) S4096x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4096x64.size a ≤ S102400x64.size a
  hwx4_0 : ∀ i : grid4.Coords, EltTy.bits .f32 = 32 ∨ (Rect.block (s := S102400x64) S4096x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4096x1.size a ≤ S102400x1.size a
  hwx4_1 : ∀ i : grid4.Coords, EltTy.bits .f32 = 32 ∨ (Rect.block (s := S102400x1) S4096x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x128.size a ≤ S64x128.size a
  hwx4_2 : ∀ i : grid4.Coords, EltTy.bits .f32 = 32 ∨ (Rect.block (s := S64x128) S64x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S4096x128.size a ≤ S102400x128.size a
  hwx4_4 : ∀ i : grid4.Coords, EltTy.bits .f32 = 32 ∨ (Rect.block (s := S102400x128) S4096x128.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4096x128.size a ≤ S102400x128.size a
  hwx5_0 : ∀ i : grid5.Coords, EltTy.bits .f32 = 32 ∨ (Rect.block (s := S102400x128) S4096x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S4096x1.size a ≤ S102400x1.size a
  hwx5_1 : ∀ i : grid5.Coords, EltTy.bits .f32 = 32 ∨ (Rect.block (s := S102400x1) S4096x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x32.size a ≤ S128x32.size a
  hwx5_2 : ∀ i : grid5.Coords, EltTy.bits .f32 = 32 ∨ (Rect.block (s := S128x32) S128x32.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S4096x32.size a ≤ S102400x32.size a
  hwx5_3 : ∀ i : grid5.Coords, EltTy.bits .f32 = 32 ∨ (Rect.block (s := S102400x32) S4096x32.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S4096x32.size a ≤ S102400x32.size a
  hwx6_0 : ∀ i : grid6.Coords, EltTy.bits .f32 = 32 ∨ (Rect.block (s := S102400x32) S4096x32.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S4096x1.size a ≤ S102400x1.size a
  hwx6_1 : ∀ i : grid6.Coords, EltTy.bits .f32 = 32 ∨ (Rect.block (s := S102400x1) S4096x1.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x32.size a ≤ S1x32.size a
  hwx6_2 : ∀ i : grid6.Coords, EltTy.bits .f32 = 32 ∨ (Rect.block (s := S1x32) S1x32.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S4096x32.size a ≤ S102400x32.size a
  hwx6_3 : ∀ i : grid6.Coords, EltTy.bits .f32 = 32 ∨ (Rect.block (s := S102400x32) S4096x32.size (cc6_transform_3 i) (hinb6_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S4096x64_S64x128_S4096x128_1_0_0_1_n_n : DotDims S4096x64 S64x128 S4096x128 where
  lhsContracting := [1]
  rhsContracting := [0]
  lhsNonContracting := [0]
  rhsNonContracting := [1]
  lhsBatch := []
  rhsBatch := []
  wf := dot_S4096x64_S64x128_S4096x128_1_0_0_1_n_n_wf
def dot_S4096x128_S128x32_S4096x32_1_0_0_1_n_n : DotDims S4096x128 S128x32 S4096x32 where
  lhsContracting := [1]
  rhsContracting := [0]
  lhsNonContracting := [0]
  rhsNonContracting := [1]
  lhsBatch := []
  rhsBatch := []
  wf := dot_S4096x128_S128x32_S4096x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf

abbrev win0_0 : Pipeline.Window sig grid0 :=
  Pipeline.Window.ofSpec (Memref.whole main_v27) S4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v28) S4096x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v29) S4096x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S4096x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v42) S4096x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v43) S4096x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v55) S4096x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v56) S4096x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v57) S4096x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S4096x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S4096x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v61) S4096x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v73) S4096x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v74) S4096x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg1) S64x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v75) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v76) S4096x128.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v78) S4096x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v79) S4096x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg3) S128x32.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v80) S4096x32.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v92) S4096x32.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v93) S4096x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v94) S1x32.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v95) S4096x32.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S100000x64 : Shape := ⟨2, ![100000, 64]⟩
abbrev S64x128 : Shape := ⟨2, ![64, 128]⟩
abbrev S128 : Shape := ⟨1, ![128]⟩
abbrev S128x32 : Shape := ⟨2, ![128, 32]⟩
abbrev S32 : Shape := ⟨1, ![32]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S100000x1 : Shape := ⟨2, ![100000, 1]⟩
abbrev S100000x128 : Shape := ⟨2, ![100000, 128]⟩
abbrev S1x128 : Shape := ⟨2, ![1, 128]⟩
abbrev S100000x32 : Shape := ⟨2, ![100000, 32]⟩
abbrev S1600000x32 : Shape := ⟨2, ![1600000, 32]⟩
abbrev S1x32 : Shape := ⟨2, ![1, 32]⟩

abbrev nBuf : Space → Nat
  | .hbm => 120
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S64x128, .f32⟩
  | .hbm, ⟨2, _⟩ => ⟨S128, .f32⟩
  | .hbm, ⟨3, _⟩ => ⟨S128x32, .f32⟩
  | .hbm, ⟨4, _⟩ => ⟨S32, .f32⟩
  | .hbm, ⟨5, _⟩ => ⟨S1600000, .i32⟩
  | .hbm, ⟨6, _⟩ => ⟨S1600000, .i32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x64, .f32⟩
  | .hbm, ⟨38, _⟩ => ⟨S_, .f32⟩
  | .hbm, ⟨39, _⟩ => ⟨S100000x64, .f32⟩
  | .hbm, ⟨40, _⟩ => ⟨S1600000x1, .i32⟩
  | .hbm, ⟨41, _⟩ => ⟨S100000x64, .f32⟩
  | .hbm, ⟨42, _⟩ => ⟨S100000x64, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x64, .f32⟩
  | .hbm, ⟨52, _⟩ => ⟨S_, .f32⟩
  | .hbm, ⟨53, _⟩ => ⟨S100000x64, .f32⟩
  | .hbm, ⟨54, _⟩ => ⟨S1600000x1, .i32⟩
  | .hbm, ⟨55, _⟩ => ⟨S100000x64, .f32⟩
  | .hbm, ⟨56, _⟩ => ⟨S100000x64, .f32⟩
  | .hbm, ⟨57, _⟩ => ⟨S_, .i32⟩
  | .hbm, ⟨58, _⟩ => ⟨S1600000, .i32⟩
  | .hbm, ⟨59, _⟩ => ⟨S1600000, .i1⟩
  | .hbm, ⟨60, _⟩ => ⟨S_, .i32⟩
  | .hbm, ⟨61, _⟩ => ⟨S1600000, .i32⟩
  | .hbm, ⟨62, _⟩ => ⟨S1600000, .i32⟩
  | .hbm, ⟨63, _⟩ => ⟨S1600000, .i32⟩
  | .hbm, ⟨64, _⟩ => ⟨S1600000x1, .i32⟩
  | .hbm, ⟨65, _⟩ => ⟨S1600000x64, .f32⟩
  | .hbm, ⟨66, _⟩ => ⟨S_, .f32⟩
  | .hbm, ⟨67, _⟩ => ⟨S100000x64, .f32⟩
  | .hbm, ⟨68, _⟩ => ⟨S1600000x1, .i32⟩
  | .hbm, ⟨69, _⟩ => ⟨S100000x64, .f32⟩
  | .hbm, ⟨70, _⟩ => ⟨S100000x64, .f32⟩
  | .hbm, ⟨71, _⟩ => ⟨S100000x1, .f32⟩
  | .hbm, ⟨72, _⟩ => ⟨S100000x64, .f32⟩
  | .hbm, ⟨73, _⟩ => ⟨S100000x64, .f32⟩
  | .hbm, ⟨74, _⟩ => ⟨S_, .i32⟩
  | .hbm, ⟨75, _⟩ => ⟨S1600000, .i32⟩
  | .hbm, ⟨76, _⟩ => ⟨S1600000, .i1⟩
  | .hbm, ⟨77, _⟩ => ⟨S_, .i32⟩
  | .hbm, ⟨78, _⟩ => ⟨S1600000, .i32⟩
  | .hbm, ⟨79, _⟩ => ⟨S1600000, .i32⟩
  | .hbm, ⟨80, _⟩ => ⟨S1600000, .i32⟩
  | .hbm, ⟨81, _⟩ => ⟨S1600000x1, .i32⟩
  | .hbm, ⟨82, _⟩ => ⟨S1600000x64, .f32⟩
  | .hbm, ⟨83, _⟩ => ⟨S_, .f32⟩
  | .hbm, ⟨84, _⟩ => ⟨S100000x64, .f32⟩
  | .hbm, ⟨85, _⟩ => ⟨S1600000x1, .i32⟩
  | .hbm, ⟨86, _⟩ => ⟨S100000x64, .f32⟩
  | .hbm, ⟨87, _⟩ => ⟨S100000x128, .f32⟩
  | .hbm, ⟨88, _⟩ => ⟨S100000x1, .f32⟩
  | .hbm, ⟨89, _⟩ => ⟨S100000x128, .f32⟩
  | .hbm, ⟨90, _⟩ => ⟨S100000x128, .f32⟩
  | .hbm, ⟨91, _⟩ => ⟨S1x128, .f32⟩
  | .hbm, ⟨92, _⟩ => ⟨S100000x128, .f32⟩
  | .hbm, ⟨93, _⟩ => ⟨S100000x128, .f32⟩
  | .hbm, ⟨94, _⟩ => ⟨S_, .f32⟩
  | .hbm, ⟨95, _⟩ => ⟨S100000x128, .f32⟩
  | .hbm, ⟨96, _⟩ => ⟨S100000x128, .f32⟩
  | .hbm, ⟨97, _⟩ => ⟨S100000x1, .f32⟩
  | .hbm, ⟨98, _⟩ => ⟨S100000x128, .f32⟩
  | .hbm, ⟨99, _⟩ => ⟨S100000x128, .f32⟩
  | .hbm, ⟨100, _⟩ => ⟨S100000x32, .f32⟩
  | .hbm, ⟨101, _⟩ => ⟨S_, .i32⟩
  | .hbm, ⟨102, _⟩ => ⟨S1600000, .i32⟩
  | .hbm, ⟨103, _⟩ => ⟨S1600000, .i1⟩
  | .hbm, ⟨104, _⟩ => ⟨S_, .i32⟩
  | .hbm, ⟨105, _⟩ => ⟨S1600000, .i32⟩
  | .hbm, ⟨106, _⟩ => ⟨S1600000, .i32⟩
  | .hbm, ⟨107, _⟩ => ⟨S1600000, .i32⟩
  | .hbm, ⟨108, _⟩ => ⟨S1600000x1, .i32⟩
  | .hbm, ⟨109, _⟩ => ⟨S1600000x32, .f32⟩
  | .hbm, ⟨110, _⟩ => ⟨S_, .f32⟩
  | .hbm, ⟨111, _⟩ => ⟨S100000x32, .f32⟩
  | .hbm, ⟨112, _⟩ => ⟨S1600000x1, .i32⟩
  | .hbm, ⟨113, _⟩ => ⟨S100000x32, .f32⟩
  | .hbm, ⟨114, _⟩ => ⟨S100000x1, .f32⟩
  | .hbm, ⟨115, _⟩ => ⟨S100000x32, .f32⟩
  | .hbm, ⟨116, _⟩ => ⟨S100000x32, .f32⟩
  | .hbm, ⟨117, _⟩ => ⟨S1x32, .f32⟩
  | .hbm, ⟨118, _⟩ => ⟨S100000x32, .f32⟩
  | .hbm, ⟨119, _⟩ => ⟨S100000x32, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_cst_4 : Ref sig .tc := ⟨.hbm, 23, rfl⟩
abbrev main_v11 : Ref sig .tc := ⟨.hbm, 24, rfl⟩
abbrev main_v12 : Ref sig .tc := ⟨.hbm, 25, rfl⟩
abbrev main_cst_5 : Ref sig .tc := ⟨.hbm, 26, rfl⟩
abbrev main_v13 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_6 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_7 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c_8 : Ref sig .tc := ⟨.hbm, 43, rfl⟩
abbrev main_v26 : Ref sig .tc := ⟨.hbm, 44, rfl⟩
abbrev main_v27 : Ref sig .tc := ⟨.hbm, 45, rfl⟩
abbrev main_c_9 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_10 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_c_11 : Ref sig .tc := ⟨.hbm, 57, rfl⟩
abbrev main_v37 : Ref sig .tc := ⟨.hbm, 58, rfl⟩
abbrev main_v38 : Ref sig .tc := ⟨.hbm, 59, rfl⟩
abbrev main_c_12 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_13 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_c_14 : Ref sig .tc := ⟨.hbm, 74, rfl⟩
abbrev main_v51 : Ref sig .tc := ⟨.hbm, 75, rfl⟩
abbrev main_v52 : Ref sig .tc := ⟨.hbm, 76, rfl⟩
abbrev main_c_15 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_16 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_call0_cst : Ref sig .tc := ⟨.hbm, 94, rfl⟩
abbrev main_call0_v0 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_c_17 : Ref sig .tc := ⟨.hbm, 101, rfl⟩
abbrev main_v73 : Ref sig .tc := ⟨.hbm, 102, rfl⟩
abbrev main_v74 : Ref sig .tc := ⟨.hbm, 103, rfl⟩
abbrev main_c_18 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_cst_19 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x128_S100000x128_1_0_0_1_n_n_wf : DotDims.WF S100000x64 S64x128 S100000x128 [1] [0] [0] [1] [] []
  dot_S100000x128_S128x32_S100000x32_1_0_0_1_n_n_wf : DotDims.WF S100000x128 S128x32 S100000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf

class Facts : Prop extends Facts₀ where

variable [Facts]
-- ==== Proof.KRun.lean ====
/-
  The kernel program's run with its result array NAMED. The program is seven tiled regions among stretches of host
  operations; its buffers' contents at each boundary are a fold from the launch memory (a stretch applies its
  operations in order, a region replaces its output array by what its tiles wrote back). Every weakly fair execution
  terminates without a fault, the result array ends at the last boundary's contents `W38`, and the seven argument
  arrays end as launched.
-/
import proofs.«163301_j29386166239874_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates, nothing faulting; the result array then holds the
    last boundary's contents at its buffer, and every argument array what it held at launch. -/
theorem run_result : θ_run defs (onTc (τ := τ) (main (F := F))) ⟨m, fun _ => 0, ρ⟩ (fun r => ∀ c : Dev nD,
      r.2.mem ((c.tc : Thread nD τ).loc main_v96) = W38 m ρ c (Proc.devRef .tc main_v96)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W38 m ρ c b)
    (hfin := fun c s' => by
      iintro ⟨⟨Hh, -⟩, HSI⟩
      unfold StableHlo.held
      imodintro
      iapply (pointsTo_read_all (Pipeline.ucRefs τ sig) (fun b => (((c : Thread nD τ)).1, b)) (W38 m ρ c) s')
      isplitl [Hh] <;> iassumption)
    (hQ := fun s h c =>
      ⟨h c _ (mem_uc main_v96 (by decide)),
       (h c _ (mem_uc main_arg0 (by decide))).trans (W38_main_arg0 m ρ c),
       (h c _ (mem_uc main_arg1 (by decide))).trans (W38_main_arg1 m ρ c),
       (h c _ (mem_uc main_arg2 (by decide))).trans (W38_main_arg2 m ρ c),
       (h c _ (mem_uc main_arg3 (by decide))).trans (W38_main_arg3 m ρ c),
       (h c _ (mem_uc main_arg4 (by decide))).trans (W38_main_arg4 m ρ c),
       (h c _ (mem_uc main_arg5 (by decide))).trans (W38_main_arg5 m ρ c),
       (h c _ (mem_uc main_arg6 (by decide))).trans (W38_main_arg6 m ρ c)⟩)

end Cert.KernelIdeal.Run

end
-- ==== Proof.Spec.lean ====
/-
  The graph network of this certificate, stage by stage, as whole-array functions over the extended reals, spelt with
  the host operations the reference program prints. `N = 100000` nodes, `E = 1600000` edges `src e → dst e`.

  * `gatherSum64 src dst h` (and `gatherSum32`): row `n` is the sum, over the edges `e` with `dst e = n`, of row `src e`
    of `h` (a negative source counted from the end): a row gather followed by a scatter-add into zeros;
  * `invSqrtDeg ids`: entry `n` is `max (#{e | ids e = n}, 1) ^ (-1/2)`;
  * `residual`: `h + gatherSum64 h`;  `scaled64 h s`: row `n` of `h` times `s n`;
  * `conv1 a d W b`: `max ((a · W) ∘ d + b, 0)` — rows scaled by `d`, the bias added to every row;
  * `pre2 r s W`: `(r ∘ s) · W`;  `affine a d b`: `a ∘ d + b`;
  * `result`: three residual layers, then the two graph convolutions (the first aggregates before its matrix product,
    the second after it).
-/
import proofs.«163301_j29386166239874_1_alg».proof.Proof.Gen.ReferenceIdeal
import Idealize.ShloMosaic.PureOps.Ideal

noncomputable section

namespace Cert.ReferenceIdeal.Spec

open Cert.ReferenceIdeal Cert.ReferenceIdeal.Facts₀ Idealize.ShloMosaic

/-- The edge sources as an index column, a negative source wrapped around by the node count. -/
def wrapped (src : IVec S1600000 32) : IVec S1600000x1 32 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- Edge ends as an index column. -/
def column (ids : IVec S1600000 32) : IVec S1600000x1 32 :=
  broadcastInDim S1600000x1 ![0] bcast_S1600000_S1600000x1_0 ids

/-- Row `n`: the sum over the edges into `n` of their source's row of `h` (64 columns). -/
def gatherSum64 (src dst : IVec S1600000 32) (h : FVec Ideal S100000x64 .f32) : FVec Ideal S100000x64 .f32 :=
  Host.scatterAdd scatter_S100000x64_S1600000x1_S1600000x64_1_0_0_1
    (broadcastInDim S100000x64 ![] bcast_S_S100000x64 (constant S_ .f32 0x00000000#32)) (column dst)
    (Host.gather gather_S100000x64_S1600000x1_S1600000x64_1_0_n_n_0_1_164 h (wrapped src))

/-- Row `n`: the sum over the edges into `n` of their source's row of `h` (32 columns). -/
def gatherSum32 (src dst : IVec S1600000 32) (h : FVec Ideal S100000x32 .f32) : FVec Ideal S100000x32 .f32 :=
  Host.scatterAdd scatter_S100000x32_S1600000x1_S1600000x32_1_0_0_1
    (broadcastInDim S100000x32 ![] bcast_S_S100000x32 (constant S_ .f32 0x00000000#32)) (column dst)
    (Host.gather gather_S100000x32_S1600000x1_S1600000x32_1_0_n_n_0_1_132 h (wrapped src))

/-- Entry `n`: the number of edges whose end `ids` is `n`, at least one, to the power `-1/2`. -/
def invSqrtDeg (ids : IVec S1600000 32) : FVec Ideal S100000 .f32 :=
  Host.powf (maximumf (Host.scatterAdd scatter_S100000_S1600000x1_S1600000_n_0_0_1
      (broadcastInDim S100000 ![] bcast_S_S100000 (constant S_ .f32 0x00000000#32)) (column ids)
      (broadcastInDim S1600000 ![] bcast_S_S1600000 (constant S_ .f32 0x3F800000#32)))
    (broadcastInDim S100000 ![] bcast_S_S100000 (constant S_ .f32 0x3F800000#32)))
    (broadcastInDim S100000 ![] bcast_S_S100000 (constant S_ .f32 0xBF000000#32))

/-- One residual message-passing layer. -/
def residual (src dst : IVec S1600000 32) (h : FVec Ideal S100000x64 .f32) : FVec Ideal S100000x64 .f32 :=
  addf h (gatherSum64 src dst h)

/-- Row `n` of `h` times `s n`. -/
def scaled64 (h : FVec Ideal S100000x64 .f32) (s : FVec Ideal S100000 .f32) : FVec Ideal S100000x64 .f32 :=
  mulf h (broadcastInDim S100000x64 ![0, 1] bcast_S100000x1_S100000x64_0_1
    (broadcastInDim S100000x1 ![0] bcast_S100000_S100000x1_0 s))

/-- The first graph convolution after its aggregation: `max ((a · W) ∘ d + b, 0)`. -/
def conv1 (a : FVec Ideal S100000x64 .f32) (d : FVec Ideal S100000 .f32) (W : FVec Ideal S64x128 .f32)
    (b : FVec Ideal S128 .f32) : FVec Ideal S100000x128 .f32 :=
  maximumf (addf (mulf (Host.dotGeneral dot_S100000x64_S64x128_S100000x128_1_0_0_1_n_n none a W)
      (broadcastInDim S100000x128 ![0, 1] bcast_S100000x1_S100000x128_0_1
        (broadcastInDim S100000x1 ![0] bcast_S100000_S100000x1_0 d)))
    (broadcastInDim S100000x128 ![0, 1] bcast_S1x128_S100000x128_0_1 (broadcastInDim S1x128 ![1] bcast_S128_S1x128_1 b)))
    (broadcastInDim S100000x128 ![] bcast_S_S100000x128 (constant S_ .f32 0x00000000#32))

/-- The second graph convolution before its aggregation: `(r ∘ s) · W`. -/
def pre2 (r : FVec Ideal S100000x128 .f32) (s : FVec Ideal S100000 .f32) (W : FVec Ideal S128x32 .f32) :
    FVec Ideal S100000x32 .f32 :=
  Host.dotGeneral dot_S100000x128_S128x32_S100000x32_1_0_0_1_n_n none
    (mulf r (broadcastInDim S100000x128 ![0, 1] bcast_S100000x1_S100000x128_0_1
      (broadcastInDim S100000x1 ![0] bcast_S100000_S100000x1_0 s))) W

/-- The second graph convolution after its aggregation: `a ∘ d + b`. -/
def affine (a : FVec Ideal S100000x32 .f32) (d : FVec Ideal S100000 .f32) (b : FVec Ideal S32 .f32) :
    FVec Ideal S100000x32 .f32 :=
  addf (mulf a (broadcastInDim S100000x32 ![0, 1] bcast_S100000x1_S100000x32_0_1
      (broadcastInDim S100000x1 ![0] bcast_S100000_S100000x1_0 d)))
    (broadcastInDim S100000x32 ![0, 1] bcast_S1x32_S100000x32_0_1 (broadcastInDim S1x32 ![1] bcast_S32_S1x32_1 b))

/-- The whole network. -/
def result (x : FVec Ideal S100000x64 .f32) (W1 : FVec Ideal S64x128 .f32) (b1 : FVec Ideal S128 .f32)
    (W3 : FVec Ideal S128x32 .f32) (b3 : FVec Ideal S32 .f32) (src dst : IVec S1600000 32) : FVec Ideal S100000x32 .f32 :=
  affine (gatherSum32 src dst
      (pre2 (conv1 (gatherSum64 src dst
          (scaled64 (residual src dst (residual src dst (residual src dst x))) (invSqrtDeg src)))
        (invSqrtDeg dst) W1 b1) (invSqrtDeg src) W3))
    (invSqrtDeg dst) b3

end Cert.ReferenceIdeal.Spec

end
-- ==== Proof.ChainDefs.lean ====
/-
  The values the kernel program carries from one tiled region to the next, and the buffers no later step rewrites.

  `X, W₁, b₁, W₃, b₃, src, dst` are the argument arrays at launch. `NS`, `ND` are the inverse square roots of the
  out- and in-degrees (at least one), `NScol`, `NDcol` the same as columns. A set of buffer contents is `Carried`
  when the weight, bias and edge arrays are as launched and the two degree columns hold `NScol`, `NDcol`. The first
  stretch of host operations establishes it; no later stretch and no region writes any of those buffers, so it holds
  at every region's entry and exit.
-/
import proofs.«163301_j29386166239874_1_alg».proof.Proof.Gen.KernelIdeal.Frame
import proofs.«163301_j29386166239874_1_alg».proof.Proof.Gen.ReferenceIdeal
import proofs.«163301_j29386166239874_1_alg».proof.Proof.Spec
import Idealize.ShloMosaic.Lib.StableHlo.Run

noncomputable section

namespace Cert.KernelIdeal.Chain

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg) (c : Dev nD)

/-- The node features at launch. -/
abbrev X : FVec Ideal S100000x64 .f32 := m ((c : Thread nD τ).loc main_arg0)
/-- The first weight matrix, the first bias, the second weight matrix, the second bias, at launch. -/
abbrev W₁ : FVec Ideal S64x128 .f32 := m ((c : Thread nD τ).loc main_arg1)
abbrev b₁ : FVec Ideal S128 .f32 := m ((c : Thread nD τ).loc main_arg2)
abbrev W₃ : FVec Ideal S128x32 .f32 := m ((c : Thread nD τ).loc main_arg3)
abbrev b₃ : FVec Ideal S32 .f32 := m ((c : Thread nD τ).loc main_arg4)
/-- The edges' sources and destinations at launch. -/
abbrev src : IVec S1600000 32 := m ((c : Thread nD τ).loc main_arg5)
abbrev dst : IVec S1600000 32 := m ((c : Thread nD τ).loc main_arg6)

/-- The inverse square roots of the out-degrees and of the in-degrees. -/
def NS : FVec Ideal S100000 .f32 := Cert.ReferenceIdeal.Spec.invSqrtDeg (src m c)
def ND : FVec Ideal S100000 .f32 := Cert.ReferenceIdeal.Spec.invSqrtDeg (dst m c)
/-- The same as columns, one entry per node. -/
def NScol : FVec Ideal S100000x1 .f32 := shapeCast S100000x1 (NS m c) Facts₀.shapeCasts_S100000_S100000x1
def NDcol : FVec Ideal S100000x1 .f32 := shapeCast S100000x1 (ND m c) Facts₀.shapeCasts_S100000_S100000x1

/-- Buffer contents in which the weights, biases and edge arrays are as launched and the degree columns are in
    place. -/
def Carried (W : Valuation τ sig (Elt Ideal)) : Prop :=
  W (Proc.devRef .tc main_arg1) = m ((c : Thread nD τ).loc main_arg1)
  ∧ W (Proc.devRef .tc main_arg2) = m ((c : Thread nD τ).loc main_arg2)
  ∧ W (Proc.devRef .tc main_arg3) = m ((c : Thread nD τ).loc main_arg3)
  ∧ W (Proc.devRef .tc main_arg4) = m ((c : Thread nD τ).loc main_arg4)
  ∧ W (Proc.devRef .tc main_arg5) = m ((c : Thread nD τ).loc main_arg5)
  ∧ W (Proc.devRef .tc main_arg6) = m ((c : Thread nD τ).loc main_arg6)
  ∧ W (Proc.devRef .tc main_v11) = NScol m c
  ∧ W (Proc.devRef .tc main_v16) = NDcol m c

set_option maxHeartbeats 4000000 in
/-- The first stretch leaves the arguments untouched and computes the two degree columns. -/
theorem carried4 : Carried m c (W4 m ρ c) := by
  refine ⟨?_, ?_, ?_, ?_, ?_, ?_, ?_, ?_⟩
  all_goals
    show StableHlo.after hostOps0_3 (StableHlo.after hostOps0_2 (StableHlo.after hostOps0_1 (StableHlo.after hostOps0 (W0 m ρ c)))) _ = _
    after_results_simp
  all_goals rfl

set_option maxHeartbeats 4000000 in
/-- The stretch of host operations before region 1 writes none of the carried buffers. -/
theorem carried_gap1 (W : Valuation τ sig (Elt Ideal)) (h : Carried m c W) :
    Carried m c (StableHlo.after hostOps1_3 (StableHlo.after hostOps1_2 (StableHlo.after hostOps1_1 (StableHlo.after hostOps1 (W))))) := by
  obtain ⟨h1, h2, h3, h4, h5, h6, h7, h8⟩ := h
  refine ⟨?_, ?_, ?_, ?_, ?_, ?_, ?_, ?_⟩
  · after_results_simp; exact h1
  · after_results_simp; exact h2
  · after_results_simp; exact h3
  · after_results_simp; exact h4
  · after_results_simp; exact h5
  · after_results_simp; exact h6
  · after_results_simp; exact h7
  · after_results_simp; exact h8

set_option maxHeartbeats 4000000 in
/-- The stretch of host operations before region 2 writes none of the carried buffers. -/
theorem carried_gap2 (W : Valuation τ sig (Elt Ideal)) (h : Carried m c W) :
    Carried m c (StableHlo.after hostOps2_3 (StableHlo.after hostOps2_2 (StableHlo.after hostOps2_1 (StableHlo.after hostOps2 (W))))) := by
  obtain ⟨h1, h2, h3, h4, h5, h6, h7, h8⟩ := h
  refine ⟨?_, ?_, ?_, ?_, ?_, ?_, ?_, ?_⟩
  · after_results_simp; exact h1
  · after_results_simp; exact h2
  · after_results_simp; exact h3
  · after_results_simp; exact h4
  · after_results_simp; exact h5
  · after_results_simp; exact h6
  · after_results_simp; exact h7
  · after_results_simp; exact h8

set_option maxHeartbeats 4000000 in
/-- The stretch of host operations before region 3 writes none of the carried buffers. -/
theorem carried_gap3 (W : Valuation τ sig (Elt Ideal)) (h : Carried m c W) :
    Carried m c (StableHlo.after hostOps3_3 (StableHlo.after hostOps3_2 (StableHlo.after hostOps3_1 (StableHlo.after hostOps3 (W))))) := by
  obtain ⟨h1, h2, h3, h4, h5, h6, h7, h8⟩ := h
  refine ⟨?_, ?_, ?_, ?_, ?_, ?_, ?_, ?_⟩
  · after_results_simp; exact h1
  · after_results_simp; exact h2
  · after_results_simp; exact h3
  · after_results_simp; exact h4
  · after_results_simp; exact h5
  · after_results_simp; exact h6
  · after_results_simp; exact h7
  · after_results_simp; exact h8

set_option maxHeartbeats 4000000 in
/-- The stretch of host operations before region 4 writes none of the carried buffers. -/
theorem carried_gap4 (W : Valuation τ sig (Elt Ideal)) (h : Carried m c W) :
    Carried m c (StableHlo.after hostOps4_4 (StableHlo.after hostOps4_3 (StableHlo.after hostOps4_2 (StableHlo.after hostOps4_1 (StableHlo.after hostOps4 (W)))))) := by
  obtain ⟨h1, h2, h3, h4, h5, h6, h7, h8⟩ := h
  refine ⟨?_, ?_, ?_, ?_, ?_, ?_, ?_, ?_⟩
  · after_results_simp; exact h1
  · after_results_simp; exact h2
  · after_results_simp; exact h3
  · after_results_simp; exact h4
  · after_results_simp; exact h5
  · after_results_simp; exact h6
  · after_results_simp; exact h7
  · after_results_simp; exact h8

set_option maxHeartbeats 4000000 in
/-- The stretch of host operations before region 5 writes none of the carried buffers. -/
theorem carried_gap5 (W : Valuation τ sig (Elt Ideal)) (h : Carried m c W) :
    Carried m c (StableHlo.after hostOps5_3 (StableHlo.after hostOps5_2 (StableHlo.after hostOps5_1 (StableHlo.after hostOps5 (W))))) := by
  obtain ⟨h1, h2, h3, h4, h5, h6, h7, h8⟩ := h
  refine ⟨?_, ?_, ?_, ?_, ?_, ?_, ?_, ?_⟩
  · after_results_simp; exact h1
  · after_results_simp; exact h2
  · after_results_simp; exact h3
  · after_results_simp; exact h4
  · after_results_simp; exact h5
  · after_results_simp; exact h6
  · after_results_simp; exact h7
  · after_results_simp; exact h8

set_option maxHeartbeats 4000000 in
/-- The stretch of host operations before region 6 writes none of the carried buffers. -/
theorem carried_gap6 (W : Valuation τ sig (Elt Ideal)) (h : Carried m c W) :
    Carried m c (StableHlo.after hostOps6_4 (StableHlo.after hostOps6_3 (StableHlo.after hostOps6_2 (StableHlo.after hostOps6_1 (StableHlo.after hostOps6 (W)))))) := by
  obtain ⟨h1, h2, h3, h4, h5, h6, h7, h8⟩ := h
  refine ⟨?_, ?_, ?_, ?_, ?_, ?_, ?_, ?_⟩
  · after_results_simp; exact h1
  · after_results_simp; exact h2
  · after_results_simp; exact h3
  · after_results_simp; exact h4
  · after_results_simp; exact h5
  · after_results_simp; exact h6
  · after_results_simp; exact h7
  · after_results_simp; exact h8

/-- Region 0 writes none of the carried buffers. -/
theorem carried_region0 (h : Carried m c (W4 m ρ c)) : Carried m c (W5 m ρ c) := by
  obtain ⟨h1, h2, h3, h4, h5, h6, h7, h8⟩ := h
  exact ⟨(W5_of_ne m ρ c main_arg1 (by decide)).trans h1, (W5_of_ne m ρ c main_arg2 (by decide)).trans h2,
    (W5_of_ne m ρ c main_arg3 (by decide)).trans h3, (W5_of_ne m ρ c main_arg4 (by decide)).trans h4,
    (W5_of_ne m ρ c main_arg5 (by decide)).trans h5, (W5_of_ne m ρ c main_arg6 (by decide)).trans h6,
    (W5_of_ne m ρ c main_v11 (by decide)).trans h7, (W5_of_ne m ρ c main_v16 (by decide)).trans h8⟩

/-- Region 1 writes none of the carried buffers. -/
theorem carried_region1 (h : Carried m c (W9 m ρ c)) : Carried m c (W10 m ρ c) := by
  obtain ⟨h1, h2, h3, h4, h5, h6, h7, h8⟩ := h
  exact ⟨(W10_of_ne m ρ c main_arg1 (by decide)).trans h1, (W10_of_ne m ρ c main_arg2 (by decide)).trans h2,
    (W10_of_ne m ρ c main_arg3 (by decide)).trans h3, (W10_of_ne m ρ c main_arg4 (by decide)).trans h4,
    (W10_of_ne m ρ c main_arg5 (by decide)).trans h5, (W10_of_ne m ρ c main_arg6 (by decide)).trans h6,
    (W10_of_ne m ρ c main_v11 (by decide)).trans h7, (W10_of_ne m ρ c main_v16 (by decide)).trans h8⟩

/-- Region 2 writes none of the carried buffers. -/
theorem carried_region2 (h : Carried m c (W14 m ρ c)) : Carried m c (W15 m ρ c) := by
  obtain ⟨h1, h2, h3, h4, h5, h6, h7, h8⟩ := h
  exact ⟨(W15_of_ne m ρ c main_arg1 (by decide)).trans h1, (W15_of_ne m ρ c main_arg2 (by decide)).trans h2,
    (W15_of_ne m ρ c main_arg3 (by decide)).trans h3, (W15_of_ne m ρ c main_arg4 (by decide)).trans h4,
    (W15_of_ne m ρ c main_arg5 (by decide)).trans h5, (W15_of_ne m ρ c main_arg6 (by decide)).trans h6,
    (W15_of_ne m ρ c main_v11 (by decide)).trans h7, (W15_of_ne m ρ c main_v16 (by decide)).trans h8⟩

/-- Region 3 writes none of the carried buffers. -/
theorem carried_region3 (h : Carried m c (W19 m ρ c)) : Carried m c (W20 m ρ c) := by
  obtain ⟨h1, h2, h3, h4, h5, h6, h7, h8⟩ := h
  exact ⟨(W20_of_ne m ρ c main_arg1 (by decide)).trans h1, (W20_of_ne m ρ c main_arg2 (by decide)).trans h2,
    (W20_of_ne m ρ c main_arg3 (by decide)).trans h3, (W20_of_ne m ρ c main_arg4 (by decide)).trans h4,
    (W20_of_ne m ρ c main_arg5 (by decide)).trans h5, (W20_of_ne m ρ c main_arg6 (by decide)).trans h6,
    (W20_of_ne m ρ c main_v11 (by decide)).trans h7, (W20_of_ne m ρ c main_v16 (by decide)).trans h8⟩

/-- Region 4 writes none of the carried buffers (it stages the first weight matrix as an input window, which keeps
    its array). -/
theorem carried_region4 (h : Carried m c (W25 m ρ c)) : Carried m c (W26 m ρ c) := by
  obtain ⟨h1, h2, h3, h4, h5, h6, h7, h8⟩ := h
  exact ⟨((W26_arr m ρ c 2).trans (((dat4 (V25 m ρ) c).arrAt_in 2 rfl _).trans (A_eq4 (V25 m ρ) c 2))).trans h1, (W26_of_ne m ρ c main_arg2 (by decide)).trans h2,
    (W26_of_ne m ρ c main_arg3 (by decide)).trans h3, (W26_of_ne m ρ c main_arg4 (by decide)).trans h4,
    (W26_of_ne m ρ c main_arg5 (by decide)).trans h5, (W26_of_ne m ρ c main_arg6 (by decide)).trans h6,
    (W26_of_ne m ρ c main_v11 (by decide)).trans h7, (W26_of_ne m ρ c main_v16 (by decide)).trans h8⟩

/-- Region 5 writes none of the carried buffers (it stages the second weight matrix as an input window, which keeps
    its array). -/
theorem carried_region5 (h : Carried m c (W30 m ρ c)) : Carried m c (W31 m ρ c) := by
  obtain ⟨h1, h2, h3, h4, h5, h6, h7, h8⟩ := h
  exact ⟨(W31_of_ne m ρ c main_arg1 (by decide)).trans h1, (W31_of_ne m ρ c main_arg2 (by decide)).trans h2,
    ((W31_arr m ρ c 2).trans (((dat5 (V30 m ρ) c).arrAt_in 2 rfl _).trans (A_eq5 (V30 m ρ) c 2))).trans h3, (W31_of_ne m ρ c main_arg4 (by decide)).trans h4,
    (W31_of_ne m ρ c main_arg5 (by decide)).trans h5, (W31_of_ne m ρ c main_arg6 (by decide)).trans h6,
    (W31_of_ne m ρ c main_v11 (by decide)).trans h7, (W31_of_ne m ρ c main_v16 (by decide)).trans h8⟩

/-- Region 6 writes none of the carried buffers. -/
theorem carried_region6 (h : Carried m c (W36 m ρ c)) : Carried m c (W37 m ρ c) := by
  obtain ⟨h1, h2, h3, h4, h5, h6, h7, h8⟩ := h
  exact ⟨(W37_of_ne m ρ c main_arg1 (by decide)).trans h1, (W37_of_ne m ρ c main_arg2 (by decide)).trans h2,
    (W37_of_ne m ρ c main_arg3 (by decide)).trans h3, (W37_of_ne m ρ c main_arg4 (by decide)).trans h4,
    (W37_of_ne m ρ c main_arg5 (by decide)).trans h5, (W37_of_ne m ρ c main_arg6 (by decide)).trans h6,
    (W37_of_ne m ρ c main_v11 (by decide)).trans h7, (W37_of_ne m ρ c main_v16 (by decide)).trans h8⟩

/-- The carried buffers at every region's entry and exit. -/
theorem carried5 : Carried m c (W5 m ρ c) := carried_region0 m ρ c (carried4 m ρ c)
theorem carried9 : Carried m c (W9 m ρ c) := carried_gap1 m c _ (carried5 m ρ c)
theorem carried10 : Carried m c (W10 m ρ c) := carried_region1 m ρ c (carried9 m ρ c)
theorem carried14 : Carried m c (W14 m ρ c) := carried_gap2 m c _ (carried10 m ρ c)
theorem carried15 : Carried m c (W15 m ρ c) := carried_region2 m ρ c (carried14 m ρ c)
theorem carried19 : Carried m c (W19 m ρ c) := carried_gap3 m c _ (carried15 m ρ c)
theorem carried20 : Carried m c (W20 m ρ c) := carried_region3 m ρ c (carried19 m ρ c)
theorem carried25 : Carried m c (W25 m ρ c) := carried_gap4 m c _ (carried20 m ρ c)
theorem carried26 : Carried m c (W26 m ρ c) := carried_region4 m ρ c (carried25 m ρ c)
theorem carried30 : Carried m c (W30 m ρ c) := carried_gap5 m c _ (carried26 m ρ c)
theorem carried31 : Carried m c (W31 m ρ c) := carried_region5 m ρ c (carried30 m ρ c)
theorem carried36 : Carried m c (W36 m ρ c) := carried_gap6 m c _ (carried31 m ρ c)

end Cert.KernelIdeal.Chain

end
-- ==== Proof.PadCalls.lean ====
/-
  Every zero-padding of a node array in the kernel program is a call of a two-operation host function: the integer
  zero converted to a float, then the pad of the operand with that value (2400 rows below, nothing elsewhere). Written
  over typed buffer references, such a call is the same two operations written over the buffers themselves: moving a
  value between a typed reference and its buffer is a transport along reflexivity. Fourteen such calls, two or three
  before each region.
-/
import proofs.«163301_j29386166239874_1_alg».proof.Proof.Gen.KernelIdeal.Launch
import Idealize.ShloMosaic.PureOps.Ideal

noncomputable section

namespace Cert.KernelIdeal.Chain

open Cert.KernelIdeal Cert.KernelIdeal.Gen Idealize.ShloMosaic Idealize.ShloMosaic.TcCoe

/-- The pad of `main_arg0` into `main_v27`, as two plain operations. -/
theorem hostOps0_1_plain : (hostOps0_1 : List (HloOp τ sig (Elt Ideal))) =
    [ StableHlo.unary main_c_8 main_call0_v0 (fun (u : IVec S_ 32) => (sitofp .f32 u : FVec Ideal S_ .f32)),
      StableHlo.binary main_arg0 main_call0_v0 main_v27 ((fun x v => pad S102400x64 ![0, 0] ![2400, 0] ![0, 0] x v pads_S100000x64_S102400x64_024000_000 h_S_) :
        (⟨S100000x64, .f32⟩ : BufTy).Contents (Elt Ideal) → (⟨S_, .f32⟩ : BufTy).Contents (Elt Ideal) → (⟨S102400x64, .f32⟩ : BufTy).Contents (Elt Ideal)) ] := rfl

/-- The pad of `main_v26` into `main_v28`, as two plain operations. -/
theorem hostOps0_3_plain : (hostOps0_3 : List (HloOp τ sig (Elt Ideal))) =
    [ StableHlo.unary main_c_9 main_call1_v0 (fun (u : IVec S_ 32) => (sitofp .f32 u : FVec Ideal S_ .f32)),
      StableHlo.binary main_v26 main_call1_v0 main_v28 ((fun x v => pad S102400x64 ![0, 0] ![2400, 0] ![0, 0] x v pads_S100000x64_S102400x64_024000_000 h_S_) :
        (⟨S100000x64, .f32⟩ : BufTy).Contents (Elt Ideal) → (⟨S_, .f32⟩ : BufTy).Contents (Elt Ideal) → (⟨S102400x64, .f32⟩ : BufTy).Contents (Elt Ideal)) ] := rfl

/-- The pad of `main_v30` into `main_v41`, as two plain operations. -/
theorem hostOps1_1_plain : (hostOps1_1 : List (HloOp τ sig (Elt Ideal))) =
    [ StableHlo.unary main_c_13 main_call2_v0 (fun (u : IVec S_ 32) => (sitofp .f32 u : FVec Ideal S_ .f32)),
      StableHlo.binary main_v30 main_call2_v0 main_v41 ((fun x v => pad S102400x64 ![0, 0] ![2400, 0] ![0, 0] x v pads_S100000x64_S102400x64_024000_000 h_S_) :
        (⟨S100000x64, .f32⟩ : BufTy).Contents (Elt Ideal) → (⟨S_, .f32⟩ : BufTy).Contents (Elt Ideal) → (⟨S102400x64, .f32⟩ : BufTy).Contents (Elt Ideal)) ] := rfl

/-- The pad of `main_v40` into `main_v42`, as two plain operations. -/
theorem hostOps1_3_plain : (hostOps1_3 : List (HloOp τ sig (Elt Ideal))) =
    [ StableHlo.unary main_c_14 main_call3_v0 (fun (u : IVec S_ 32) => (sitofp .f32 u : FVec Ideal S_ .f32)),
      StableHlo.binary main_v40 main_call3_v0 main_v42 ((fun x v => pad S102400x64 ![0, 0] ![2400, 0] ![0, 0] x v pads_S100000x64_S102400x64_024000_000 h_S_) :
        (⟨S100000x64, .f32⟩ : BufTy).Contents (Elt Ideal) → (⟨S_, .f32⟩ : BufTy).Contents (Elt Ideal) → (⟨S102400x64, .f32⟩ : BufTy).Contents (Elt Ideal)) ] := rfl

/-- The pad of `main_v44` into `main_v55`, as two plain operations. -/
theorem hostOps2_1_plain : (hostOps2_1 : List (HloOp τ sig (Elt Ideal))) =
    [ StableHlo.unary main_c_18 main_call4_v0 (fun (u : IVec S_ 32) => (sitofp .f32 u : FVec Ideal S_ .f32)),
      StableHlo.binary main_v44 main_call4_v0 main_v55 ((fun x v => pad S102400x64 ![0, 0] ![2400, 0] ![0, 0] x v pads_S100000x64_S102400x64_024000_000 h_S_) :
        (⟨S100000x64, .f32⟩ : BufTy).Contents (Elt Ideal) → (⟨S_, .f32⟩ : BufTy).Contents (Elt Ideal) → (⟨S102400x64, .f32⟩ : BufTy).Contents (Elt Ideal)) ] := rfl

/-- The pad of `main_v54` into `main_v56`, as two plain operations. -/
theorem hostOps2_3_plain : (hostOps2_3 : List (HloOp τ sig (Elt Ideal))) =
    [ StableHlo.unary main_c_19 main_call5_v0 (fun (u : IVec S_ 32) => (sitofp .f32 u : FVec Ideal S_ .f32)),
      StableHlo.binary main_v54 main_call5_v0 main_v56 ((fun x v => pad S102400x64 ![0, 0] ![2400, 0] ![0, 0] x v pads_S100000x64_S102400x64_024000_000 h_S_) :
        (⟨S100000x64, .f32⟩ : BufTy).Contents (Elt Ideal) → (⟨S_, .f32⟩ : BufTy).Contents (Elt Ideal) → (⟨S102400x64, .f32⟩ : BufTy).Contents (Elt Ideal)) ] := rfl

/-- The pad of `main_v58` into `main_v59`, as two plain operations. -/
theorem hostOps3_1_plain : (hostOps3_1 : List (HloOp τ sig (Elt Ideal))) =
    [ StableHlo.unary main_c_20 main_call6_v0 (fun (u : IVec S_ 32) => (sitofp .f32 u : FVec Ideal S_ .f32)),
      StableHlo.binary main_v58 main_call6_v0 main_v59 ((fun x v => pad S102400x64 ![0, 0] ![2400, 0] ![0, 0] x v pads_S100000x64_S102400x64_024000_000 h_S_) :
        (⟨S100000x64, .f32⟩ : BufTy).Contents (Elt Ideal) → (⟨S_, .f32⟩ : BufTy).Contents (Elt Ideal) → (⟨S102400x64, .f32⟩ : BufTy).Contents (Elt Ideal)) ] := rfl

/-- The pad of `main_v11` into `main_v60`, as two plain operations. -/
theorem hostOps3_3_plain : (hostOps3_3 : List (HloOp τ sig (Elt Ideal))) =
    [ StableHlo.unary main_c_21 main_call7_v0 (fun (u : IVec S_ 32) => (sitofp .f32 u : FVec Ideal S_ .f32)),
      StableHlo.binary main_v11 main_call7_v0 main_v60 ((fun x v => pad S102400x1 ![0, 0] ![2400, 0] ![0, 0] x v pads_S100000x1_S102400x1_024000_000 h_S_) :
        (⟨S100000x1, .f32⟩ : BufTy).Contents (Elt Ideal) → (⟨S_, .f32⟩ : BufTy).Contents (Elt Ideal) → (⟨S102400x1, .f32⟩ : BufTy).Contents (Elt Ideal)) ] := rfl

/-- The pad of `main_v72` into `main_v73`, as two plain operations. -/
theorem hostOps4_1_plain : (hostOps4_1 : List (HloOp τ sig (Elt Ideal))) =
    [ StableHlo.unary main_c_25 main_call8_v0 (fun (u : IVec S_ 32) => (sitofp .f32 u : FVec Ideal S_ .f32)),
      StableHlo.binary main_v72 main_call8_v0 main_v73 ((fun x v => pad S102400x64 ![0, 0] ![2400, 0] ![0, 0] x v pads_S100000x64_S102400x64_024000_000 h_S_) :
        (⟨S100000x64, .f32⟩ : BufTy).Contents (Elt Ideal) → (⟨S_, .f32⟩ : BufTy).Contents (Elt Ideal) → (⟨S102400x64, .f32⟩ : BufTy).Contents (Elt Ideal)) ] := rfl

/-- The pad of `main_v16` into `main_v74`, as two plain operations. -/
theorem hostOps4_3_plain : (hostOps4_3 : List (HloOp τ sig (Elt Ideal))) =
    [ StableHlo.unary main_c_26 main_call9_v0 (fun (u : IVec S_ 32) => (sitofp .f32 u : FVec Ideal S_ .f32)),
      StableHlo.binary main_v16 main_call9_v0 main_v74 ((fun x v => pad S102400x1 ![0, 0] ![2400, 0] ![0, 0] x v pads_S100000x1_S102400x1_024000_000 h_S_) :
        (⟨S100000x1, .f32⟩ : BufTy).Contents (Elt Ideal) → (⟨S_, .f32⟩ : BufTy).Contents (Elt Ideal) → (⟨S102400x1, .f32⟩ : BufTy).Contents (Elt Ideal)) ] := rfl

/-- The pad of `main_v77` into `main_v78`, as two plain operations. -/
theorem hostOps5_1_plain : (hostOps5_1 : List (HloOp τ sig (Elt Ideal))) =
    [ StableHlo.unary main_c_27 main_call10_v0 (fun (u : IVec S_ 32) => (sitofp .f32 u : FVec Ideal S_ .f32)),
      StableHlo.binary main_v77 main_call10_v0 main_v78 ((fun x v => pad S102400x128 ![0, 0] ![2400, 0] ![0, 0] x v pads_S100000x128_S102400x128_024000_000 h_S_) :
        (⟨S100000x128, .f32⟩ : BufTy).Contents (Elt Ideal) → (⟨S_, .f32⟩ : BufTy).Contents (Elt Ideal) → (⟨S102400x128, .f32⟩ : BufTy).Contents (Elt Ideal)) ] := rfl

/-- The pad of `main_v11` into `main_v79`, as two plain operations. -/
theorem hostOps5_3_plain : (hostOps5_3 : List (HloOp τ sig (Elt Ideal))) =
    [ StableHlo.unary main_c_28 main_call11_v0 (fun (u : IVec S_ 32) => (sitofp .f32 u : FVec Ideal S_ .f32)),
      StableHlo.binary main_v11 main_call11_v0 main_v79 ((fun x v => pad S102400x1 ![0, 0] ![2400, 0] ![0, 0] x v pads_S100000x1_S102400x1_024000_000 h_S_) :
        (⟨S100000x1, .f32⟩ : BufTy).Contents (Elt Ideal) → (⟨S_, .f32⟩ : BufTy).Contents (Elt Ideal) → (⟨S102400x1, .f32⟩ : BufTy).Contents (Elt Ideal)) ] := rfl

/-- The pad of `main_v91` into `main_v92`, as two plain operations. -/
theorem hostOps6_1_plain : (hostOps6_1 : List (HloOp τ sig (Elt Ideal))) =
    [ StableHlo.unary main_c_32 main_call12_v0 (fun (u : IVec S_ 32) => (sitofp .f32 u : FVec Ideal S_ .f32)),
      StableHlo.binary main_v91 main_call12_v0 main_v92 ((fun x v => pad S102400x32 ![0, 0] ![2400, 0] ![0, 0] x v pads_S100000x32_S102400x32_024000_000 h_S_) :
        (⟨S100000x32, .f32⟩ : BufTy).Contents (Elt Ideal) → (⟨S_, .f32⟩ : BufTy).Contents (Elt Ideal) → (⟨S102400x32, .f32⟩ : BufTy).Contents (Elt Ideal)) ] := rfl

/-- The pad of `main_v16` into `main_v93`, as two plain operations. -/
theorem hostOps6_3_plain : (hostOps6_3 : List (HloOp τ sig (Elt Ideal))) =
    [ StableHlo.unary main_c_33 main_call13_v0 (fun (u : IVec S_ 32) => (sitofp .f32 u : FVec Ideal S_ .f32)),
      StableHlo.binary main_v16 main_call13_v0 main_v93 ((fun x v => pad S102400x1 ![0, 0] ![2400, 0] ![0, 0] x v pads_S100000x1_S102400x1_024000_000 h_S_) :
        (⟨S100000x1, .f32⟩ : BufTy).Contents (Elt Ideal) → (⟨S_, .f32⟩ : BufTy).Contents (Elt Ideal) → (⟨S102400x1, .f32⟩ : BufTy).Contents (Elt Ideal)) ] := rfl

end Cert.KernelIdeal.Chain

end
-- ==== Proof.Blocks.lean ====
/-
  What each of the five row-tiled kernels leaves in its output array, as ONE function of its (row-padded) input
  arrays, index by index, over the extended reals. The arrays have 102400 rows (100000 padded up to 25 tiles of
  4096 rows); a row of the output depends only on the same row of the row-indexed inputs, on the whole weight matrix
  and on the bias row:

  * `sumRows`     — entry (r, j) is  A[r, j] + B[r, j];
  * `scaleRows`   — entry (r, j) is  A[r, j] · s[r, 0];
  * `denseRelu`   — entry (r, j) is  max ((∑ₖ A[r, k] · W[k, j]) · d[r, 0] + b[0, j], 0);
  * `scaleDense`  — entry (r, j) is  ∑ₖ (H[r, k] · s[r, 0]) · W[k, j];
  * `affineRows`  — entry (r, j) is  A[r, j] · d[r, 0] + b[0, j].
-/
import proofs.«163301_j29386166239874_1_alg».proof.KernelIdeal
import Idealize.ShloMosaic.PureOps.Ideal
import Idealize.ShloMosaic.Lib.ValueIdx

noncomputable section

namespace Cert.KernelIdeal.Blocks

open Cert.KernelIdeal Idealize.ShloMosaic Idealize.ShloMosaic.ValueIdx

/-- The row of an index of a two-axis array, as a number below the literal row count. -/
abbrev row {n f : Nat} (i : (⟨2, ![n, f]⟩ : Shape).Idx) : Fin n := ⟨(i 0).val, idx2_lt0 i⟩
/-- The column of an index of a two-axis array, as a number below the literal column count. -/
abbrev col {n f : Nat} (i : (⟨2, ![n, f]⟩ : Shape).Idx) : Fin f := ⟨(i 1).val, idx2_lt1 i⟩

/-- An index is its row and its column. -/
theorem eq_row_col {n f : Nat} (i : (⟨2, ![n, f]⟩ : Shape).Idx) : i = ix2 (row i) (col i) := by
  funext a
  match a with
  | ⟨0, _⟩ => rfl
  | ⟨1, _⟩ => rfl

/-- The entrywise sum of two arrays of 64 columns. -/
def sumRows (A B : FVec Ideal S102400x64 .f32) : FVec Ideal S102400x64 .f32 := fun i => A i + B i

/-- Every row of `A` scaled by that row's entry of the column `s`. -/
def scaleRows (A : FVec Ideal S102400x64 .f32) (s : FVec Ideal S102400x1 .f32) : FVec Ideal S102400x64 .f32 :=
  fun i => A i * s (ix2 (row i) (0 : Fin 1))

/-- Row `r` of `A` times the matrix `W`, scaled by `d[r, 0]`, plus the bias row, clamped below at zero. -/
def denseRelu (A : FVec Ideal S102400x64 .f32) (d : FVec Ideal S102400x1 .f32) (W : FVec Ideal S64x128 .f32)
    (b : FVec Ideal S1x128 .f32) : FVec Ideal S102400x128 .f32 :=
  fun i => max ((∑ k : Fin 64, A (ix2 (row i) k) * W (ix2 k (col i))) * d (ix2 (row i) (0 : Fin 1))
    + b (ix2 (0 : Fin 1) (col i))) (Ideal.ofBits .f32 0x00000000#32)

/-- Row `r` of `H`, scaled by `s[r, 0]`, times the matrix `W`. -/
def scaleDense (H : FVec Ideal S102400x128 .f32) (s : FVec Ideal S102400x1 .f32) (W : FVec Ideal S128x32 .f32) :
    FVec Ideal S102400x32 .f32 :=
  fun i => ∑ k : Fin 128, (H (ix2 (row i) k) * s (ix2 (row i) (0 : Fin 1))) * W (ix2 k (col i))

/-- Every row of `A` scaled by that row's entry of the column `d`, plus the bias row. -/
def affineRows (A : FVec Ideal S102400x32 .f32) (d : FVec Ideal S102400x1 .f32) (b : FVec Ideal S1x32 .f32) :
    FVec Ideal S102400x32 .f32 :=
  fun i => A i * d (ix2 (row i) (0 : Fin 1)) + b (ix2 (0 : Fin 1) (col i))

end Cert.KernelIdeal.Blocks

end
-- ==== Proof.PayAdd.lean ====
/-
  The residual-add kernel's stored value at an entry. The body adds its two loaded tiles entry by entry (the
  shape casts in between are to the same shape), so if entry `j` of the two tiles is entry `k` of two arrays
  `A` and `B`, the stored entry `j` is entry `k` of their entrywise sum. The program holds three copies of this
  kernel, one per residual layer.
-/
import proofs.«163301_j29386166239874_1_alg».proof.Proof.Gen.KernelIdeal.Skeleton
import proofs.«163301_j29386166239874_1_alg».proof.Proof.Blocks
import Idealize.ShloMosaic.Lib.Pipeline.Value

noncomputable section

namespace Cert.KernelIdeal.Pay

open Cert.KernelIdeal Cert.KernelIdeal.Gen Idealize.ShloMosaic Idealize.ShloMosaic.ValueIdx

/-- The entrywise sum of two tiles, read where the tiles are read off two arrays. -/
theorem sum_at (x0 x1 : Vec Ideal S4096x64 .f32) (A B : FVec Ideal S102400x64 .f32) (j : S4096x64.Idx)
    (k : S102400x64.Idx) (h0 : x0 j = A k) (h1 : x1 j = B k) : addf x0 x1 j = Blocks.sumRows A B k := by
  show x0 j + x1 j = A k + B k
  rw [h0, h1]

/-- The first residual layer's body: its stored entry is the sum of the two arrays' entries. -/
theorem pay0_at (x0 x1 : Vec Ideal S4096x64 .f32) (A B : FVec Ideal S102400x64 .f32) (j : S4096x64.Idx)
    (k : S102400x64.Idx) (h0 : x0 j = A k) (h1 : x1 j = B k) : k0_pay1 x0 x1 j = Blocks.sumRows A B k := by
  unfold k0_pay1
  simp only [shapeCast_self]
  exact sum_at x0 x1 A B j k h0 h1

/-- The second residual layer's body: the same sum. -/
theorem pay1_at (x0 x1 : Vec Ideal S4096x64 .f32) (A B : FVec Ideal S102400x64 .f32) (j : S4096x64.Idx)
    (k : S102400x64.Idx) (h0 : x0 j = A k) (h1 : x1 j = B k) : k1_pay1 x0 x1 j = Blocks.sumRows A B k := by
  unfold k1_pay1
  simp only [shapeCast_self]
  exact sum_at x0 x1 A B j k h0 h1

/-- The third residual layer's body: the same sum. -/
theorem pay2_at (x0 x1 : Vec Ideal S4096x64 .f32) (A B : FVec Ideal S102400x64 .f32) (j : S4096x64.Idx)
    (k : S102400x64.Idx) (h0 : x0 j = A k) (h1 : x1 j = B k) : k2_pay1 x0 x1 j = Blocks.sumRows A B k := by
  unfold k2_pay1
  simp only [shapeCast_self]
  exact sum_at x0 x1 A B j k h0 h1

end Cert.KernelIdeal.Pay

end
-- ==== Proof.Reg0.lean ====
/-
  Region 0: the entrywise sum of two arrays of 102400 rows and 64 columns, computed tile by tile (25 tiles of
  4096 rows, full width). Tile `t` of each of the three arrays is rows `4096·t … 4096·t + 4095`; the body adds the
  two input tiles entry by entry and writes the sum back to tile `t` of the output. The tiles cover the output
  array, so it ends as the entrywise sum of the two input arrays as the region finds them.
-/
import proofs.«163301_j29386166239874_1_alg».proof.Proof.Gen.KernelIdeal.Frame
import proofs.«163301_j29386166239874_1_alg».proof.Proof.Blocks
import proofs.«163301_j29386166239874_1_alg».proof.Proof.PayAdd
import Idealize.ShloMosaic.Lib.Pipeline.Value

noncomputable section

namespace Cert.KernelIdeal.Region0

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The corner of a whole tile. -/
theorem origin : (![0, 0] : Fin 2 → Nat) = fun _ => 0 := funext fun a => by fin_cases a <;> rfl

/-- The three windows move together: at grid point `t` each is at tile row `t`, tile column 0. -/
theorem tile_facts : ∀ t : Fin cfg0.N, win0_0.index t (0 : Fin 2) = win0_2.index t (0 : Fin 2)
    ∧ win0_0.index t (1 : Fin 2) = win0_2.index t (1 : Fin 2)
    ∧ win0_1.index t (0 : Fin 2) = win0_2.index t (0 : Fin 2)
    ∧ win0_1.index t (1 : Fin 2) = win0_2.index t (1 : Fin 2)
    ∧ win0_2.index t (0 : Fin 2) = t.val ∧ win0_2.index t (1 : Fin 2) = 0 :=
  (by decide +kernel : ∀ t : Fin grid0.N, _)

/-- What grid point `t` writes back is tile `t` of the entrywise sum of the two input arrays. -/
theorem flushed_eq (c : Dev nD) (t : Fin cfg0.N) :
    (dat0 V c).flushed 2 t
      = ((cfg0.win 2).blk t).view.read (Elt Ideal) (Blocks.sumRows (V c main_v27) (V c main_v28)) := by
  show (cfg0.win 2).cut (grid0.coords t) ((dat0 V c).after 2 t) = _
  rw [after0_2]
  unfold out0_2
  rw [View.canon_unit_zero origin]
  simp only [View.ld_unit_zero (S := S4096x64) origin]
  obtain ⟨e0, e1, e2, e3, e4, e5⟩ := tile_facts t
  funext j
  have h0 : ((cfg0.win 0).blk t).view.emb j = ((cfg0.win 2).blk t).view.emb j := by
    funext a; apply Fin.ext
    match a with
    | ⟨0, _⟩ => show win0_0.index t (0 : Fin 2) * 4096 + 1 * (j 0).val = win0_2.index t (0 : Fin 2) * 4096 + 1 * (j 0).val; omega
    | ⟨1, _⟩ => show win0_0.index t (1 : Fin 2) * 64 + 1 * (j 1).val = win0_2.index t (1 : Fin 2) * 64 + 1 * (j 1).val; omega
  have h1 : ((cfg0.win 1).blk t).view.emb j = ((cfg0.win 2).blk t).view.emb j := by
    funext a; apply Fin.ext
    match a with
    | ⟨0, _⟩ => show win0_1.index t (0 : Fin 2) * 4096 + 1 * (j 0).val = win0_2.index t (0 : Fin 2) * 4096 + 1 * (j 0).val; omega
    | ⟨1, _⟩ => show win0_1.index t (1 : Fin 2) * 64 + 1 * (j 1).val = win0_2.index t (1 : Fin 2) * 64 + 1 * (j 1).val; omega
  refine Pay.pay0_at (iblk0 V c 0 t) (iblk0 V c 1 t) (V c main_v27) (V c main_v28) j (((cfg0.win 2).blk t).view.emb j) ?_ ?_
  · show V c main_v27 (((cfg0.win 0).blk t).view.emb j) = V c main_v27 (((cfg0.win 2).blk t).view.emb j)
    rw [h0]
  · show V c main_v28 (((cfg0.win 1).blk t).view.emb j) = V c main_v28 (((cfg0.win 2).blk t).view.emb j)
    rw [h1]

/-- An index of the output array lies in tile `t` iff each coordinate lies in the tile's range on its axis. -/
theorem mem_tile (t : Fin cfg0.N) (i : S102400x64.Idx) :
    i ∈ ((cfg0.win 2).blk t).view.set ↔ ∀ a : Fin 2, win0_2.index t a * S4096x64.size a ≤ (i a).val
      ∧ (i a).val < win0_2.index t a * S4096x64.size a + S4096x64.size a := by
  show i ∈ ((View.whole main_v29).slice (win0_2.rect t)).set ↔ _
  rw [View.set_slice_whole, Rect.mem_set_unit]
  exact Iff.rfl

/-- Every index of the output array lies in the tile of its row's quotient by 4096. -/
theorem cover (i : S102400x64.Idx) :
    ∃ t : Fin cfg0.N, (cfg0.win 2).flush t = true ∧ i ∈ ((cfg0.win 2).blk t).view.set := by
  have hi0 : (i 0).val < 102400 := (i 0).isLt
  have hi1 : (i 1).val < 64 := (i 1).isLt
  have ht : (i 0).val / 4096 < cfg0.N := by show (i 0).val / 4096 < 25; omega
  obtain ⟨e0, e1, e2, e3, e4, e5⟩ := tile_facts ⟨(i 0).val / 4096, ht⟩
  have e4' : win0_2.index ⟨(i 0).val / 4096, ht⟩ (0 : Fin 2) = (i 0).val / 4096 := e4
  refine ⟨⟨(i 0).val / 4096, ht⟩, flush0_2 _, ?_⟩
  rw [mem_tile]
  intro a
  match a with
  | ⟨0, _⟩ =>
    show win0_2.index ⟨(i 0).val / 4096, ht⟩ (0 : Fin 2) * 4096 ≤ (i 0).val
      ∧ (i 0).val < win0_2.index ⟨(i 0).val / 4096, ht⟩ (0 : Fin 2) * 4096 + 4096
    omega
  | ⟨1, _⟩ =>
    show win0_2.index ⟨(i 0).val / 4096, ht⟩ (1 : Fin 2) * 64 ≤ (i 1).val
      ∧ (i 1).val < win0_2.index ⟨(i 0).val / 4096, ht⟩ (1 : Fin 2) * 64 + 64
    omega

/-- After the region its output array is the entrywise sum of the two input arrays as the region finds them. -/
theorem final (c : Dev nD) :
    (dat0 V c).arrAt 2 cfg0.N = Blocks.sumRows (V c main_v27) (V c main_v28) :=
  (dat0 V c).arrAt_eq_of_cover 2 _ (fun t _ => flushed_eq V c t) (fun i => cover i)

end Cert.KernelIdeal.Region0

end
-- ==== Proof.Reg1.lean ====
/-
  Region 1: the entrywise sum of two arrays of 102400 rows and 64 columns, computed tile by tile (25 tiles of
  4096 rows, full width). Tile `t` of each of the three arrays is rows `4096·t … 4096·t + 4095`; the body adds the
  two input tiles entry by entry and writes the sum back to tile `t` of the output. The tiles cover the output
  array, so it ends as the entrywise sum of the two input arrays as the region finds them.
-/
import proofs.«163301_j29386166239874_1_alg».proof.Proof.Gen.KernelIdeal.Frame
import proofs.«163301_j29386166239874_1_alg».proof.Proof.Blocks
import proofs.«163301_j29386166239874_1_alg».proof.Proof.PayAdd
import Idealize.ShloMosaic.Lib.Pipeline.Value

noncomputable section

namespace Cert.KernelIdeal.Region1

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The corner of a whole tile. -/
theorem origin : (![0, 0] : Fin 2 → Nat) = fun _ => 0 := funext fun a => by fin_cases a <;> rfl

/-- The three windows move together: at grid point `t` each is at tile row `t`, tile column 0. -/
theorem tile_facts : ∀ t : Fin cfg1.N, win1_0.index t (0 : Fin 2) = win1_2.index t (0 : Fin 2)
    ∧ win1_0.index t (1 : Fin 2) = win1_2.index t (1 : Fin 2)
    ∧ win1_1.index t (0 : Fin 2) = win1_2.index t (0 : Fin 2)
    ∧ win1_1.index t (1 : Fin 2) = win1_2.index t (1 : Fin 2)
    ∧ win1_2.index t (0 : Fin 2) = t.val ∧ win1_2.index t (1 : Fin 2) = 0 :=
  (by decide +kernel : ∀ t : Fin grid1.N, _)

/-- What grid point `t` writes back is tile `t` of the entrywise sum of the two input arrays. -/
theorem flushed_eq (c : Dev nD) (t : Fin cfg1.N) :
    (dat1 V c).flushed 2 t
      = ((cfg1.win 2).blk t).view.read (Elt Ideal) (Blocks.sumRows (V c main_v41) (V c main_v42)) := by
  show (cfg1.win 2).cut (grid1.coords t) ((dat1 V c).after 2 t) = _
  rw [after1_2]
  unfold out1_2
  rw [View.canon_unit_zero origin]
  simp only [View.ld_unit_zero (S := S4096x64) origin]
  obtain ⟨e0, e1, e2, e3, e4, e5⟩ := tile_facts t
  funext j
  have h0 : ((cfg1.win 0).blk t).view.emb j = ((cfg1.win 2).blk t).view.emb j := by
    funext a; apply Fin.ext
    match a with
    | ⟨0, _⟩ => show win1_0.index t (0 : Fin 2) * 4096 + 1 * (j 0).val = win1_2.index t (0 : Fin 2) * 4096 + 1 * (j 0).val; omega
    | ⟨1, _⟩ => show win1_0.index t (1 : Fin 2) * 64 + 1 * (j 1).val = win1_2.index t (1 : Fin 2) * 64 + 1 * (j 1).val; omega
  have h1 : ((cfg1.win 1).blk t).view.emb j = ((cfg1.win 2).blk t).view.emb j := by
    funext a; apply Fin.ext
    match a with
    | ⟨0, _⟩ => show win1_1.index t (0 : Fin 2) * 4096 + 1 * (j 0).val = win1_2.index t (0 : Fin 2) * 4096 + 1 * (j 0).val; omega
    | ⟨1, _⟩ => show win1_1.index t (1 : Fin 2) * 64 + 1 * (j 1).val = win1_2.index t (1 : Fin 2) * 64 + 1 * (j 1).val; omega
  refine Pay.pay1_at (iblk1 V c 0 t) (iblk1 V c 1 t) (V c main_v41) (V c main_v42) j (((cfg1.win 2).blk t).view.emb j) ?_ ?_
  · show V c main_v41 (((cfg1.win 0).blk t).view.emb j) = V c main_v41 (((cfg1.win 2).blk t).view.emb j)
    rw [h0]
  · show V c main_v42 (((cfg1.win 1).blk t).view.emb j) = V c main_v42 (((cfg1.win 2).blk t).view.emb j)
    rw [h1]

/-- An index of the output array lies in tile `t` iff each coordinate lies in the tile's range on its axis. -/
theorem mem_tile (t : Fin cfg1.N) (i : S102400x64.Idx) :
    i ∈ ((cfg1.win 2).blk t).view.set ↔ ∀ a : Fin 2, win1_2.index t a * S4096x64.size a ≤ (i a).val
      ∧ (i a).val < win1_2.index t a * S4096x64.size a + S4096x64.size a := by
  show i ∈ ((View.whole main_v43).slice (win1_2.rect t)).set ↔ _
  rw [View.set_slice_whole, Rect.mem_set_unit]
  exact Iff.rfl

/-- Every index of the output array lies in the tile of its row's quotient by 4096. -/
theorem cover (i : S102400x64.Idx) :
    ∃ t : Fin cfg1.N, (cfg1.win 2).flush t = true ∧ i ∈ ((cfg1.win 2).blk t).view.set := by
  have hi0 : (i 0).val < 102400 := (i 0).isLt
  have hi1 : (i 1).val < 64 := (i 1).isLt
  have ht : (i 0).val / 4096 < cfg1.N := by show (i 0).val / 4096 < 25; omega
  obtain ⟨e0, e1, e2, e3, e4, e5⟩ := tile_facts ⟨(i 0).val / 4096, ht⟩
  have e4' : win1_2.index ⟨(i 0).val / 4096, ht⟩ (0 : Fin 2) = (i 0).val / 4096 := e4
  refine ⟨⟨(i 0).val / 4096, ht⟩, flush1_2 _, ?_⟩
  rw [mem_tile]
  intro a
  match a with
  | ⟨0, _⟩ =>
    show win1_2.index ⟨(i 0).val / 4096, ht⟩ (0 : Fin 2) * 4096 ≤ (i 0).val
      ∧ (i 0).val < win1_2.index ⟨(i 0).val / 4096, ht⟩ (0 : Fin 2) * 4096 + 4096
    omega
  | ⟨1, _⟩ =>
    show win1_2.index ⟨(i 0).val / 4096, ht⟩ (1 : Fin 2) * 64 ≤ (i 1).val
      ∧ (i 1).val < win1_2.index ⟨(i 0).val / 4096, ht⟩ (1 : Fin 2) * 64 + 64
    omega

/-- After the region its output array is the entrywise sum of the two input arrays as the region finds them. -/
theorem final (c : Dev nD) :
    (dat1 V c).arrAt 2 cfg1.N = Blocks.sumRows (V c main_v41) (V c main_v42) :=
  (dat1 V c).arrAt_eq_of_cover 2 _ (fun t _ => flushed_eq V c t) (fun i => cover i)

end Cert.KernelIdeal.Region1

end
-- ==== Proof.Reg2.lean ====
/-
  Region 2: the entrywise sum of two arrays of 102400 rows and 64 columns, computed tile by tile (25 tiles of
  4096 rows, full width). Tile `t` of each of the three arrays is rows `4096·t … 4096·t + 4095`; the body adds the
  two input tiles entry by entry and writes the sum back to tile `t` of the output. The tiles cover the output
  array, so it ends as the entrywise sum of the two input arrays as the region finds them.
-/
import proofs.«163301_j29386166239874_1_alg».proof.Proof.Gen.KernelIdeal.Frame
import proofs.«163301_j29386166239874_1_alg».proof.Proof.Blocks
import proofs.«163301_j29386166239874_1_alg».proof.Proof.PayAdd
import Idealize.ShloMosaic.Lib.Pipeline.Value

noncomputable section

namespace Cert.KernelIdeal.Region2

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The corner of a whole tile. -/
theorem origin : (![0, 0] : Fin 2 → Nat) = fun _ => 0 := funext fun a => by fin_cases a <;> rfl

/-- The three windows move together: at grid point `t` each is at tile row `t`, tile column 0. -/
theorem tile_facts : ∀ t : Fin cfg2.N, win2_0.index t (0 : Fin 2) = win2_2.index t (0 : Fin 2)
    ∧ win2_0.index t (1 : Fin 2) = win2_2.index t (1 : Fin 2)
    ∧ win2_1.index t (0 : Fin 2) = win2_2.index t (0 : Fin 2)
    ∧ win2_1.index t (1 : Fin 2) = win2_2.index t (1 : Fin 2)
    ∧ win2_2.index t (0 : Fin 2) = t.val ∧ win2_2.index t (1 : Fin 2) = 0 :=
  (by decide +kernel : ∀ t : Fin grid2.N, _)

/-- What grid point `t` writes back is tile `t` of the entrywise sum of the two input arrays. -/
theorem flushed_eq (c : Dev nD) (t : Fin cfg2.N) :
    (dat2 V c).flushed 2 t
      = ((cfg2.win 2).blk t).view.read (Elt Ideal) (Blocks.sumRows (V c main_v55) (V c main_v56)) := by
  show (cfg2.win 2).cut (grid2.coords t) ((dat2 V c).after 2 t) = _
  rw [after2_2]
  unfold out2_2
  rw [View.canon_unit_zero origin]
  simp only [View.ld_unit_zero (S := S4096x64) origin]
  obtain ⟨e0, e1, e2, e3, e4, e5⟩ := tile_facts t
  funext j
  have h0 : ((cfg2.win 0).blk t).view.emb j = ((cfg2.win 2).blk t).view.emb j := by
    funext a; apply Fin.ext
    match a with
    | ⟨0, _⟩ => show win2_0.index t (0 : Fin 2) * 4096 + 1 * (j 0).val = win2_2.index t (0 : Fin 2) * 4096 + 1 * (j 0).val; omega
    | ⟨1, _⟩ => show win2_0.index t (1 : Fin 2) * 64 + 1 * (j 1).val = win2_2.index t (1 : Fin 2) * 64 + 1 * (j 1).val; omega
  have h1 : ((cfg2.win 1).blk t).view.emb j = ((cfg2.win 2).blk t).view.emb j := by
    funext a; apply Fin.ext
    match a with
    | ⟨0, _⟩ => show win2_1.index t (0 : Fin 2) * 4096 + 1 * (j 0).val = win2_2.index t (0 : Fin 2) * 4096 + 1 * (j 0).val; omega
    | ⟨1, _⟩ => show win2_1.index t (1 : Fin 2) * 64 + 1 * (j 1).val = win2_2.index t (1 : Fin 2) * 64 + 1 * (j 1).val; omega
  refine Pay.pay2_at (iblk2 V c 0 t) (iblk2 V c 1 t) (V c main_v55) (V c main_v56) j (((cfg2.win 2).blk t).view.emb j) ?_ ?_
  · show V c main_v55 (((cfg2.win 0).blk t).view.emb j) = V c main_v55 (((cfg2.win 2).blk t).view.emb j)
    rw [h0]
  · show V c main_v56 (((cfg2.win 1).blk t).view.emb j) = V c main_v56 (((cfg2.win 2).blk t).view.emb j)
    rw [h1]

/-- An index of the output array lies in tile `t` iff each coordinate lies in the tile's range on its axis. -/
theorem mem_tile (t : Fin cfg2.N) (i : S102400x64.Idx) :
    i ∈ ((cfg2.win 2).blk t).view.set ↔ ∀ a : Fin 2, win2_2.index t a * S4096x64.size a ≤ (i a).val
      ∧ (i a).val < win2_2.index t a * S4096x64.size a + S4096x64.size a := by
  show i ∈ ((View.whole main_v57).slice (win2_2.rect t)).set ↔ _
  rw [View.set_slice_whole, Rect.mem_set_unit]
  exact Iff.rfl

/-- Every index of the output array lies in the tile of its row's quotient by 4096. -/
theorem cover (i : S102400x64.Idx) :
    ∃ t : Fin cfg2.N, (cfg2.win 2).flush t = true ∧ i ∈ ((cfg2.win 2).blk t).view.set := by
  have hi0 : (i 0).val < 102400 := (i 0).isLt
  have hi1 : (i 1).val < 64 := (i 1).isLt
  have ht : (i 0).val / 4096 < cfg2.N := by show (i 0).val / 4096 < 25; omega
  obtain ⟨e0, e1, e2, e3, e4, e5⟩ := tile_facts ⟨(i 0).val / 4096, ht⟩
  have e4' : win2_2.index ⟨(i 0).val / 4096, ht⟩ (0 : Fin 2) = (i 0).val / 4096 := e4
  refine ⟨⟨(i 0).val / 4096, ht⟩, flush2_2 _, ?_⟩
  rw [mem_tile]
  intro a
  match a with
  | ⟨0, _⟩ =>
    show win2_2.index ⟨(i 0).val / 4096, ht⟩ (0 : Fin 2) * 4096 ≤ (i 0).val
      ∧ (i 0).val < win2_2.index ⟨(i 0).val / 4096, ht⟩ (0 : Fin 2) * 4096 + 4096
    omega
  | ⟨1, _⟩ =>
    show win2_2.index ⟨(i 0).val / 4096, ht⟩ (1 : Fin 2) * 64 ≤ (i 1).val
      ∧ (i 1).val < win2_2.index ⟨(i 0).val / 4096, ht⟩ (1 : Fin 2) * 64 + 64
    omega

/-- After the region its output array is the entrywise sum of the two input arrays as the region finds them. -/
theorem final (c : Dev nD) :
    (dat2 V c).arrAt 2 cfg2.N = Blocks.sumRows (V c main_v55) (V c main_v56) :=
  (dat2 V c).arrAt_eq_of_cover 2 _ (fun t _ => flushed_eq V c t) (fun i => cover i)

end Cert.KernelIdeal.Region2

end
-- ==== Proof.LibColumns.lean ====
/-
  Two layout facts about a column of values, one per row.
-/
import Idealize.ShloMosaic.Lib.Pipeline.Value
import Idealize.ShloMosaic.Lib.ValueIdx
import Idealize.ShloMosaic.Lib.ValueLayout

set_option maxRecDepth 16384

noncomputable section

namespace Cert.GcnValue

open Idealize.ShloMosaic Idealize.ShloMosaic.ValueIdx

variable {α : Type}

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.GcnValue

end
-- ==== Proof.StageRows.lean ====
/-
  The three row-wise stages without a matrix product, as whole-array identities over the extended reals. Each
  stage pads its node arrays with 2400 rows below (100000 rows up to 102400), applies the row-wise block (a sum,
  a row scaling, or a row scaling plus a bias row) to the padded arrays, and slices the first 100000 rows back.
  Reading both sides at a row `r < 100000` and a column `c`: the slice reads the padded result at `(r, c)`, the
  padded arrays there are the unpadded ones, the padded column at row `r` is the vector's entry `r`, and the
  reference's two nested broadcasts read the same entries. So the three stages are the reference's entrywise sum,
  its row scaling `h[r, c] · s[r]`, and its affine map `a[r, c] · d[r] + b[c]`.
-/
import proofs.«163301_j29386166239874_1_alg».proof.Proof.Gen.KernelIdeal
import proofs.«163301_j29386166239874_1_alg».proof.Proof.Gen.ReferenceIdeal
import proofs.«163301_j29386166239874_1_alg».proof.Proof.Blocks
import proofs.«163301_j29386166239874_1_alg».proof.Proof.Spec
import proofs.«163301_j29386166239874_1_alg».proof.Proof.LibColumns
import Idealize.ShloMosaic.Lib.KernelVsHost
import Idealize.ShloMosaic.Lib.Pipeline.Value
import Idealize.ShloMosaic.Lib.ValueIdx
import Idealize.ShloMosaic.Lib.ValueLayout

noncomputable section

namespace Cert.Stages

open Cert.KernelIdeal Cert.KernelIdeal.Facts₀ Idealize.ShloMosaic Idealize.ShloMosaic.ValueIdx

variable {α : Type}

/-- An entry `(r, c)` of an array of 100000 rows, as the entry `(r, c)` of an array of 102400 rows. -/
abbrev up {f : Nat} (i : (⟨2, ![100000, f]⟩ : Shape).Idx) : (⟨2, ![102400, f]⟩ : Shape).Idx :=
  ix2 (⟨(i 0).val, by have := idx2_lt0 i; omega⟩ : Fin 102400) (Blocks.col i)

/-- The first 100000 rows of an array of 102400 rows read, at `(r, c)`, the array at `(r, c)`. -/
theorem slice_at {f : Nat} (X : (⟨2, ![102400, f]⟩ : Shape).Idx → α)
    (h : (⟨2, ![102400, f]⟩ : Shape).Slices ![0, 0] ⟨2, ![100000, f]⟩) (i : (⟨2, ![100000, f]⟩ : Shape).Idx) :
    extractStridedSlice ⟨2, ![100000, f]⟩ ![0, 0] X h i = X (up i) :=
  extractStridedSlice_apply _ X h i (up i) (fun a => match a with
    | ⟨0, _⟩ => (Nat.zero_add _).symm
    | ⟨1, _⟩ => (Nat.zero_add _).symm)

/-- An array of 100000 rows padded with 2400 rows below reads, at `(r, c)` with `r < 100000`, the array at
    `(r, c)`. -/
theorem pad_at {f : Nat} (x : (⟨2, ![100000, f]⟩ : Shape).Idx → α) {u : Shape} (v : u.Idx → α)
    (h : (⟨2, ![100000, f]⟩ : Shape).Pads ![0, 0] ![2400, 0] ![0, 0] ⟨2, ![102400, f]⟩) (hu : 0 < u.numel)
    (i : (⟨2, ![100000, f]⟩ : Shape).Idx) :
    pad ⟨2, ![102400, f]⟩ ![0, 0] ![2400, 0] ![0, 0] x v h hu (up i) = x i :=
  pad_apply_of_inside _ _ _ x v h hu (up i) i (fun a => match a with
    | ⟨0, _⟩ => by show (i 0).val = 0 + (i 0).val * (0 + 1); omega
    | ⟨1, _⟩ => by show (i 1).val = 0 + (i 1).val * (0 + 1); omega)

/-- A vector of 100000 entries, cast to a column and padded with 2400 rows below, reads, at the row of an entry
    `(r, c)` with `r < 100000`, the vector's entry `r`. -/
theorem padCol_at {f : Nat} (s : (⟨1, ![100000]⟩ : Shape).Idx → α)
    (hc : (⟨1, ![100000]⟩ : Shape).ShapeCasts ⟨2, ![100000, 1]⟩) {u : Shape} (v : u.Idx → α)
    (h : (⟨2, ![100000, 1]⟩ : Shape).Pads ![0, 0] ![2400, 0] ![0, 0] ⟨2, ![102400, 1]⟩) (hu : 0 < u.numel)
    (i : (⟨2, ![100000, f]⟩ : Shape).Idx) :
    pad ⟨2, ![102400, 1]⟩ ![0, 0] ![2400, 0] ![0, 0] (shapeCast ⟨2, ![100000, 1]⟩ s hc) v h hu
      (ix2 (Blocks.row (up i)) (0 : Fin 1)) = s (ix1 (Blocks.row i)) :=
  (pad_apply_of_inside _ _ _ (shapeCast ⟨2, ![100000, 1]⟩ s hc) v h hu (ix2 (Blocks.row (up i)) (0 : Fin 1))
    (ix2 (Blocks.row i) (0 : Fin 1)) (fun a => match a with
      | ⟨0, _⟩ => by show (i 0).val = 0 + (i 0).val * (0 + 1); omega
      | ⟨1, _⟩ => by show 0 = 0 + 0 * (0 + 1); rfl)).trans
    (Cert.GcnValue.shapeCast_a_a1_apply s hc (Blocks.row i) (0 : Fin 1))

/-- A vector of 100000 entries broadcast to a column and then along `f` columns reads, at `(r, c)`, the vector's
    entry `r`. -/
theorem bcastCol_at {f : Nat} (s : (⟨1, ![100000]⟩ : Shape).Idx → α)
    (h1 : (⟨1, ![100000]⟩ : Shape).BroadcastsInDim ⟨2, ![100000, 1]⟩ (![0] : Fin 1 → Fin 2))
    (h2 : (⟨2, ![100000, 1]⟩ : Shape).BroadcastsInDim ⟨2, ![100000, f]⟩ (![0, 1] : Fin 2 → Fin 2))
    (i : (⟨2, ![100000, f]⟩ : Shape).Idx) :
    broadcastInDim ⟨2, ![100000, f]⟩ ![0, 1] h2 (broadcastInDim ⟨2, ![100000, 1]⟩ ![0] h1 s) i
      = s (ix1 (Blocks.row i)) :=
  (broadcastInDim_apply _ h2 (broadcastInDim ⟨2, ![100000, 1]⟩ ![0] h1 s) i (ix2 (Blocks.row i) (0 : Fin 1))
    (fun a => match a with
      | ⟨0, _⟩ => by show (i 0).val = if (100000 : Nat) = 1 then 0 else (i 0).val; rw [if_neg (by decide)]
      | ⟨1, _⟩ => by show 0 = if (1 : Nat) = 1 then 0 else (i 1).val; rw [if_pos rfl])).trans
    (broadcastInDim_apply _ h1 s (ix2 (Blocks.row i) (0 : Fin 1)) (ix1 (Blocks.row i)) (fun a => match a with
      | ⟨0, _⟩ => by show (i 0).val = if (100000 : Nat) = 1 then 0 else (i 0).val; rw [if_neg (by decide)]))

/-- A vector of 32 entries broadcast to a row and then along 100000 rows reads, at `(r, c)`, the vector's
    entry `c`. -/
theorem bcastRow_at (b : (⟨1, ![32]⟩ : Shape).Idx → α)
    (h1 : (⟨1, ![32]⟩ : Shape).BroadcastsInDim ⟨2, ![1, 32]⟩ (![1] : Fin 1 → Fin 2))
    (h2 : (⟨2, ![1, 32]⟩ : Shape).BroadcastsInDim ⟨2, ![100000, 32]⟩ (![0, 1] : Fin 2 → Fin 2))
    (i : (⟨2, ![100000, 32]⟩ : Shape).Idx) :
    broadcastInDim ⟨2, ![100000, 32]⟩ ![0, 1] h2 (broadcastInDim ⟨2, ![1, 32]⟩ ![1] h1 b) i
      = b (ix1 (Blocks.col i)) :=
  (broadcastInDim_apply _ h2 (broadcastInDim ⟨2, ![1, 32]⟩ ![1] h1 b) i (ix2 (0 : Fin 1) (Blocks.col i))
    (fun a => match a with
      | ⟨0, _⟩ => by show 0 = if (1 : Nat) = 1 then 0 else (i 0).val; rw [if_pos rfl]
      | ⟨1, _⟩ => by show (i 1).val = if (32 : Nat) = 1 then 0 else (i 1).val; rw [if_neg (by decide)])).trans
    (broadcastInDim_apply _ h1 b (ix2 (0 : Fin 1) (Blocks.col i)) (ix1 (Blocks.col i)) (fun a => match a with
      | ⟨0, _⟩ => by show (i 1).val = if (32 : Nat) = 1 then 0 else (i 1).val; rw [if_neg (by decide)]))

/-- The sum stage: pad both arrays, add them row by row, slice the first 100000 rows back. At `(r, c)` this is
    `a[r, c] + b[r, c]`, the reference's entrywise sum. -/
theorem sum_stage (a b : FVec Ideal S100000x64 .f32) (z z' : FVec Ideal S_ .f32) :
    extractStridedSlice S100000x64 ![0, 0]
      (Blocks.sumRows (pad S102400x64 ![0, 0] ![2400, 0] ![0, 0] a z pads_S100000x64_S102400x64_024000_000 h_S_)
        (pad S102400x64 ![0, 0] ![2400, 0] ![0, 0] b z' pads_S100000x64_S102400x64_024000_000 h_S_))
      slices_S102400x64_S100000x64_0_0 = addf a b := by
  funext i
  refine (slice_at _ slices_S102400x64_S100000x64_0_0 i).trans ?_
  exact congrArg₂ (· + ·) (pad_at a z pads_S100000x64_S102400x64_024000_000 h_S_ i)
    (pad_at b z' pads_S100000x64_S102400x64_024000_000 h_S_ i)

/-- The scaling stage: pad the array and the vector (as a column), scale every row by the column's entry, slice the
    first 100000 rows back. At `(r, c)` this is `h[r, c] · s[r]`, the reference's product of `h` with `s`
    broadcast along the columns. -/
theorem scale_stage (h : FVec Ideal S100000x64 .f32) (s : FVec Ideal S100000 .f32) (z z' : FVec Ideal S_ .f32) :
    extractStridedSlice S100000x64 ![0, 0]
      (Blocks.scaleRows (pad S102400x64 ![0, 0] ![2400, 0] ![0, 0] h z pads_S100000x64_S102400x64_024000_000 h_S_)
        (pad S102400x1 ![0, 0] ![2400, 0] ![0, 0] (shapeCast S100000x1 s shapeCasts_S100000_S100000x1) z' pads_S100000x1_S102400x1_024000_000 h_S_))
      slices_S102400x64_S100000x64_0_0 = Cert.ReferenceIdeal.Spec.scaled64 h s := by
  funext i
  refine (slice_at _ slices_S102400x64_S100000x64_0_0 i).trans ?_
  refine (congrArg₂ (· * ·) (pad_at h z pads_S100000x64_S102400x64_024000_000 h_S_ i)
    (padCol_at s shapeCasts_S100000_S100000x1 z' pads_S100000x1_S102400x1_024000_000 h_S_ i)).trans ?_
  exact congrArg (h i * ·) (bcastCol_at s _ _ i).symm

/-- The affine stage: pad the array and the vector (as a column), scale every row by the column's entry and add
    the bias row, slice the first 100000 rows back. At `(r, c)` this is `a[r, c] · d[r] + b[c]`, the reference's
    product of `a` with `d` broadcast along the columns plus `b` broadcast along the rows. -/
theorem affine_stage (a : FVec Ideal S100000x32 .f32) (d : FVec Ideal S100000 .f32) (b : FVec Ideal S32 .f32) (z z' : FVec Ideal S_ .f32) :
    extractStridedSlice S100000x32 ![0, 0]
      (Blocks.affineRows (pad S102400x32 ![0, 0] ![2400, 0] ![0, 0] a z pads_S100000x32_S102400x32_024000_000 h_S_)
        (pad S102400x1 ![0, 0] ![2400, 0] ![0, 0] (shapeCast S100000x1 d shapeCasts_S100000_S100000x1) z' pads_S100000x1_S102400x1_024000_000 h_S_)
        (shapeCast S1x32 b shapeCasts_S32_S1x32))
      slices_S102400x32_S100000x32_0_0 = Cert.ReferenceIdeal.Spec.affine a d b := by
  funext i
  refine (slice_at _ slices_S102400x32_S100000x32_0_0 i).trans ?_
  refine (congrArg₂ (· + ·)
    (congrArg₂ (· * ·) (pad_at a z pads_S100000x32_S102400x32_024000_000 h_S_ i)
      (padCol_at d shapeCasts_S100000_S100000x1 z' pads_S100000x1_S102400x1_024000_000 h_S_ i))
    (shapeCast_a_1a_apply b shapeCasts_S32_S1x32 (0 : Fin 1) (Blocks.col i))).trans ?_
  exact congrArg₂ (· + ·) (congrArg (a i * ·) (bcastCol_at d _ _ i).symm) (bcastRow_at b _ _ i).symm

end Cert.Stages

end
-- ==== Proof.ChainA.lean ====
/-
  The kernel program's values through its first three regions, the residual layers. Before a region the host pads
  the current node features `h` and their aggregate over the edges with zero rows; the region adds them tile by
  tile; the host slices the first 100000 rows back. Padding, adding and slicing is adding, so after layer `k` the
  sliced array is `Hₖ = Hₖ₋₁ + gatherSum64 Hₖ₋₁`.
-/
import proofs.«163301_j29386166239874_1_alg».proof.Proof.ChainDefs
import proofs.«163301_j29386166239874_1_alg».proof.Proof.PadCalls
import proofs.«163301_j29386166239874_1_alg».proof.Proof.Blocks
import proofs.«163301_j29386166239874_1_alg».proof.Proof.Reg0
import proofs.«163301_j29386166239874_1_alg».proof.Proof.Reg1
import proofs.«163301_j29386166239874_1_alg».proof.Proof.Reg2
import proofs.«163301_j29386166239874_1_alg».proof.Proof.StageRows
import Idealize.ShloMosaic.Lib.StableHlo.Run

noncomputable section

namespace Cert.KernelIdeal.Chain

open Cert.KernelIdeal Cert.KernelIdeal.Gen Idealize.ShloMosaic Idealize.ShloMosaic.TcCoe Idealize.SL.Sem
open Idealize.ShloMosaic.StableHlo
open Cert.ReferenceIdeal (Spec.residual Spec.gatherSum64 Spec.gatherSum32 Spec.scaled64 Spec.conv1 Spec.pre2 Spec.affine Spec.result)

variable (m : (ℓ : Loc nD τ sig) → Buf (Elt Ideal) ℓ) (ρ : Dev nD → PrngReg) (c : Dev nD)

/-- The value the host pads with: the float conversion of the integer zero. -/
abbrev zf : FVec Ideal S_ .f32 := sitofp .f32 (constantI S_ 32 0#32)

/-- The aggregate over the edges as the kernel program's host operations spell it (64 columns) is the
    specification's: the two programs print the same gather and scatter-add. -/
theorem agg64_eq (x : FVec Ideal S100000x64 .f32) (s d : IVec S1600000 32) :
    Host.scatterAdd scatter_S100000x64_S1600000x1_S1600000x64_1_0_0_1
      (broadcastInDim S100000x64 ![] bcast_S_S100000x64 (constant S_ .f32 0x00000000#32))
      (broadcastInDim S1600000x1 ![0] bcast_S1600000_S1600000x1_0 d)
      (Host.gather gather_S100000x64_S1600000x1_S1600000x64_1_0_n_n_0_1_164 x
        (broadcastInDim S1600000x1 ![0] bcast_S1600000_S1600000x1_0
          (select (cmpi .slt s (broadcastInDim S1600000 ![] bcast_S_S1600000 (constantI S_ 32 0#32)))
            (addi s (broadcastInDim S1600000 ![] bcast_S_S1600000 (constantI S_ 32 100000#32))) s)))
    = Spec.gatherSum64 s d x := rfl

/-- The same with 32 columns. -/
theorem agg32_eq (x : FVec Ideal S100000x32 .f32) (s d : IVec S1600000 32) :
    Host.scatterAdd scatter_S100000x32_S1600000x1_S1600000x32_1_0_0_1
      (broadcastInDim S100000x32 ![] bcast_S_S100000x32 (constant S_ .f32 0x00000000#32))
      (broadcastInDim S1600000x1 ![0] bcast_S1600000_S1600000x1_0 d)
      (Host.gather gather_S100000x32_S1600000x1_S1600000x32_1_0_n_n_0_1_132 x
        (broadcastInDim S1600000x1 ![0] bcast_S1600000_S1600000x1_0
          (select (cmpi .slt s (broadcastInDim S1600000 ![] bcast_S_S1600000 (constantI S_ 32 0#32)))
            (addi s (broadcastInDim S1600000 ![] bcast_S_S1600000 (constantI S_ 32 100000#32))) s)))
    = Spec.gatherSum32 s d x := rfl

/-- The node features after one, two and three residual layers. -/
def H1 : FVec Ideal S100000x64 .f32 := Spec.residual (src m c) (dst m c) (X m c)
def H2 : FVec Ideal S100000x64 .f32 := Spec.residual (src m c) (dst m c) (H1 m c)
def H3 : FVec Ideal S100000x64 .f32 := Spec.residual (src m c) (dst m c) (H2 m c)

/-! ## The first layer -/

set_option maxHeartbeats 4000000 in
/-- At the first region's entry its first input is the launch features, padded. -/
theorem in27 : W4 m ρ c (Proc.devRef .tc main_v27) = pad S102400x64 ![0, 0] ![2400, 0] ![0, 0] (X m c) zf pads_S100000x64_S102400x64_024000_000 h_S_ := by
  show StableHlo.after hostOps0_3 (StableHlo.after hostOps0_2 (StableHlo.after hostOps0_1 (StableHlo.after hostOps0 (W0 m ρ c)))) (Proc.devRef .tc main_v27) = _
  rw [hostOps0_1_plain, hostOps0_3_plain]
  after_results_simp
  all_goals rfl

set_option maxHeartbeats 4000000 in
/-- Its second input is the aggregate of the launch features over the edges, padded. -/
theorem in28 : W4 m ρ c (Proc.devRef .tc main_v28) = pad S102400x64 ![0, 0] ![2400, 0] ![0, 0] (Spec.gatherSum64 (src m c) (dst m c) (X m c)) zf pads_S100000x64_S102400x64_024000_000 h_S_ := by
  show StableHlo.after hostOps0_3 (StableHlo.after hostOps0_2 (StableHlo.after hostOps0_1 (StableHlo.after hostOps0 (W0 m ρ c)))) (Proc.devRef .tc main_v28) = _
  rw [hostOps0_1_plain, hostOps0_3_plain]
  after_results_simp
  all_goals rw [show W0 m ρ c (Proc.devRef .tc main_arg0) = X m c from rfl, show W0 m ρ c (Proc.devRef .tc main_arg5) = src m c from rfl, show W0 m ρ c (Proc.devRef .tc main_arg6) = dst m c from rfl]
  all_goals rw [agg64_eq]
  all_goals generalize Spec.gatherSum64 (src m c) (dst m c) (X m c) = G
  all_goals rfl

/-- The first region's output, sliced back to the nodes, is the features after one residual layer. -/
theorem out0 : extractStridedSlice S100000x64 ![0, 0] (W5 m ρ c (Proc.devRef .tc main_v29)) slices_S102400x64_S100000x64_0_0 = H1 m c := by
  have e : W5 m ρ c (Proc.devRef .tc main_v29)
      = Blocks.sumRows (W4 m ρ c (Proc.devRef .tc main_v27)) (W4 m ρ c (Proc.devRef .tc main_v28)) :=
    (W5_arr m ρ c 2).trans (Region0.final (V4 m ρ) c)
  rw [e, in27 m ρ c, in28 m ρ c]
  exact Cert.Stages.sum_stage _ _ _ _

/-! ## The second layer -/

set_option maxHeartbeats 4000000 in
/-- At the second region's entry its first input is the features after one layer, padded. -/
theorem in41 : W9 m ρ c (Proc.devRef .tc main_v41) = pad S102400x64 ![0, 0] ![2400, 0] ![0, 0] (H1 m c) zf pads_S100000x64_S102400x64_024000_000 h_S_ := by
  show StableHlo.after hostOps1_3 (StableHlo.after hostOps1_2 (StableHlo.after hostOps1_1 (StableHlo.after hostOps1 (W5 m ρ c)))) (Proc.devRef .tc main_v41) = _
  rw [hostOps1_1_plain, hostOps1_3_plain]
  after_results_simp
  all_goals rw [out0 m ρ c]
  all_goals generalize H1 m c = G
  all_goals rfl

set_option maxHeartbeats 4000000 in
/-- Its second input is their aggregate over the edges, padded. -/
theorem in42 : W9 m ρ c (Proc.devRef .tc main_v42) = pad S102400x64 ![0, 0] ![2400, 0] ![0, 0] (Spec.gatherSum64 (src m c) (dst m c) (H1 m c)) zf pads_S100000x64_S102400x64_024000_000 h_S_ := by
  obtain ⟨-, -, -, -, h5, h6, -, -⟩ := carried5 m ρ c
  show StableHlo.after hostOps1_3 (StableHlo.after hostOps1_2 (StableHlo.after hostOps1_1 (StableHlo.after hostOps1 (W5 m ρ c)))) (Proc.devRef .tc main_v42) = _
  rw [hostOps1_1_plain, hostOps1_3_plain]
  after_results_simp
  all_goals rw [out0 m ρ c, h5, h6]
  all_goals rw [agg64_eq]
  all_goals generalize Spec.gatherSum64 (src m c) (dst m c) (H1 m c) = G
  all_goals rfl

/-- The second region's output, sliced back, is the features after two residual layers. -/
theorem out1 : extractStridedSlice S100000x64 ![0, 0] (W10 m ρ c (Proc.devRef .tc main_v43)) slices_S102400x64_S100000x64_0_0 = H2 m c := by
  have e : W10 m ρ c (Proc.devRef .tc main_v43)
      = Blocks.sumRows (W9 m ρ c (Proc.devRef .tc main_v41)) (W9 m ρ c (Proc.devRef .tc main_v42)) :=
    (W10_arr m ρ c 2).trans (Region1.final (V9 m ρ) c)
  rw [e, in41 m ρ c, in42 m ρ c]
  exact Cert.Stages.sum_stage _ _ _ _

/-! ## The third layer -/

set_option maxHeartbeats 4000000 in
/-- At the third region's entry its first input is the features after two layers, padded. -/
theorem in55 : W14 m ρ c (Proc.devRef .tc main_v55) = pad S102400x64 ![0, 0] ![2400, 0] ![0, 0] (H2 m c) zf pads_S100000x64_S102400x64_024000_000 h_S_ := by
  show StableHlo.after hostOps2_3 (StableHlo.after hostOps2_2 (StableHlo.after hostOps2_1 (StableHlo.after hostOps2 (W10 m ρ c)))) (Proc.devRef .tc main_v55) = _
  rw [hostOps2_1_plain, hostOps2_3_plain]
  after_results_simp
  all_goals rw [out1 m ρ c]
  all_goals generalize H2 m c = G
  all_goals rfl

set_option maxHeartbeats 4000000 in
/-- Its second input is their aggregate over the edges, padded. -/
theorem in56 : W14 m ρ c (Proc.devRef .tc main_v56) = pad S102400x64 ![0, 0] ![2400, 0] ![0, 0] (Spec.gatherSum64 (src m c) (dst m c) (H2 m c)) zf pads_S100000x64_S102400x64_024000_000 h_S_ := by
  obtain ⟨-, -, -, -, h5, h6, -, -⟩ := carried10 m ρ c
  show StableHlo.after hostOps2_3 (StableHlo.after hostOps2_2 (StableHlo.after hostOps2_1 (StableHlo.after hostOps2 (W10 m ρ c)))) (Proc.devRef .tc main_v56) = _
  rw [hostOps2_1_plain, hostOps2_3_plain]
  after_results_simp
  all_goals rw [out1 m ρ c, h5, h6]
  all_goals rw [agg64_eq]
  all_goals generalize Spec.gatherSum64 (src m c) (dst m c) (H2 m c) = G
  all_goals rfl

/-- The third region's output, sliced back, is the features after three residual layers. -/
theorem out2 : extractStridedSlice S100000x64 ![0, 0] (W15 m ρ c (Proc.devRef .tc main_v57)) slices_S102400x64_S100000x64_0_0 = H3 m c := by
  have e : W15 m ρ c (Proc.devRef .tc main_v57)
      = Blocks.sumRows (W14 m ρ c (Proc.devRef .tc main_v55)) (W14 m ρ c (Proc.devRef .tc main_v56)) :=
    (W15_arr m ρ c 2).trans (Region2.final (V14 m ρ) c)
  rw [e, in55 m ρ c, in56 m ρ c]
  exact Cert.Stages.sum_stage _ _ _ _

end Cert.KernelIdeal.Chain

end
-- ==== Proof.PayRows.lean ====
/-
  The two row-scaling kernels' stored values at an entry. The first kernel's body multiplies its loaded tile,
  entry by entry, by a one-column tile broadcast along the columns; the second does the same and then adds a
  one-row tile broadcast along the rows (the shape casts in between are to the same shape). So if entry `j` of
  the loaded tile is entry `k` of an array `A`, the column tile at `j`'s row is a column `s` at `k`'s row, and
  the row tile at `j`'s column is a row `b` at `k`'s column, then the stored entry `j` is entry `k` of the
  row-scaled array `A[r, c] · s[r, 0]`, respectively of the affine array `A[r, c] · s[r, 0] + b[0, c]`.
-/
import proofs.«163301_j29386166239874_1_alg».proof.Proof.Gen.KernelIdeal.Skeleton
import proofs.«163301_j29386166239874_1_alg».proof.Proof.Blocks
import proofs.«163301_j29386166239874_1_alg».proof.Proof.LibColumns
import Idealize.ShloMosaic.Lib.Pipeline.Value
import Idealize.ShloMosaic.Lib.ValueIdx
import Idealize.ShloMosaic.Lib.ValueLayout

noncomputable section

namespace Cert.KernelIdeal.Pay

open Cert.KernelIdeal Cert.KernelIdeal.Gen Idealize.ShloMosaic Idealize.ShloMosaic.ValueIdx

/-- A one-column tile broadcast along the columns reads, at any entry `j`, the column's entry of `j`'s row. -/
theorem colBroadcast_at {n f : Nat} (x : (⟨2, ![n, 1]⟩ : Shape).Idx → Ideal .f32)
    (h : (⟨2, ![n, 1]⟩ : Shape).Broadcasts ⟨2, ![n, f]⟩) (j : (⟨2, ![n, f]⟩ : Shape).Idx) :
    broadcastTo ⟨2, ![n, f]⟩ x h j = x (ix2 (Blocks.row j) (0 : Fin 1)) :=
  (congrArg (broadcastTo ⟨2, ![n, f]⟩ x h) (Blocks.eq_row_col j)).trans
    (Cert.GcnValue.broadcastTo_a1_ab_apply x h (Blocks.row j) (Blocks.col j))

/-- A one-row tile broadcast along the rows reads, at any entry `j`, the row's entry of `j`'s column. -/
theorem rowBroadcast_at {n f : Nat} (x : (⟨2, ![1, f]⟩ : Shape).Idx → Ideal .f32)
    (h : (⟨2, ![1, f]⟩ : Shape).Broadcasts ⟨2, ![n, f]⟩) (j : (⟨2, ![n, f]⟩ : Shape).Idx) :
    broadcastTo ⟨2, ![n, f]⟩ x h j = x (ix2 (0 : Fin 1) (Blocks.col j)) :=
  (congrArg (broadcastTo ⟨2, ![n, f]⟩ x h) (Blocks.eq_row_col j)).trans
    (broadcastTo_1b_ab_apply x h (Blocks.row j) (Blocks.col j))

/-- The row-scaling kernel's stored entry: the loaded entry times the column tile's entry of the same row. If
    these are entry `k` of `A` and the entry of `s` at `k`'s row, the product is entry `k` of `A` with every
    row scaled by `s`. -/
theorem pay3_at (x0 : Vec Ideal S4096x64 .f32) (x1 : Vec Ideal S4096x1 .f32) (A : FVec Ideal S102400x64 .f32) (s : FVec Ideal S102400x1 .f32)
    (j : S4096x64.Idx) (k : S102400x64.Idx) (h0 : x0 j = A k)
    (h1 : x1 (ix2 (Blocks.row j) (0 : Fin 1)) = s (ix2 (Blocks.row k) (0 : Fin 1))) :
    k3_pay1 x0 x1 j = Blocks.scaleRows A s k := by
  unfold k3_pay1
  simp only [shapeCast_self]
  show x0 j * broadcastTo S4096x64 x1 _ j = A k * s (ix2 (Blocks.row k) (0 : Fin 1))
  rw [colBroadcast_at x1 _ j, h0, h1]

/-- The affine kernel's stored entry: the loaded entry times the column tile's entry of the same row, plus the
    row tile's entry of the same column. If these are entry `k` of `A`, the entry of `d` at `k`'s row and the
    entry of `b` at `k`'s column, the result is entry `k` of `A` with every row scaled by `d` and the row `b`
    added. -/
theorem pay6_at (x0 : Vec Ideal S4096x32 .f32) (x1 : Vec Ideal S4096x1 .f32) (x2 : Vec Ideal S1x32 .f32)
    (A : FVec Ideal S102400x32 .f32) (d : FVec Ideal S102400x1 .f32) (b : FVec Ideal S1x32 .f32)
    (j : S4096x32.Idx) (k : S102400x32.Idx) (h0 : x0 j = A k)
    (h1 : x1 (ix2 (Blocks.row j) (0 : Fin 1)) = d (ix2 (Blocks.row k) (0 : Fin 1)))
    (h2 : x2 (ix2 (0 : Fin 1) (Blocks.col j)) = b (ix2 (0 : Fin 1) (Blocks.col k))) :
    k6_pay1 x0 x1 x2 j = Blocks.affineRows A d b k := by
  unfold k6_pay1
  simp only [shapeCast_self]
  show x0 j * broadcastTo S4096x32 x1 _ j + broadcastTo S4096x32 x2 _ j
    = A k * d (ix2 (Blocks.row k) (0 : Fin 1)) + b (ix2 (0 : Fin 1) (Blocks.col k))
  rw [colBroadcast_at x1 _ j, rowBroadcast_at x2 _ j, h0, h1, h2]

end Cert.KernelIdeal.Pay

end
-- ==== Proof.Reg3.lean ====
/-
  Region 3: every row of an array of 102400 rows and 64 columns scaled by that row's entry of a column, computed tile
  by tile (25 tiles of 4096 rows, full width). Tile `t` of the three arrays is rows `4096·t … 4096·t + 4095`; the
  body multiplies the feature tile, entry by entry, by the column tile broadcast along the row. The tiles cover the
  output array, so it ends as the row-scaled input array.
-/
import proofs.«163301_j29386166239874_1_alg».proof.Proof.Gen.KernelIdeal.Frame
import proofs.«163301_j29386166239874_1_alg».proof.Proof.Blocks
import proofs.«163301_j29386166239874_1_alg».proof.Proof.PayRows
import Idealize.ShloMosaic.Lib.Pipeline.Value

noncomputable section

namespace Cert.KernelIdeal.Region3

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The corner of a whole tile. -/
theorem origin : (![0, 0] : Fin 2 → Nat) = fun _ => 0 := funext fun a => by fin_cases a <;> rfl

/-- Where the windows stand at grid point `t`: the row-tiled ones at tile row `t` (the output's), tile column 0; the
    ones staged whole at tile (0, 0). -/
theorem tile_facts : ∀ t : Fin cfg3.N, win3_0.index t (0 : Fin 2) = win3_2.index t (0 : Fin 2)
    ∧ win3_0.index t (1 : Fin 2) = 0
    ∧ win3_1.index t (0 : Fin 2) = win3_2.index t (0 : Fin 2)
    ∧ win3_1.index t (1 : Fin 2) = 0
    ∧ win3_2.index t (0 : Fin 2) = t.val
    ∧ win3_2.index t (1 : Fin 2) = 0 :=
  (by decide +kernel : ∀ t : Fin grid3.N, _)

/-- What grid point `t` writes back is tile `t` of the closed form of the input arrays as the region finds them. -/
theorem flushed_eq (c : Dev nD) (t : Fin cfg3.N) :
    (dat3 V c).flushed 2 t
      = ((cfg3.win 2).blk t).view.read (Elt Ideal) (Blocks.scaleRows (V c main_v59) (V c main_v60)) := by
  show (cfg3.win 2).cut (grid3.coords t) ((dat3 V c).after 2 t) = _
  rw [after3_2]
  unfold out3_2
  rw [View.canon_unit_zero origin]
  simp only [View.ld_unit_zero (S := S4096x64) origin, View.ld_unit_zero (S := S4096x1) origin]
  obtain ⟨e0, e1, e2, e3, e4, e5⟩ := tile_facts t
  funext j
  refine Pay.pay3_at (iblk3 V c 0 t) (iblk3 V c 1 t) (V c main_v59) (V c main_v60) j (((cfg3.win 2).blk t).view.emb j) ?_ ?_
  · show V c main_v59 (((cfg3.win 0).blk t).view.emb j) = V c main_v59 (((cfg3.win 2).blk t).view.emb j)
    refine congrArg (V c main_v59) (funext fun a => Fin.ext ?_)
    match a with
    | ⟨0, _⟩ => show win3_0.index t (0 : Fin 2) * 4096 + 1 * (j 0).val = win3_2.index t (0 : Fin 2) * 4096 + 1 * (j 0).val; omega
    | ⟨1, _⟩ => show win3_0.index t (1 : Fin 2) * 64 + 1 * (j 1).val = win3_2.index t (1 : Fin 2) * 64 + 1 * (j 1).val; omega
  · show V c main_v60 (((cfg3.win 1).blk t).view.emb (ix2 (Blocks.row j) (0 : Fin 1)))
      = V c main_v60 (ix2 (Blocks.row (n := 102400) (f := 64) (((cfg3.win 2).blk t).view.emb j)) (0 : Fin 1))
    refine congrArg (V c main_v60) (funext fun a => Fin.ext ?_)
    match a with
    | ⟨0, _⟩ => show win3_1.index t (0 : Fin 2) * 4096 + 1 * (j 0).val = win3_2.index t (0 : Fin 2) * 4096 + 1 * (j 0).val; omega
    | ⟨1, _⟩ => show win3_1.index t (1 : Fin 2) * 1 + 1 * 0 = 0; omega

/-- An index of the output array lies in tile `t` iff each coordinate lies in the tile's range on its axis. -/
theorem mem_tile (t : Fin cfg3.N) (i : S102400x64.Idx) :
    i ∈ ((cfg3.win 2).blk t).view.set ↔ ∀ a : Fin 2, win3_2.index t a * S4096x64.size a ≤ (i a).val
      ∧ (i a).val < win3_2.index t a * S4096x64.size a + S4096x64.size a := by
  show i ∈ ((View.whole main_v61).slice (win3_2.rect t)).set ↔ _
  rw [View.set_slice_whole, Rect.mem_set_unit]
  exact Iff.rfl

/-- Every index of the output array lies in the tile of its row's quotient by 4096. -/
theorem cover (i : S102400x64.Idx) :
    ∃ t : Fin cfg3.N, (cfg3.win 2).flush t = true ∧ i ∈ ((cfg3.win 2).blk t).view.set := by
  have hi0 : (i 0).val < 102400 := (i 0).isLt
  have hi1 : (i 1).val < 64 := (i 1).isLt
  have ht : (i 0).val / 4096 < cfg3.N := by show (i 0).val / 4096 < 25; omega
  obtain ⟨e0, e1, e2, e3, e4, e5⟩ := tile_facts ⟨(i 0).val / 4096, ht⟩
  have er : win3_2.index ⟨(i 0).val / 4096, ht⟩ (0 : Fin 2) = (i 0).val / 4096 := e4
  refine ⟨⟨(i 0).val / 4096, ht⟩, flush3_2 _, ?_⟩
  rw [mem_tile]
  intro a
  match a with
  | ⟨0, _⟩ =>
    show win3_2.index ⟨(i 0).val / 4096, ht⟩ (0 : Fin 2) * 4096 ≤ (i 0).val
      ∧ (i 0).val < win3_2.index ⟨(i 0).val / 4096, ht⟩ (0 : Fin 2) * 4096 + 4096
    omega
  | ⟨1, _⟩ =>
    show win3_2.index ⟨(i 0).val / 4096, ht⟩ (1 : Fin 2) * 64 ≤ (i 1).val
      ∧ (i 1).val < win3_2.index ⟨(i 0).val / 4096, ht⟩ (1 : Fin 2) * 64 + 64
    omega

/-- After the region its output array is the closed form of the input arrays as the region finds them. -/
theorem final (c : Dev nD) :
    (dat3 V c).arrAt 2 cfg3.N = Blocks.scaleRows (V c main_v59) (V c main_v60) :=
  (dat3 V c).arrAt_eq_of_cover 2 _ (fun t _ => flushed_eq V c t) (fun i => cover i)

end Cert.KernelIdeal.Region3

end
-- ==== Proof.PayDense.lean ====
/-
  The stored values of the two matrix-product kernels at an entry, over the extended reals.

  * The first kernel multiplies its tile of 64 aggregated features by the 64 x 128 weight matrix, scales every row of
    the product by that row's entry of a column, adds the bias row to every row and clamps below at zero. If the tile's
    row, the column's entry, the weights and the bias are those of four arrays at a row of the same column, the stored
    entry is the entry of "Blocks.denseRelu" of the four arrays.
  * The second kernel scales every row of its tile of 128 features by that row's entry of a column and multiplies the
    scaled tile by the 128 x 32 weight matrix; likewise the stored entry is the entry of "Blocks.scaleDense".

  A change of float format is the identity on the extended reals, and a matrix product into a zero accumulator is the
  plain sum over the contracted axis.
-/
import proofs.«163301_j29386166239874_1_alg».proof.Proof.Gen.KernelIdeal.Skeleton
import proofs.«163301_j29386166239874_1_alg».proof.Proof.Blocks
import proofs.«163301_j29386166239874_1_alg».proof.Proof.LibColumns
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx

/-! ## The operand indices of the two matrix products -/

/-- The left operand index of the 64-term product at output entry "i" and contraction index "q" has the row of "i". -/
theorem lhs4_0 (i : S4096x128.Idx) (q : dot_S4096x64_S64x128_S4096x128_1_0_0_1_n_n.contr.Idx) :
    (dot_S4096x64_S64x128_S4096x128_1_0_0_1_n_n.lhsIdx i q 0).val = (i 0).val := by
  unfold DotDims.lhsIdx
  rw [dif_neg (show ¬(0 : Fin S4096x64.rank) ∈ dot_S4096x64_S64x128_S4096x128_1_0_0_1_n_n.lhsBatch by decide), dif_pos (show (0 : Fin S4096x64.rank) ∈ dot_S4096x64_S64x128_S4096x128_1_0_0_1_n_n.lhsNonContracting by decide)]
  rfl
/-- ... and its column is the contraction coordinate. -/
theorem lhs4_1 (i : S4096x128.Idx) (q : dot_S4096x64_S64x128_S4096x128_1_0_0_1_n_n.contr.Idx) :
    (dot_S4096x64_S64x128_S4096x128_1_0_0_1_n_n.lhsIdx i q 1).val = (q ⟨0, by decide⟩).val :=
  dot_S4096x64_S64x128_S4096x128_1_0_0_1_n_n.lhsIdx_val_of_single rfl i q
/-- The right operand index has the contraction coordinate as its row ... -/
theorem rhs4_0 (i : S4096x128.Idx) (q : dot_S4096x64_S64x128_S4096x128_1_0_0_1_n_n.contr.Idx) :
    (dot_S4096x64_S64x128_S4096x128_1_0_0_1_n_n.rhsIdx i q 0).val = (q ⟨0, by decide⟩).val :=
  dot_S4096x64_S64x128_S4096x128_1_0_0_1_n_n.rhsIdx_val_of_single rfl i q
/-- ... and the column of "i". -/
theorem rhs4_1 (i : S4096x128.Idx) (q : dot_S4096x64_S64x128_S4096x128_1_0_0_1_n_n.contr.Idx) :
    (dot_S4096x64_S64x128_S4096x128_1_0_0_1_n_n.rhsIdx i q 1).val = (i 1).val := by
  unfold DotDims.rhsIdx
  rw [dif_neg (show ¬(1 : Fin S64x128.rank) ∈ dot_S4096x64_S64x128_S4096x128_1_0_0_1_n_n.rhsBatch by decide), dif_pos (show (1 : Fin S64x128.rank) ∈ dot_S4096x64_S64x128_S4096x128_1_0_0_1_n_n.rhsNonContracting by decide)]
  rfl

/-- Entry "(p, c)" of a 4096 x 64 array times a 64 x 128 array, accumulated into zeros, is the sum over "k" of
    the left array at "(p, k)" times the right array at "(k, c)". -/
theorem matmul4_at {φ₁ φ₂ : FTy} (l : FVec Ideal S4096x64 φ₁) (r : FVec Ideal S64x128 φ₂) (j : S4096x128.Idx) :
    matmul dot_S4096x64_S64x128_S4096x128_1_0_0_1_n_n none l r (constant S4096x128 .f32 0x00000000#32) j
      = ∑ k : Fin 64, l (ix2 (Blocks.row j) k) * r (ix2 k (Blocks.col j)) := by
  simp only [matmul]
  rw [Ideal.matmul_constant_zero_apply, ← Equiv.sum_comp (contrEquiv1 dot_S4096x64_S64x128_S4096x128_1_0_0_1_n_n 64 rfl rfl).symm]
  refine Finset.sum_congr rfl fun k _ => ?_
  have hk := contrEquiv1_symm_val dot_S4096x64_S64x128_S4096x128_1_0_0_1_n_n 64 rfl rfl k
  have el : dot_S4096x64_S64x128_S4096x128_1_0_0_1_n_n.lhsIdx j ((contrEquiv1 dot_S4096x64_S64x128_S4096x128_1_0_0_1_n_n 64 rfl rfl).symm k) = ix2 (Blocks.row j) k := funext fun a => Fin.ext (by
    match a with
    | ⟨0, _⟩ => exact lhs4_0 _ _
    | ⟨1, _⟩ => exact (lhs4_1 _ _).trans hk)
  have er : dot_S4096x64_S64x128_S4096x128_1_0_0_1_n_n.rhsIdx j ((contrEquiv1 dot_S4096x64_S64x128_S4096x128_1_0_0_1_n_n 64 rfl rfl).symm k) = ix2 k (Blocks.col j) := funext fun a => Fin.ext (by
    match a with
    | ⟨0, _⟩ => exact (rhs4_0 _ _).trans hk
    | ⟨1, _⟩ => exact rhs4_1 _ _)
  rw [el, er]

/-- The left operand index of the 128-term product at output entry "i" and contraction index "q" has the row of "i". -/
theorem lhs5_0 (i : S4096x32.Idx) (q : dot_S4096x128_S128x32_S4096x32_1_0_0_1_n_n.contr.Idx) :
    (dot_S4096x128_S128x32_S4096x32_1_0_0_1_n_n.lhsIdx i q 0).val = (i 0).val := by
  unfold DotDims.lhsIdx
  rw [dif_neg (show ¬(0 : Fin S4096x128.rank) ∈ dot_S4096x128_S128x32_S4096x32_1_0_0_1_n_n.lhsBatch by decide), dif_pos (show (0 : Fin S4096x128.rank) ∈ dot_S4096x128_S128x32_S4096x32_1_0_0_1_n_n.lhsNonContracting by decide)]
  rfl
/-- ... and its column is the contraction coordinate. -/
theorem lhs5_1 (i : S4096x32.Idx) (q : dot_S4096x128_S128x32_S4096x32_1_0_0_1_n_n.contr.Idx) :
    (dot_S4096x128_S128x32_S4096x32_1_0_0_1_n_n.lhsIdx i q 1).val = (q ⟨0, by decide⟩).val :=
  dot_S4096x128_S128x32_S4096x32_1_0_0_1_n_n.lhsIdx_val_of_single rfl i q
/-- The right operand index has the contraction coordinate as its row ... -/
theorem rhs5_0 (i : S4096x32.Idx) (q : dot_S4096x128_S128x32_S4096x32_1_0_0_1_n_n.contr.Idx) :
    (dot_S4096x128_S128x32_S4096x32_1_0_0_1_n_n.rhsIdx i q 0).val = (q ⟨0, by decide⟩).val :=
  dot_S4096x128_S128x32_S4096x32_1_0_0_1_n_n.rhsIdx_val_of_single rfl i q
/-- ... and the column of "i". -/
theorem rhs5_1 (i : S4096x32.Idx) (q : dot_S4096x128_S128x32_S4096x32_1_0_0_1_n_n.contr.Idx) :
    (dot_S4096x128_S128x32_S4096x32_1_0_0_1_n_n.rhsIdx i q 1).val = (i 1).val := by
  unfold DotDims.rhsIdx
  rw [dif_neg (show ¬(1 : Fin S128x32.rank) ∈ dot_S4096x128_S128x32_S4096x32_1_0_0_1_n_n.rhsBatch by decide), dif_pos (show (1 : Fin S128x32.rank) ∈ dot_S4096x128_S128x32_S4096x32_1_0_0_1_n_n.rhsNonContracting by decide)]
  rfl

/-- Entry "(p, c)" of a 4096 x 128 array times a 128 x 32 array, accumulated into zeros, is the sum over "k" of
    the left array at "(p, k)" times the right array at "(k, c)". -/
theorem matmul5_at {φ₁ φ₂ : FTy} (l : FVec Ideal S4096x128 φ₁) (r : FVec Ideal S128x32 φ₂) (j : S4096x32.Idx) :
    matmul dot_S4096x128_S128x32_S4096x32_1_0_0_1_n_n none l r (constant S4096x32 .f32 0x00000000#32) j
      = ∑ k : Fin 128, l (ix2 (Blocks.row j) k) * r (ix2 k (Blocks.col j)) := by
  simp only [matmul]
  rw [Ideal.matmul_constant_zero_apply, ← Equiv.sum_comp (contrEquiv1 dot_S4096x128_S128x32_S4096x32_1_0_0_1_n_n 128 rfl rfl).symm]
  refine Finset.sum_congr rfl fun k _ => ?_
  have hk := contrEquiv1_symm_val dot_S4096x128_S128x32_S4096x32_1_0_0_1_n_n 128 rfl rfl k
  have el : dot_S4096x128_S128x32_S4096x32_1_0_0_1_n_n.lhsIdx j ((contrEquiv1 dot_S4096x128_S128x32_S4096x32_1_0_0_1_n_n 128 rfl rfl).symm k) = ix2 (Blocks.row j) k := funext fun a => Fin.ext (by
    match a with
    | ⟨0, _⟩ => exact lhs5_0 _ _
    | ⟨1, _⟩ => exact (lhs5_1 _ _).trans hk)
  have er : dot_S4096x128_S128x32_S4096x32_1_0_0_1_n_n.rhsIdx j ((contrEquiv1 dot_S4096x128_S128x32_S4096x32_1_0_0_1_n_n 128 rfl rfl).symm k) = ix2 k (Blocks.col j) := funext fun a => Fin.ext (by
    match a with
    | ⟨0, _⟩ => exact (rhs5_0 _ _).trans hk
    | ⟨1, _⟩ => exact rhs5_1 _ _)
  rw [el, er]

/-! ## The two payloads at an entry -/

/-- The first matrix-product kernel's stored entry: the tile's row times the weights, scaled by the row's entry of the
    column, plus the bias at the column, clamped below at zero. If the tile's row and the column's entry are those of row
    "Blocks.row k" of the arrays "A" and "d", the weights and bias are "W" and "b", and the columns agree, this is entry
    "k" of "Blocks.denseRelu A d W b". -/
theorem pay4_at (x0 : Vec Ideal S4096x64 .f32) (w : Vec Ideal S64x128 .f32) (x1 : Vec Ideal S4096x1 .f32) (x3 : Vec Ideal S1x128 .f32)
    (A : FVec Ideal S102400x64 .f32) (d : FVec Ideal S102400x1 .f32) (W : FVec Ideal S64x128 .f32) (b : FVec Ideal S1x128 .f32)
    (j : S4096x128.Idx) (k : S102400x128.Idx)
    (hA : ∀ q : Fin 64, x0 (ix2 (Blocks.row j) q) = A (ix2 (Blocks.row k) q))
    (hW : w = W) (hd : x1 (ix2 (Blocks.row j) (0 : Fin 1)) = d (ix2 (Blocks.row k) (0 : Fin 1))) (hb : x3 = b)
    (hc : Blocks.col j = Blocks.col k) :
    k4_pay1 x0 w x1 x3 j = Blocks.denseRelu A d W b k := by
  subst hW hb
  unfold k4_pay1 Blocks.denseRelu
  simp only [shapeCast_self]
  rw [maximumf_apply, addf_apply, mulf_apply, matmul4_at]
  have e8 : broadcastTo S4096x128 x1 broadcasts_S4096x1_S4096x128 j = x1 (ix2 (Blocks.row j) (0 : Fin 1)) :=
    (congrArg _ (Blocks.eq_row_col j)).trans (Cert.GcnValue.broadcastTo_a1_ab_apply x1 _ (Blocks.row j) (Blocks.col j))
  have e12 : broadcastTo S4096x128 x3 broadcasts_S1x128_S4096x128 j = x3 (ix2 (0 : Fin 1) (Blocks.col j)) :=
    (congrArg _ (Blocks.eq_row_col j)).trans (broadcastTo_1b_ab_apply x3 _ (Blocks.row j) (Blocks.col j))
  rw [e8, e12, hd, hc]
  refine congrArg₂ max (congrArg₂ (· + ·) (congrArg₂ (· * ·) (Finset.sum_congr rfl fun q _ => ?_) rfl) rfl) rfl
  show x0 (ix2 (Blocks.row j) q) * w (ix2 q (Blocks.col k)) = A (ix2 (Blocks.row k) q) * w (ix2 q (Blocks.col k))
  rw [hA q]

/-- The second matrix-product kernel's stored entry: the tile's row, scaled by the row's entry of the column, times the
    weights. If the tile's row and the column's entry are those of row "Blocks.row k" of the arrays "H" and "s", the
    weights are "W", and the columns agree, this is entry "k" of "Blocks.scaleDense H s W". -/
theorem pay5_at (x0 : Vec Ideal S4096x128 .f32) (x1 : Vec Ideal S4096x1 .f32) (w : Vec Ideal S128x32 .f32)
    (H : FVec Ideal S102400x128 .f32) (s : FVec Ideal S102400x1 .f32) (W : FVec Ideal S128x32 .f32)
    (j : S4096x32.Idx) (k : S102400x32.Idx)
    (hH : ∀ q : Fin 128, x0 (ix2 (Blocks.row j) q) = H (ix2 (Blocks.row k) q))
    (hs : x1 (ix2 (Blocks.row j) (0 : Fin 1)) = s (ix2 (Blocks.row k) (0 : Fin 1))) (hW : w = W)
    (hc : Blocks.col j = Blocks.col k) :
    k5_pay1 x0 x1 w j = Blocks.scaleDense H s W k := by
  subst hW
  unfold k5_pay1 Blocks.scaleDense
  simp only [shapeCast_self]
  rw [matmul5_at]
  refine Finset.sum_congr rfl fun q _ => ?_
  have e4 : broadcastTo S4096x128 x1 broadcasts_S4096x1_S4096x128 (ix2 (Blocks.row j) q) = x1 (ix2 (Blocks.row j) (0 : Fin 1)) :=
    Cert.GcnValue.broadcastTo_a1_ab_apply x1 _ (Blocks.row j) q
  show x0 (ix2 (Blocks.row j) q) * broadcastTo S4096x128 x1 broadcasts_S4096x1_S4096x128 (ix2 (Blocks.row j) q) * w (ix2 q (Blocks.col j))
    = H (ix2 (Blocks.row k) q) * s (ix2 (Blocks.row k) (0 : Fin 1)) * w (ix2 q (Blocks.col k))
  rw [e4, hH q, hs, hc]

end Cert.KernelIdeal.Pay

end
-- ==== Proof.Reg4.lean ====
/-
  Region 4: the first graph convolution after its aggregation, computed tile by tile (25 tiles of 4096 rows; the
  weight matrix and the bias row staged whole): row `r` of the aggregated features times the weight matrix, scaled by
  the row's entry of a column, plus the bias row, clamped below at zero. The tiles cover the output array.
-/
import proofs.«163301_j29386166239874_1_alg».proof.Proof.Gen.KernelIdeal.Frame
import proofs.«163301_j29386166239874_1_alg».proof.Proof.Blocks
import proofs.«163301_j29386166239874_1_alg».proof.Proof.PayDense
import Idealize.ShloMosaic.Lib.Pipeline.Value

noncomputable section

namespace Cert.KernelIdeal.Region4

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The corner of a whole tile. -/
theorem origin : (![0, 0] : Fin 2 → Nat) = fun _ => 0 := funext fun a => by fin_cases a <;> rfl

/-- Where the windows stand at grid point `t`: the row-tiled ones at tile row `t` (the output's), tile column 0; the
    ones staged whole at tile (0, 0). -/
theorem tile_facts : ∀ t : Fin cfg4.N, win4_0.index t (0 : Fin 2) = win4_4.index t (0 : Fin 2)
    ∧ win4_0.index t (1 : Fin 2) = 0
    ∧ win4_1.index t (0 : Fin 2) = win4_4.index t (0 : Fin 2)
    ∧ win4_1.index t (1 : Fin 2) = 0
    ∧ win4_2.index t (0 : Fin 2) = 0
    ∧ win4_2.index t (1 : Fin 2) = 0
    ∧ win4_3.index t (0 : Fin 2) = 0
    ∧ win4_3.index t (1 : Fin 2) = 0
    ∧ win4_4.index t (0 : Fin 2) = t.val
    ∧ win4_4.index t (1 : Fin 2) = 0 :=
  (by decide +kernel : ∀ t : Fin grid4.N, _)

/-- What grid point `t` writes back is tile `t` of the closed form of the input arrays as the region finds them. -/
theorem flushed_eq (c : Dev nD) (t : Fin cfg4.N) :
    (dat4 V c).flushed 4 t
      = ((cfg4.win 4).blk t).view.read (Elt Ideal) (Blocks.denseRelu (V c main_v73) (V c main_v74) (V c main_arg1) (V c main_v75)) := by
  show (cfg4.win 4).cut (grid4.coords t) ((dat4 V c).after 4 t) = _
  rw [after4_4]
  unfold out4_4
  rw [View.canon_unit_zero origin]
  simp only [View.ld_unit_zero (S := S4096x64) origin, View.ld_unit_zero (S := S4096x1) origin, View.ld_unit_zero (S := S64x128) origin, View.ld_unit_zero (S := S1x128) origin]
  obtain ⟨e0, e1, e2, e3, e4, e5, e6, e7, e8, e9⟩ := tile_facts t
  funext j
  refine Pay.pay4_at (iblk4 V c 0 t) (iblk4 V c 2 t) (iblk4 V c 1 t) (iblk4 V c 3 t) (V c main_v73) (V c main_v74) (V c main_arg1) (V c main_v75) j (((cfg4.win 4).blk t).view.emb j) ?_ ?_ ?_ ?_ ?_
  · intro q
    show V c main_v73 (((cfg4.win 0).blk t).view.emb (ix2 (Blocks.row j) q))
      = V c main_v73 (ix2 (Blocks.row (n := 102400) (f := 128) (((cfg4.win 4).blk t).view.emb j)) q)
    refine congrArg (V c main_v73) (funext fun a => Fin.ext ?_)
    match a with
    | ⟨0, _⟩ => show win4_0.index t (0 : Fin 2) * 4096 + 1 * (j 0).val = win4_4.index t (0 : Fin 2) * 4096 + 1 * (j 0).val; omega
    | ⟨1, _⟩ => show win4_0.index t (1 : Fin 2) * 64 + 1 * q.val = q.val; omega
  · funext y
    show V c main_arg1 (((cfg4.win 2).blk t).view.emb y) = V c main_arg1 y
    refine congrArg (V c main_arg1) (funext fun a => Fin.ext ?_)
    match a with
    | ⟨0, _⟩ => show win4_2.index t (0 : Fin 2) * 64 + 1 * (y 0).val = (y 0).val; omega
    | ⟨1, _⟩ => show win4_2.index t (1 : Fin 2) * 128 + 1 * (y 1).val = (y 1).val; omega
  · show V c main_v74 (((cfg4.win 1).blk t).view.emb (ix2 (Blocks.row j) (0 : Fin 1)))
      = V c main_v74 (ix2 (Blocks.row (n := 102400) (f := 128) (((cfg4.win 4).blk t).view.emb j)) (0 : Fin 1))
    refine congrArg (V c main_v74) (funext fun a => Fin.ext ?_)
    match a with
    | ⟨0, _⟩ => show win4_1.index t (0 : Fin 2) * 4096 + 1 * (j 0).val = win4_4.index t (0 : Fin 2) * 4096 + 1 * (j 0).val; omega
    | ⟨1, _⟩ => show win4_1.index t (1 : Fin 2) * 1 + 1 * 0 = 0; omega
  · funext y
    show V c main_v75 (((cfg4.win 3).blk t).view.emb y) = V c main_v75 y
    refine congrArg (V c main_v75) (funext fun a => Fin.ext ?_)
    match a with
    | ⟨0, _⟩ => show win4_3.index t (0 : Fin 2) * 1 + 1 * (y 0).val = (y 0).val; omega
    | ⟨1, _⟩ => show win4_3.index t (1 : Fin 2) * 128 + 1 * (y 1).val = (y 1).val; omega
  · refine Fin.ext ?_
    show (j 1).val = win4_4.index t (1 : Fin 2) * 128 + 1 * (j 1).val
    omega

/-- An index of the output array lies in tile `t` iff each coordinate lies in the tile's range on its axis. -/
theorem mem_tile (t : Fin cfg4.N) (i : S102400x128.Idx) :
    i ∈ ((cfg4.win 4).blk t).view.set ↔ ∀ a : Fin 2, win4_4.index t a * S4096x128.size a ≤ (i a).val
      ∧ (i a).val < win4_4.index t a * S4096x128.size a + S4096x128.size a := by
  show i ∈ ((View.whole main_v76).slice (win4_4.rect t)).set ↔ _
  rw [View.set_slice_whole, Rect.mem_set_unit]
  exact Iff.rfl

/-- Every index of the output array lies in the tile of its row's quotient by 4096. -/
theorem cover (i : S102400x128.Idx) :
    ∃ t : Fin cfg4.N, (cfg4.win 4).flush t = true ∧ i ∈ ((cfg4.win 4).blk t).view.set := by
  have hi0 : (i 0).val < 102400 := (i 0).isLt
  have hi1 : (i 1).val < 128 := (i 1).isLt
  have ht : (i 0).val / 4096 < cfg4.N := by show (i 0).val / 4096 < 25; omega
  obtain ⟨e0, e1, e2, e3, e4, e5, e6, e7, e8, e9⟩ := tile_facts ⟨(i 0).val / 4096, ht⟩
  have er : win4_4.index ⟨(i 0).val / 4096, ht⟩ (0 : Fin 2) = (i 0).val / 4096 := e8
  refine ⟨⟨(i 0).val / 4096, ht⟩, flush4_4 _, ?_⟩
  rw [mem_tile]
  intro a
  match a with
  | ⟨0, _⟩ =>
    show win4_4.index ⟨(i 0).val / 4096, ht⟩ (0 : Fin 2) * 4096 ≤ (i 0).val
      ∧ (i 0).val < win4_4.index ⟨(i 0).val / 4096, ht⟩ (0 : Fin 2) * 4096 + 4096
    omega
  | ⟨1, _⟩ =>
    show win4_4.index ⟨(i 0).val / 4096, ht⟩ (1 : Fin 2) * 128 ≤ (i 1).val
      ∧ (i 1).val < win4_4.index ⟨(i 0).val / 4096, ht⟩ (1 : Fin 2) * 128 + 128
    omega

/-- After the region its output array is the closed form of the input arrays as the region finds them. -/
theorem final (c : Dev nD) :
    (dat4 V c).arrAt 4 cfg4.N = Blocks.denseRelu (V c main_v73) (V c main_v74) (V c main_arg1) (V c main_v75) :=
  (dat4 V c).arrAt_eq_of_cover 4 _ (fun t _ => flushed_eq V c t) (fun i => cover i)

end Cert.KernelIdeal.Region4

end
-- ==== Proof.StageDense.lean ====
/-
  The two matrix-product stages of the network, read off the row-padded arrays.

  The node arrays of 100000 rows are padded with zero rows to 102400 rows, the tiled kernels leave
  "Blocks.denseRelu" and "Blocks.scaleDense" of the padded arrays, and the first 100000 rows are sliced back. Since a
  row of either result depends only on the same row of the row-indexed inputs (and on the whole weight matrix and bias
  row), and the rows below 100000 of a padded array are the rows of the array, the sliced results are the reference's
  stages:

  * "conv1_stage":  the slice of "Blocks.denseRelu" is  max ((a · W) ∘ d + b, 0);
  * "pre2_stage":   the slice of "Blocks.scaleDense" is  (r ∘ s) · W.

  On the reference side a dot_general entry is the plain sum over the contracted axis, and the broadcasts of the column
  of row scales and of the bias row read the scale of the row and the bias of the column.
-/
import proofs.«163301_j29386166239874_1_alg».proof.Proof.Gen.KernelIdeal
import proofs.«163301_j29386166239874_1_alg».proof.Proof.Gen.ReferenceIdeal
import proofs.«163301_j29386166239874_1_alg».proof.Proof.Gen.ReferenceIdeal.Read
import proofs.«163301_j29386166239874_1_alg».proof.Proof.Blocks
import proofs.«163301_j29386166239874_1_alg».proof.Proof.Spec
import proofs.«163301_j29386166239874_1_alg».proof.Proof.LibColumns
import Idealize.ShloMosaic.Lib.KernelVsHost
import Idealize.ShloMosaic.Lib.Pipeline.Value
import Idealize.ShloMosaic.Lib.ValueIdx
import Idealize.ShloMosaic.Lib.ValueLayout
import Idealize.ShloMosaic.PureOps.Ideal.Laws

noncomputable section

namespace Cert.Stages

open Cert.KernelIdeal Cert.KernelIdeal.Facts₀ Idealize.ShloMosaic Idealize.ShloMosaic.ValueIdx

namespace Dense

/-! ## The reference's operations read at an entry -/

/-- Entry "(p, c)" of the reference's product of a 100000 x 64 array and a 64 x 128 array is the sum over "k" of the
    left array at "(p, k)" times the right array at "(k, c)". -/
theorem dot64_at (x : FVec Ideal Cert.ReferenceIdeal.S100000x64 .f32) (W : FVec Ideal Cert.ReferenceIdeal.S64x128 .f32)
    (i : Cert.ReferenceIdeal.S100000x128.Idx) :
    Host.dotGeneral Cert.ReferenceIdeal.dot_S100000x64_S64x128_S100000x128_1_0_0_1_n_n none x W i
      = ∑ k : Fin 64, x (ix2 (Blocks.row i) k) * W (ix2 k (Blocks.col i)) := by
  simp only [Host.dotGeneral]
  rw [Ideal.dotGeneral_apply, ← Equiv.sum_comp (contrEquiv1 Cert.ReferenceIdeal.dot_S100000x64_S64x128_S100000x128_1_0_0_1_n_n 64 rfl rfl).symm]
  refine Finset.sum_congr rfl fun k _ => ?_
  have hk := contrEquiv1_symm_val Cert.ReferenceIdeal.dot_S100000x64_S64x128_S100000x128_1_0_0_1_n_n 64 rfl rfl k
  have el : Cert.ReferenceIdeal.dot_S100000x64_S64x128_S100000x128_1_0_0_1_n_n.lhsIdx i ((contrEquiv1 Cert.ReferenceIdeal.dot_S100000x64_S64x128_S100000x128_1_0_0_1_n_n 64 rfl rfl).symm k) = ix2 (Blocks.row i) k := funext fun a => Fin.ext (by
    match a with
    | ⟨0, _⟩ => exact Cert.ReferenceIdeal.Read.lhs_main_v61_0 _ _
    | ⟨1, _⟩ => exact (Cert.ReferenceIdeal.Read.lhs_main_v61_1 _ _).trans hk)
  have er : Cert.ReferenceIdeal.dot_S100000x64_S64x128_S100000x128_1_0_0_1_n_n.rhsIdx i ((contrEquiv1 Cert.ReferenceIdeal.dot_S100000x64_S64x128_S100000x128_1_0_0_1_n_n 64 rfl rfl).symm k) = ix2 k (Blocks.col i) := funext fun a => Fin.ext (by
    match a with
    | ⟨0, _⟩ => exact (Cert.ReferenceIdeal.Read.rhs_main_v61_0 _ _).trans hk
    | ⟨1, _⟩ => exact Cert.ReferenceIdeal.Read.rhs_main_v61_1 _ _)
  rw [el, er]

/-- Entry "(p, c)" of the reference's product of a 100000 x 128 array and a 128 x 32 array is the sum over "k" of the
    left array at "(p, k)" times the right array at "(k, c)". -/
theorem dot128_at (x : FVec Ideal Cert.ReferenceIdeal.S100000x128 .f32) (W : FVec Ideal Cert.ReferenceIdeal.S128x32 .f32)
    (i : Cert.ReferenceIdeal.S100000x32.Idx) :
    Host.dotGeneral Cert.ReferenceIdeal.dot_S100000x128_S128x32_S100000x32_1_0_0_1_n_n none x W i
      = ∑ k : Fin 128, x (ix2 (Blocks.row i) k) * W (ix2 k (Blocks.col i)) := by
  simp only [Host.dotGeneral]
  rw [Ideal.dotGeneral_apply, ← Equiv.sum_comp (contrEquiv1 Cert.ReferenceIdeal.dot_S100000x128_S128x32_S100000x32_1_0_0_1_n_n 128 rfl rfl).symm]
  refine Finset.sum_congr rfl fun k _ => ?_
  have hk := contrEquiv1_symm_val Cert.ReferenceIdeal.dot_S100000x128_S128x32_S100000x32_1_0_0_1_n_n 128 rfl rfl k
  have el : Cert.ReferenceIdeal.dot_S100000x128_S128x32_S100000x32_1_0_0_1_n_n.lhsIdx i ((contrEquiv1 Cert.ReferenceIdeal.dot_S100000x128_S128x32_S100000x32_1_0_0_1_n_n 128 rfl rfl).symm k) = ix2 (Blocks.row i) k := funext fun a => Fin.ext (by
    match a with
    | ⟨0, _⟩ => exact Cert.ReferenceIdeal.Read.lhs_main_v72_0 _ _
    | ⟨1, _⟩ => exact (Cert.ReferenceIdeal.Read.lhs_main_v72_1 _ _).trans hk)
  have er : Cert.ReferenceIdeal.dot_S100000x128_S128x32_S100000x32_1_0_0_1_n_n.rhsIdx i ((contrEquiv1 Cert.ReferenceIdeal.dot_S100000x128_S128x32_S100000x32_1_0_0_1_n_n 128 rfl rfl).symm k) = ix2 k (Blocks.col i) := funext fun a => Fin.ext (by
    match a with
    | ⟨0, _⟩ => exact (Cert.ReferenceIdeal.Read.rhs_main_v72_0 _ _).trans hk
    | ⟨1, _⟩ => exact Cert.ReferenceIdeal.Read.rhs_main_v72_1 _ _)
  rw [el, er]

/-- A vector of one value per node, made a column and broadcast over 128 columns, reads the value of the row. -/
theorem colBcast128_at (d : FVec Ideal Cert.ReferenceIdeal.S100000 .f32)
    (h1 : Cert.ReferenceIdeal.S100000.BroadcastsInDim Cert.ReferenceIdeal.S100000x1 ![0])
    (h2 : Cert.ReferenceIdeal.S100000x1.BroadcastsInDim Cert.ReferenceIdeal.S100000x128 ![0, 1])
    (i : Cert.ReferenceIdeal.S100000x128.Idx) :
    broadcastInDim Cert.ReferenceIdeal.S100000x128 ![0, 1] h2 (broadcastInDim Cert.ReferenceIdeal.S100000x1 ![0] h1 d) i
      = d (ix1 (Blocks.row i)) := by
  refine (broadcastInDim_apply _ h2 _ i (ix2 (Blocks.row i) (0 : Fin 1)) (fun a => match a with
    | ⟨0, _⟩ => by show (i 0).val = if (100000 : Nat) = 1 then 0 else (i 0).val; rw [if_neg (by decide)]
    | ⟨1, _⟩ => by show 0 = if (1 : Nat) = 1 then 0 else (i 1).val; rw [if_pos rfl])).trans ?_
  exact broadcastInDim_apply _ h1 d _ (ix1 (Blocks.row i)) (fun a => match a with
    | ⟨0, _⟩ => by show (i 0).val = if (100000 : Nat) = 1 then 0 else (i 0).val; rw [if_neg (by decide)])

/-- The bias vector, made a row and broadcast over the 100000 rows, reads the bias of the column. -/
theorem rowBcast128_at (b : FVec Ideal Cert.ReferenceIdeal.S128 .f32)
    (h1 : Cert.ReferenceIdeal.S128.BroadcastsInDim Cert.ReferenceIdeal.S1x128 ![1])
    (h2 : Cert.ReferenceIdeal.S1x128.BroadcastsInDim Cert.ReferenceIdeal.S100000x128 ![0, 1])
    (i : Cert.ReferenceIdeal.S100000x128.Idx) :
    broadcastInDim Cert.ReferenceIdeal.S100000x128 ![0, 1] h2 (broadcastInDim Cert.ReferenceIdeal.S1x128 ![1] h1 b) i
      = b (ix1 (Blocks.col i)) := by
  refine (broadcastInDim_apply _ h2 _ i (ix2 (0 : Fin 1) (Blocks.col i)) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])).trans ?_
  exact broadcastInDim_apply _ h1 b _ (ix1 (Blocks.col i)) (fun a => match a with
    | ⟨0, _⟩ => by show (i 1).val = if (128 : Nat) = 1 then 0 else (i 1).val; rw [if_neg (by decide)])

/-- The zero constant broadcast to 100000 x 128 reads zero everywhere. -/
theorem zeroBcast128_at (h : Cert.ReferenceIdeal.S_.BroadcastsInDim Cert.ReferenceIdeal.S100000x128 ![])
    (i : Cert.ReferenceIdeal.S100000x128.Idx) :
    broadcastInDim Cert.ReferenceIdeal.S100000x128 ![] h (constant (F := Ideal) Cert.ReferenceIdeal.S_ .f32 0x00000000#32) i
      = Ideal.ofBits .f32 0x00000000#32 :=
  broadcastInDim_apply _ h _ i (fun a => a.elim0) (fun a => a.elim0)

/-! ## The padded arrays read at a row below 100000 -/

/-- A row below 100000 of the padded 64-column array is that row of the array. -/
theorem pad64_at (a : FVec Ideal S100000x64 .f32) (z : FVec Ideal S_ .f32) (p : Fin 100000) (P : Fin 102400)
    (hP : P.val = p.val) (k : Fin 64) :
    pad S102400x64 ![0, 0] ![2400, 0] ![0, 0] a z pads_S100000x64_S102400x64_024000_000 h_S_ (ix2 P k) = a (ix2 p k) :=
  pad_apply_of_inside _ _ _ a z _ h_S_ (ix2 P k) (ix2 p k) (fun ax => by
    match ax with
    | ⟨0, _⟩ => show P.val = 0 + p.val * (0 + 1); omega
    | ⟨1, _⟩ => show k.val = 0 + k.val * (0 + 1); omega)

/-- A row below 100000 of the padded 128-column array is that row of the array. -/
theorem pad128_at (a : FVec Ideal S100000x128 .f32) (z : FVec Ideal S_ .f32) (p : Fin 100000) (P : Fin 102400)
    (hP : P.val = p.val) (k : Fin 128) :
    pad S102400x128 ![0, 0] ![2400, 0] ![0, 0] a z pads_S100000x128_S102400x128_024000_000 h_S_ (ix2 P k) = a (ix2 p k) :=
  pad_apply_of_inside _ _ _ a z _ h_S_ (ix2 P k) (ix2 p k) (fun ax => by
    match ax with
    | ⟨0, _⟩ => show P.val = 0 + p.val * (0 + 1); omega
    | ⟨1, _⟩ => show k.val = 0 + k.val * (0 + 1); omega)

/-- A row below 100000 of the padded column of row scales is the scale of that row. -/
theorem padCol_at (d : FVec Ideal S100000 .f32) (z : FVec Ideal S_ .f32) (p : Fin 100000) (P : Fin 102400)
    (hP : P.val = p.val) :
    pad S102400x1 ![0, 0] ![2400, 0] ![0, 0] (shapeCast S100000x1 d shapeCasts_S100000_S100000x1) z
      pads_S100000x1_S102400x1_024000_000 h_S_ (ix2 P (0 : Fin 1)) = d (ix1 p) :=
  (pad_apply_of_inside _ _ _ (shapeCast S100000x1 d shapeCasts_S100000_S100000x1) z _ h_S_ (ix2 P (0 : Fin 1)) (ix2 p (0 : Fin 1))
    (fun ax => by
      match ax with
      | ⟨0, _⟩ => show P.val = 0 + p.val * (0 + 1); omega
      | ⟨1, _⟩ => show 0 = 0 + 0 * (0 + 1); rfl)).trans
    (Cert.GcnValue.shapeCast_a_a1_apply d _ p (0 : Fin 1))

end Dense

open Dense

/-! ## The two stages -/

/-- The first graph convolution after its aggregation: the first 100000 rows of "Blocks.denseRelu" of the padded
    aggregated features, the padded column of row scales, the weights and the bias row are the reference's
    max ((a · W) ∘ d + b, 0). -/
theorem conv1_stage (a : FVec Ideal S100000x64 .f32) (d : FVec Ideal S100000 .f32) (W : FVec Ideal S64x128 .f32) (b : FVec Ideal S128 .f32) (z z' : FVec Ideal S_ .f32) :
    extractStridedSlice S100000x128 ![0, 0]
      (Blocks.denseRelu (pad S102400x64 ![0, 0] ![2400, 0] ![0, 0] a z pads_S100000x64_S102400x64_024000_000 h_S_)
        (pad S102400x1 ![0, 0] ![2400, 0] ![0, 0] (shapeCast S100000x1 d shapeCasts_S100000_S100000x1) z' pads_S100000x1_S102400x1_024000_000 h_S_)
        W (shapeCast S1x128 b shapeCasts_S128_S1x128))
      slices_S102400x128_S100000x128_0_0 = Cert.ReferenceIdeal.Spec.conv1 a d W b := by
  funext i
  have hp : (i 0).val < 100000 := idx2_lt0 i
  have hP : (i 0).val < 102400 := by omega
  refine (extractStridedSlice_apply _ _ _ i (ix2 (⟨(i 0).val, hP⟩ : Fin 102400) (Blocks.col i)) (fun ax => by
    match ax with
    | ⟨0, _⟩ => exact (Nat.zero_add _).symm
    | ⟨1, _⟩ => exact (Nat.zero_add _).symm)).trans ?_
  unfold Cert.ReferenceIdeal.Spec.conv1
  rw [maximumf_apply, addf_apply, mulf_apply, dot64_at, colBcast128_at, rowBcast128_at, zeroBcast128_at]
  show max ((∑ k : Fin 64, pad S102400x64 ![0, 0] ![2400, 0] ![0, 0] a z pads_S100000x64_S102400x64_024000_000 h_S_ (ix2 (⟨(i 0).val, hP⟩ : Fin 102400) k) * W (ix2 k (Blocks.col i)))
      * pad S102400x1 ![0, 0] ![2400, 0] ![0, 0] (shapeCast S100000x1 d shapeCasts_S100000_S100000x1) z' pads_S100000x1_S102400x1_024000_000 h_S_ (ix2 (⟨(i 0).val, hP⟩ : Fin 102400) (0 : Fin 1))
      + shapeCast S1x128 b shapeCasts_S128_S1x128 (ix2 (0 : Fin 1) (Blocks.col i))) (Ideal.ofBits .f32 0x00000000#32) = _
  rw [padCol_at d z' (Blocks.row i) ⟨(i 0).val, hP⟩ rfl, shapeCast_a_1a_apply b _ (0 : Fin 1) (Blocks.col i)]
  refine congrArg₂ max (congrArg₂ (· + ·) (congrArg₂ (· * ·) (Finset.sum_congr rfl fun k _ => ?_) rfl) rfl) rfl
  rw [pad64_at a z (Blocks.row i) ⟨(i 0).val, hP⟩ rfl k]

/-- The second graph convolution before its aggregation: the first 100000 rows of "Blocks.scaleDense" of the padded
    features, the padded column of row scales and the weights are the reference's (r ∘ s) · W. -/
theorem pre2_stage (r : FVec Ideal S100000x128 .f32) (s : FVec Ideal S100000 .f32) (W : FVec Ideal S128x32 .f32) (z z' : FVec Ideal S_ .f32) :
    extractStridedSlice S100000x32 ![0, 0]
      (Blocks.scaleDense (pad S102400x128 ![0, 0] ![2400, 0] ![0, 0] r z pads_S100000x128_S102400x128_024000_000 h_S_)
        (pad S102400x1 ![0, 0] ![2400, 0] ![0, 0] (shapeCast S100000x1 s shapeCasts_S100000_S100000x1) z' pads_S100000x1_S102400x1_024000_000 h_S_) W)
      slices_S102400x32_S100000x32_0_0 = Cert.ReferenceIdeal.Spec.pre2 r s W := by
  funext i
  have hp : (i 0).val < 100000 := idx2_lt0 i
  have hP : (i 0).val < 102400 := by omega
  refine (extractStridedSlice_apply _ _ _ i (ix2 (⟨(i 0).val, hP⟩ : Fin 102400) (Blocks.col i)) (fun ax => by
    match ax with
    | ⟨0, _⟩ => exact (Nat.zero_add _).symm
    | ⟨1, _⟩ => exact (Nat.zero_add _).symm)).trans ?_
  unfold Cert.ReferenceIdeal.Spec.pre2
  rw [dot128_at]
  show (∑ k : Fin 128, (pad S102400x128 ![0, 0] ![2400, 0] ![0, 0] r z pads_S100000x128_S102400x128_024000_000 h_S_ (ix2 (⟨(i 0).val, hP⟩ : Fin 102400) k)
      * pad S102400x1 ![0, 0] ![2400, 0] ![0, 0] (shapeCast S100000x1 s shapeCasts_S100000_S100000x1) z' pads_S100000x1_S102400x1_024000_000 h_S_ (ix2 (⟨(i 0).val, hP⟩ : Fin 102400) (0 : Fin 1)))
      * W (ix2 k (Blocks.col i))) = _
  refine Finset.sum_congr rfl fun k _ => ?_
  rw [padCol_at s z' (Blocks.row i) ⟨(i 0).val, hP⟩ rfl, pad128_at r z (Blocks.row i) ⟨(i 0).val, hP⟩ rfl k, mulf_apply,
    colBcast128_at]

end Cert.Stages

end
-- ==== Proof.ChainB.lean ====
/-
  The kernel program's values through its fourth and fifth regions: the features after the residual layers are
  scaled row by row by the inverse square roots of the out-degrees, aggregated over the edges, and pass the first
  graph convolution (matrix product with `W₁`, rows scaled by the inverse square roots of the in-degrees, bias `b₁`,
  clamped below at zero). Each region works on zero-padded arrays tile by tile and is sliced back; on the first
  100000 rows that is the whole-array stage of the specification.
-/
import proofs.«163301_j29386166239874_1_alg».proof.Proof.ChainDefs
import proofs.«163301_j29386166239874_1_alg».proof.Proof.ChainA
import proofs.«163301_j29386166239874_1_alg».proof.Proof.Blocks
import proofs.«163301_j29386166239874_1_alg».proof.Proof.Reg3
import proofs.«163301_j29386166239874_1_alg».proof.Proof.Reg4
import proofs.«163301_j29386166239874_1_alg».proof.Proof.StageRows
import proofs.«163301_j29386166239874_1_alg».proof.Proof.StageDense
import Idealize.ShloMosaic.Lib.StableHlo.Run

noncomputable section

namespace Cert.KernelIdeal.Chain

open Cert.KernelIdeal Cert.KernelIdeal.Gen Idealize.ShloMosaic Idealize.ShloMosaic.TcCoe Idealize.SL.Sem
open Idealize.ShloMosaic.StableHlo
open Cert.ReferenceIdeal (Spec.residual Spec.gatherSum64 Spec.gatherSum32 Spec.scaled64 Spec.conv1 Spec.pre2 Spec.affine Spec.result)

variable (m : (ℓ : Loc nD τ sig) → Buf (Elt Ideal) ℓ) (ρ : Dev nD → PrngReg) (c : Dev nD)

/-- The scaled features, their aggregate over the edges, and the first convolution's output. -/
def HS : FVec Ideal S100000x64 .f32 := Spec.scaled64 (H3 m c) (NS m c)
def A1 : FVec Ideal S100000x64 .f32 := Spec.gatherSum64 (src m c) (dst m c) (HS m c)
def R1 : FVec Ideal S100000x128 .f32 := Spec.conv1 (A1 m c) (ND m c) (W₁ m c) (b₁ m c)

/-! ## Scaling by the out-degrees -/

set_option maxHeartbeats 4000000 in
/-- At the scaling region's entry its first input is the features after three layers, padded. -/
theorem in59 : W19 m ρ c (Proc.devRef .tc main_v59) = pad S102400x64 ![0, 0] ![2400, 0] ![0, 0] (H3 m c) zf pads_S100000x64_S102400x64_024000_000 h_S_ := by
  show StableHlo.after hostOps3_3 (StableHlo.after hostOps3_2 (StableHlo.after hostOps3_1 (StableHlo.after hostOps3 (W15 m ρ c)))) (Proc.devRef .tc main_v59) = _
  rw [hostOps3_1_plain, hostOps3_3_plain]
  after_results_simp
  all_goals rw [out2 m ρ c]
  all_goals generalize H3 m c = G
  all_goals rfl

set_option maxHeartbeats 4000000 in
/-- Its second input is the column of inverse square roots of the out-degrees, padded. -/
theorem in60 : W19 m ρ c (Proc.devRef .tc main_v60) = pad S102400x1 ![0, 0] ![2400, 0] ![0, 0] (NScol m c) zf pads_S100000x1_S102400x1_024000_000 h_S_ := by
  obtain ⟨-, -, -, -, -, -, h7, -⟩ := carried15 m ρ c
  show StableHlo.after hostOps3_3 (StableHlo.after hostOps3_2 (StableHlo.after hostOps3_1 (StableHlo.after hostOps3 (W15 m ρ c)))) (Proc.devRef .tc main_v60) = _
  rw [hostOps3_1_plain, hostOps3_3_plain]
  after_results_simp
  all_goals rw [h7]
  all_goals generalize NScol m c = G
  all_goals rfl

/-- The scaling region's output, sliced back, is the row-scaled features. -/
theorem out3 : extractStridedSlice S100000x64 ![0, 0] (W20 m ρ c (Proc.devRef .tc main_v61)) slices_S102400x64_S100000x64_0_0 = HS m c := by
  have e : W20 m ρ c (Proc.devRef .tc main_v61)
      = Blocks.scaleRows (W19 m ρ c (Proc.devRef .tc main_v59)) (W19 m ρ c (Proc.devRef .tc main_v60)) :=
    (W20_arr m ρ c 2).trans (Region3.final (V19 m ρ) c)
  rw [e, in59 m ρ c, in60 m ρ c]
  exact Cert.Stages.scale_stage _ _ _ _

/-! ## The first graph convolution -/

set_option maxHeartbeats 4000000 in
/-- At the convolution region's entry its first input is the aggregate of the scaled features, padded. -/
theorem in73 : W25 m ρ c (Proc.devRef .tc main_v73) = pad S102400x64 ![0, 0] ![2400, 0] ![0, 0] (A1 m c) zf pads_S100000x64_S102400x64_024000_000 h_S_ := by
  obtain ⟨-, -, -, -, h5, h6, -, -⟩ := carried20 m ρ c
  show StableHlo.after hostOps4_4 (StableHlo.after hostOps4_3 (StableHlo.after hostOps4_2 (StableHlo.after hostOps4_1 (StableHlo.after hostOps4 (W20 m ρ c))))) (Proc.devRef .tc main_v73) = _
  rw [hostOps4_1_plain, hostOps4_3_plain]
  after_results_simp
  all_goals rw [out3 m ρ c, h5, h6]
  all_goals rw [agg64_eq, show Spec.gatherSum64 (m ((c : Thread nD τ).loc main_arg5)) (m ((c : Thread nD τ).loc main_arg6)) (HS m c) = A1 m c from rfl]
  all_goals generalize A1 m c = G
  all_goals rfl

set_option maxHeartbeats 4000000 in
/-- Its second input is the column of inverse square roots of the in-degrees, padded. -/
theorem in74 : W25 m ρ c (Proc.devRef .tc main_v74) = pad S102400x1 ![0, 0] ![2400, 0] ![0, 0] (NDcol m c) zf pads_S100000x1_S102400x1_024000_000 h_S_ := by
  obtain ⟨-, -, -, -, -, -, -, h8⟩ := carried20 m ρ c
  show StableHlo.after hostOps4_4 (StableHlo.after hostOps4_3 (StableHlo.after hostOps4_2 (StableHlo.after hostOps4_1 (StableHlo.after hostOps4 (W20 m ρ c))))) (Proc.devRef .tc main_v74) = _
  rw [hostOps4_1_plain, hostOps4_3_plain]
  after_results_simp
  all_goals rw [h8]
  all_goals generalize NDcol m c = G
  all_goals rfl

set_option maxHeartbeats 4000000 in
/-- Its fourth input is the first bias as a row. -/
theorem in75 : W25 m ρ c (Proc.devRef .tc main_v75) = shapeCast S1x128 (b₁ m c) shapeCasts_S128_S1x128 := by
  obtain ⟨-, h2, -, -, -, -, -, -⟩ := carried20 m ρ c
  show StableHlo.after hostOps4_4 (StableHlo.after hostOps4_3 (StableHlo.after hostOps4_2 (StableHlo.after hostOps4_1 (StableHlo.after hostOps4 (W20 m ρ c))))) (Proc.devRef .tc main_v75) = _
  after_results_simp
  all_goals rw [h2]
  all_goals rfl

/-- The convolution region's output, sliced back, is the first convolution of the specification. -/
theorem out4 : extractStridedSlice S100000x128 ![0, 0] (W26 m ρ c (Proc.devRef .tc main_v76)) slices_S102400x128_S100000x128_0_0 = R1 m c := by
  obtain ⟨h1, -, -, -, -, -, -, -⟩ := carried25 m ρ c
  have e : W26 m ρ c (Proc.devRef .tc main_v76)
      = Blocks.denseRelu (W25 m ρ c (Proc.devRef .tc main_v73)) (W25 m ρ c (Proc.devRef .tc main_v74)) (W25 m ρ c (Proc.devRef .tc main_arg1)) (W25 m ρ c (Proc.devRef .tc main_v75)) :=
    (W26_arr m ρ c 4).trans (Region4.final (V25 m ρ) c)
  rw [e, in73 m ρ c, in74 m ρ c, h1, in75 m ρ c]
  exact Cert.Stages.conv1_stage _ _ _ _ _ _

end Cert.KernelIdeal.Chain

end
-- ==== Proof.Reg5.lean ====
/-
  Region 5: the second graph convolution before its aggregation, computed tile by tile (25 tiles of 4096 rows; the
  weight matrix staged whole): row `r` of the features, scaled by the row's entry of a column, times the weight
  matrix. The tiles cover the output array.
-/
import proofs.«163301_j29386166239874_1_alg».proof.Proof.Gen.KernelIdeal.Frame
import proofs.«163301_j29386166239874_1_alg».proof.Proof.Blocks
import proofs.«163301_j29386166239874_1_alg».proof.Proof.PayDense
import Idealize.ShloMosaic.Lib.Pipeline.Value

noncomputable section

namespace Cert.KernelIdeal.Region5

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The corner of a whole tile. -/
theorem origin : (![0, 0] : Fin 2 → Nat) = fun _ => 0 := funext fun a => by fin_cases a <;> rfl

/-- Where the windows stand at grid point `t`: the row-tiled ones at tile row `t` (the output's), tile column 0; the
    ones staged whole at tile (0, 0). -/
theorem tile_facts : ∀ t : Fin cfg5.N, win5_0.index t (0 : Fin 2) = win5_3.index t (0 : Fin 2)
    ∧ win5_0.index t (1 : Fin 2) = 0
    ∧ win5_1.index t (0 : Fin 2) = win5_3.index t (0 : Fin 2)
    ∧ win5_1.index t (1 : Fin 2) = 0
    ∧ win5_2.index t (0 : Fin 2) = 0
    ∧ win5_2.index t (1 : Fin 2) = 0
    ∧ win5_3.index t (0 : Fin 2) = t.val
    ∧ win5_3.index t (1 : Fin 2) = 0 :=
  (by decide +kernel : ∀ t : Fin grid5.N, _)

/-- What grid point `t` writes back is tile `t` of the closed form of the input arrays as the region finds them. -/
theorem flushed_eq (c : Dev nD) (t : Fin cfg5.N) :
    (dat5 V c).flushed 3 t
      = ((cfg5.win 3).blk t).view.read (Elt Ideal) (Blocks.scaleDense (V c main_v78) (V c main_v79) (V c main_arg3)) := by
  show (cfg5.win 3).cut (grid5.coords t) ((dat5 V c).after 3 t) = _
  rw [after5_3]
  unfold out5_3
  rw [View.canon_unit_zero origin]
  simp only [View.ld_unit_zero (S := S4096x128) origin, View.ld_unit_zero (S := S4096x1) origin, View.ld_unit_zero (S := S128x32) origin]
  obtain ⟨e0, e1, e2, e3, e4, e5, e6, e7⟩ := tile_facts t
  funext j
  refine Pay.pay5_at (iblk5 V c 0 t) (iblk5 V c 1 t) (iblk5 V c 2 t) (V c main_v78) (V c main_v79) (V c main_arg3) j (((cfg5.win 3).blk t).view.emb j) ?_ ?_ ?_ ?_
  · intro q
    show V c main_v78 (((cfg5.win 0).blk t).view.emb (ix2 (Blocks.row j) q))
      = V c main_v78 (ix2 (Blocks.row (n := 102400) (f := 32) (((cfg5.win 3).blk t).view.emb j)) q)
    refine congrArg (V c main_v78) (funext fun a => Fin.ext ?_)
    match a with
    | ⟨0, _⟩ => show win5_0.index t (0 : Fin 2) * 4096 + 1 * (j 0).val = win5_3.index t (0 : Fin 2) * 4096 + 1 * (j 0).val; omega
    | ⟨1, _⟩ => show win5_0.index t (1 : Fin 2) * 128 + 1 * q.val = q.val; omega
  · show V c main_v79 (((cfg5.win 1).blk t).view.emb (ix2 (Blocks.row j) (0 : Fin 1)))
      = V c main_v79 (ix2 (Blocks.row (n := 102400) (f := 32) (((cfg5.win 3).blk t).view.emb j)) (0 : Fin 1))
    refine congrArg (V c main_v79) (funext fun a => Fin.ext ?_)
    match a with
    | ⟨0, _⟩ => show win5_1.index t (0 : Fin 2) * 4096 + 1 * (j 0).val = win5_3.index t (0 : Fin 2) * 4096 + 1 * (j 0).val; omega
    | ⟨1, _⟩ => show win5_1.index t (1 : Fin 2) * 1 + 1 * 0 = 0; omega
  · funext y
    show V c main_arg3 (((cfg5.win 2).blk t).view.emb y) = V c main_arg3 y
    refine congrArg (V c main_arg3) (funext fun a => Fin.ext ?_)
    match a with
    | ⟨0, _⟩ => show win5_2.index t (0 : Fin 2) * 128 + 1 * (y 0).val = (y 0).val; omega
    | ⟨1, _⟩ => show win5_2.index t (1 : Fin 2) * 32 + 1 * (y 1).val = (y 1).val; omega
  · refine Fin.ext ?_
    show (j 1).val = win5_3.index t (1 : Fin 2) * 32 + 1 * (j 1).val
    omega

/-- An index of the output array lies in tile `t` iff each coordinate lies in the tile's range on its axis. -/
theorem mem_tile (t : Fin cfg5.N) (i : S102400x32.Idx) :
    i ∈ ((cfg5.win 3).blk t).view.set ↔ ∀ a : Fin 2, win5_3.index t a * S4096x32.size a ≤ (i a).val
      ∧ (i a).val < win5_3.index t a * S4096x32.size a + S4096x32.size a := by
  show i ∈ ((View.whole main_v80).slice (win5_3.rect t)).set ↔ _
  rw [View.set_slice_whole, Rect.mem_set_unit]
  exact Iff.rfl

/-- Every index of the output array lies in the tile of its row's quotient by 4096. -/
theorem cover (i : S102400x32.Idx) :
    ∃ t : Fin cfg5.N, (cfg5.win 3).flush t = true ∧ i ∈ ((cfg5.win 3).blk t).view.set := by
  have hi0 : (i 0).val < 102400 := (i 0).isLt
  have hi1 : (i 1).val < 32 := (i 1).isLt
  have ht : (i 0).val / 4096 < cfg5.N := by show (i 0).val / 4096 < 25; omega
  obtain ⟨e0, e1, e2, e3, e4, e5, e6, e7⟩ := tile_facts ⟨(i 0).val / 4096, ht⟩
  have er : win5_3.index ⟨(i 0).val / 4096, ht⟩ (0 : Fin 2) = (i 0).val / 4096 := e6
  refine ⟨⟨(i 0).val / 4096, ht⟩, flush5_3 _, ?_⟩
  rw [mem_tile]
  intro a
  match a with
  | ⟨0, _⟩ =>
    show win5_3.index ⟨(i 0).val / 4096, ht⟩ (0 : Fin 2) * 4096 ≤ (i 0).val
      ∧ (i 0).val < win5_3.index ⟨(i 0).val / 4096, ht⟩ (0 : Fin 2) * 4096 + 4096
    omega
  | ⟨1, _⟩ =>
    show win5_3.index ⟨(i 0).val / 4096, ht⟩ (1 : Fin 2) * 32 ≤ (i 1).val
      ∧ (i 1).val < win5_3.index ⟨(i 0).val / 4096, ht⟩ (1 : Fin 2) * 32 + 32
    omega

/-- After the region its output array is the closed form of the input arrays as the region finds them. -/
theorem final (c : Dev nD) :
    (dat5 V c).arrAt 3 cfg5.N = Blocks.scaleDense (V c main_v78) (V c main_v79) (V c main_arg3) :=
  (dat5 V c).arrAt_eq_of_cover 3 _ (fun t _ => flushed_eq V c t) (fun i => cover i)

end Cert.KernelIdeal.Region5

end
-- ==== Proof.Reg6.lean ====
/-
  Region 6: every row of an array of 102400 rows and 32 columns scaled by that row's entry of a column, plus a bias
  row, computed tile by tile (25 tiles of 4096 rows, full width; the bias row staged whole). The tiles cover the
  output array, so it ends as the affine image of the input array.
-/
import proofs.«163301_j29386166239874_1_alg».proof.Proof.Gen.KernelIdeal.Frame
import proofs.«163301_j29386166239874_1_alg».proof.Proof.Blocks
import proofs.«163301_j29386166239874_1_alg».proof.Proof.PayRows
import Idealize.ShloMosaic.Lib.Pipeline.Value

noncomputable section

namespace Cert.KernelIdeal.Region6

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The corner of a whole tile. -/
theorem origin : (![0, 0] : Fin 2 → Nat) = fun _ => 0 := funext fun a => by fin_cases a <;> rfl

/-- Where the windows stand at grid point `t`: the row-tiled ones at tile row `t` (the output's), tile column 0; the
    ones staged whole at tile (0, 0). -/
theorem tile_facts : ∀ t : Fin cfg6.N, win6_0.index t (0 : Fin 2) = win6_3.index t (0 : Fin 2)
    ∧ win6_0.index t (1 : Fin 2) = 0
    ∧ win6_1.index t (0 : Fin 2) = win6_3.index t (0 : Fin 2)
    ∧ win6_1.index t (1 : Fin 2) = 0
    ∧ win6_2.index t (0 : Fin 2) = 0
    ∧ win6_2.index t (1 : Fin 2) = 0
    ∧ win6_3.index t (0 : Fin 2) = t.val
    ∧ win6_3.index t (1 : Fin 2) = 0 :=
  (by decide +kernel : ∀ t : Fin grid6.N, _)

/-- What grid point `t` writes back is tile `t` of the closed form of the input arrays as the region finds them. -/
theorem flushed_eq (c : Dev nD) (t : Fin cfg6.N) :
    (dat6 V c).flushed 3 t
      = ((cfg6.win 3).blk t).view.read (Elt Ideal) (Blocks.affineRows (V c main_v92) (V c main_v93) (V c main_v94)) := by
  show (cfg6.win 3).cut (grid6.coords t) ((dat6 V c).after 3 t) = _
  rw [after6_3]
  unfold out6_3
  rw [View.canon_unit_zero origin]
  simp only [View.ld_unit_zero (S := S4096x32) origin, View.ld_unit_zero (S := S4096x1) origin, View.ld_unit_zero (S := S1x32) origin]
  obtain ⟨e0, e1, e2, e3, e4, e5, e6, e7⟩ := tile_facts t
  funext j
  refine Pay.pay6_at (iblk6 V c 0 t) (iblk6 V c 1 t) (iblk6 V c 2 t) (V c main_v92) (V c main_v93) (V c main_v94) j (((cfg6.win 3).blk t).view.emb j) ?_ ?_ ?_
  · show V c main_v92 (((cfg6.win 0).blk t).view.emb j) = V c main_v92 (((cfg6.win 3).blk t).view.emb j)
    refine congrArg (V c main_v92) (funext fun a => Fin.ext ?_)
    match a with
    | ⟨0, _⟩ => show win6_0.index t (0 : Fin 2) * 4096 + 1 * (j 0).val = win6_3.index t (0 : Fin 2) * 4096 + 1 * (j 0).val; omega
    | ⟨1, _⟩ => show win6_0.index t (1 : Fin 2) * 32 + 1 * (j 1).val = win6_3.index t (1 : Fin 2) * 32 + 1 * (j 1).val; omega
  · show V c main_v93 (((cfg6.win 1).blk t).view.emb (ix2 (Blocks.row j) (0 : Fin 1)))
      = V c main_v93 (ix2 (Blocks.row (n := 102400) (f := 32) (((cfg6.win 3).blk t).view.emb j)) (0 : Fin 1))
    refine congrArg (V c main_v93) (funext fun a => Fin.ext ?_)
    match a with
    | ⟨0, _⟩ => show win6_1.index t (0 : Fin 2) * 4096 + 1 * (j 0).val = win6_3.index t (0 : Fin 2) * 4096 + 1 * (j 0).val; omega
    | ⟨1, _⟩ => show win6_1.index t (1 : Fin 2) * 1 + 1 * 0 = 0; omega
  · show V c main_v94 (((cfg6.win 2).blk t).view.emb (ix2 (0 : Fin 1) (Blocks.col j)))
      = V c main_v94 (ix2 (0 : Fin 1) (Blocks.col (n := 102400) (f := 32) (((cfg6.win 3).blk t).view.emb j)))
    refine congrArg (V c main_v94) (funext fun a => Fin.ext ?_)
    match a with
    | ⟨0, _⟩ => show win6_2.index t (0 : Fin 2) * 1 + 1 * 0 = 0; omega
    | ⟨1, _⟩ => show win6_2.index t (1 : Fin 2) * 32 + 1 * (j 1).val = win6_3.index t (1 : Fin 2) * 32 + 1 * (j 1).val; omega

/-- An index of the output array lies in tile `t` iff each coordinate lies in the tile's range on its axis. -/
theorem mem_tile (t : Fin cfg6.N) (i : S102400x32.Idx) :
    i ∈ ((cfg6.win 3).blk t).view.set ↔ ∀ a : Fin 2, win6_3.index t a * S4096x32.size a ≤ (i a).val
      ∧ (i a).val < win6_3.index t a * S4096x32.size a + S4096x32.size a := by
  show i ∈ ((View.whole main_v95).slice (win6_3.rect t)).set ↔ _
  rw [View.set_slice_whole, Rect.mem_set_unit]
  exact Iff.rfl

/-- Every index of the output array lies in the tile of its row's quotient by 4096. -/
theorem cover (i : S102400x32.Idx) :
    ∃ t : Fin cfg6.N, (cfg6.win 3).flush t = true ∧ i ∈ ((cfg6.win 3).blk t).view.set := by
  have hi0 : (i 0).val < 102400 := (i 0).isLt
  have hi1 : (i 1).val < 32 := (i 1).isLt
  have ht : (i 0).val / 4096 < cfg6.N := by show (i 0).val / 4096 < 25; omega
  obtain ⟨e0, e1, e2, e3, e4, e5, e6, e7⟩ := tile_facts ⟨(i 0).val / 4096, ht⟩
  have er : win6_3.index ⟨(i 0).val / 4096, ht⟩ (0 : Fin 2) = (i 0).val / 4096 := e6
  refine ⟨⟨(i 0).val / 4096, ht⟩, flush6_3 _, ?_⟩
  rw [mem_tile]
  intro a
  match a with
  | ⟨0, _⟩ =>
    show win6_3.index ⟨(i 0).val / 4096, ht⟩ (0 : Fin 2) * 4096 ≤ (i 0).val
      ∧ (i 0).val < win6_3.index ⟨(i 0).val / 4096, ht⟩ (0 : Fin 2) * 4096 + 4096
    omega
  | ⟨1, _⟩ =>
    show win6_3.index ⟨(i 0).val / 4096, ht⟩ (1 : Fin 2) * 32 ≤ (i 1).val
      ∧ (i 1).val < win6_3.index ⟨(i 0).val / 4096, ht⟩ (1 : Fin 2) * 32 + 32
    omega

/-- After the region its output array is the closed form of the input arrays as the region finds them. -/
theorem final (c : Dev nD) :
    (dat6 V c).arrAt 3 cfg6.N = Blocks.affineRows (V c main_v92) (V c main_v93) (V c main_v94) :=
  (dat6 V c).arrAt_eq_of_cover 3 _ (fun t _ => flushed_eq V c t) (fun i => cover i)

end Cert.KernelIdeal.Region6

end
-- ==== Proof.ChainC.lean ====
/-
  The kernel program's values through its last two regions and its result: the first convolution's output is scaled
  by the inverse square roots of the out-degrees and multiplied by `W₃`, aggregated over the edges, then scaled by
  the inverse square roots of the in-degrees with the bias `b₃` added. The last slice is the program's result, and
  it is the specification's `result` of the seven argument arrays.
-/
import proofs.«163301_j29386166239874_1_alg».proof.Proof.ChainDefs
import proofs.«163301_j29386166239874_1_alg».proof.Proof.ChainA
import proofs.«163301_j29386166239874_1_alg».proof.Proof.ChainB
import proofs.«163301_j29386166239874_1_alg».proof.Proof.Blocks
import proofs.«163301_j29386166239874_1_alg».proof.Proof.Reg5
import proofs.«163301_j29386166239874_1_alg».proof.Proof.Reg6
import proofs.«163301_j29386166239874_1_alg».proof.Proof.StageRows
import proofs.«163301_j29386166239874_1_alg».proof.Proof.StageDense
import Idealize.ShloMosaic.Lib.StableHlo.Run

noncomputable section

namespace Cert.KernelIdeal.Chain

open Cert.KernelIdeal Cert.KernelIdeal.Gen Idealize.ShloMosaic Idealize.ShloMosaic.TcCoe Idealize.SL.Sem
open Idealize.ShloMosaic.StableHlo
open Cert.ReferenceIdeal (Spec.residual Spec.gatherSum64 Spec.gatherSum32 Spec.scaled64 Spec.conv1 Spec.pre2 Spec.affine Spec.result)

variable (m : (ℓ : Loc nD τ sig) → Buf (Elt Ideal) ℓ) (ρ : Dev nD → PrngReg) (c : Dev nD)

/-- The second convolution before and after its aggregation. -/
def P2 : FVec Ideal S100000x32 .f32 := Spec.pre2 (R1 m c) (NS m c) (W₃ m c)
def A2 : FVec Ideal S100000x32 .f32 := Spec.gatherSum32 (src m c) (dst m c) (P2 m c)

/-! ## The second convolution's matrix product -/

set_option maxHeartbeats 4000000 in
/-- At the product region's entry its first input is the first convolution's output, padded. -/
theorem in78 : W30 m ρ c (Proc.devRef .tc main_v78) = pad S102400x128 ![0, 0] ![2400, 0] ![0, 0] (R1 m c) zf pads_S100000x128_S102400x128_024000_000 h_S_ := by
  show StableHlo.after hostOps5_3 (StableHlo.after hostOps5_2 (StableHlo.after hostOps5_1 (StableHlo.after hostOps5 (W26 m ρ c)))) (Proc.devRef .tc main_v78) = _
  rw [hostOps5_1_plain, hostOps5_3_plain]
  after_results_simp
  all_goals rw [out4 m ρ c]
  all_goals generalize R1 m c = G
  all_goals rfl

set_option maxHeartbeats 4000000 in
/-- Its second input is the column of inverse square roots of the out-degrees, padded. -/
theorem in79 : W30 m ρ c (Proc.devRef .tc main_v79) = pad S102400x1 ![0, 0] ![2400, 0] ![0, 0] (NScol m c) zf pads_S100000x1_S102400x1_024000_000 h_S_ := by
  obtain ⟨-, -, -, -, -, -, h7, -⟩ := carried26 m ρ c
  show StableHlo.after hostOps5_3 (StableHlo.after hostOps5_2 (StableHlo.after hostOps5_1 (StableHlo.after hostOps5 (W26 m ρ c)))) (Proc.devRef .tc main_v79) = _
  rw [hostOps5_1_plain, hostOps5_3_plain]
  after_results_simp
  all_goals rw [h7]
  all_goals generalize NScol m c = G
  all_goals rfl

/-- The product region's output, sliced back, is the second convolution before its aggregation. -/
theorem out5 : extractStridedSlice S100000x32 ![0, 0] (W31 m ρ c (Proc.devRef .tc main_v80)) slices_S102400x32_S100000x32_0_0 = P2 m c := by
  obtain ⟨-, -, h3, -, -, -, -, -⟩ := carried30 m ρ c
  have e : W31 m ρ c (Proc.devRef .tc main_v80)
      = Blocks.scaleDense (W30 m ρ c (Proc.devRef .tc main_v78)) (W30 m ρ c (Proc.devRef .tc main_v79)) (W30 m ρ c (Proc.devRef .tc main_arg3)) :=
    (W31_arr m ρ c 3).trans (Region5.final (V30 m ρ) c)
  rw [e, in78 m ρ c, in79 m ρ c, h3]
  exact Cert.Stages.pre2_stage _ _ _ _ _

/-! ## The last affine step -/

set_option maxHeartbeats 4000000 in
/-- At the last region's entry its first input is the aggregate of the product, padded. -/
theorem in92 : W36 m ρ c (Proc.devRef .tc main_v92) = pad S102400x32 ![0, 0] ![2400, 0] ![0, 0] (A2 m c) zf pads_S100000x32_S102400x32_024000_000 h_S_ := by
  obtain ⟨-, -, -, -, h5, h6, -, -⟩ := carried31 m ρ c
  show StableHlo.after hostOps6_4 (StableHlo.after hostOps6_3 (StableHlo.after hostOps6_2 (StableHlo.after hostOps6_1 (StableHlo.after hostOps6 (W31 m ρ c))))) (Proc.devRef .tc main_v92) = _
  rw [hostOps6_1_plain, hostOps6_3_plain]
  after_results_simp
  all_goals rw [out5 m ρ c, h5, h6]
  all_goals rw [agg32_eq, show Spec.gatherSum32 (m ((c : Thread nD τ).loc main_arg5)) (m ((c : Thread nD τ).loc main_arg6)) (P2 m c) = A2 m c from rfl]
  all_goals generalize A2 m c = G
  all_goals rfl

set_option maxHeartbeats 4000000 in
/-- Its second input is the column of inverse square roots of the in-degrees, padded. -/
theorem in93 : W36 m ρ c (Proc.devRef .tc main_v93) = pad S102400x1 ![0, 0] ![2400, 0] ![0, 0] (NDcol m c) zf pads_S100000x1_S102400x1_024000_000 h_S_ := by
  obtain ⟨-, -, -, -, -, -, -, h8⟩ := carried31 m ρ c
  show StableHlo.after hostOps6_4 (StableHlo.after hostOps6_3 (StableHlo.after hostOps6_2 (StableHlo.after hostOps6_1 (StableHlo.after hostOps6 (W31 m ρ c))))) (Proc.devRef .tc main_v93) = _
  rw [hostOps6_1_plain, hostOps6_3_plain]
  after_results_simp
  all_goals rw [h8]
  all_goals generalize NDcol m c = G
  all_goals rfl

set_option maxHeartbeats 4000000 in
/-- Its third input is the second bias as a row. -/
theorem in94 : W36 m ρ c (Proc.devRef .tc main_v94) = shapeCast S1x32 (b₃ m c) shapeCasts_S32_S1x32 := by
  obtain ⟨-, -, -, h4, -, -, -, -⟩ := carried31 m ρ c
  show StableHlo.after hostOps6_4 (StableHlo.after hostOps6_3 (StableHlo.after hostOps6_2 (StableHlo.after hostOps6_1 (StableHlo.after hostOps6 (W31 m ρ c))))) (Proc.devRef .tc main_v94) = _
  after_results_simp
  all_goals rw [h4]
  all_goals rfl

/-- The last region's output, sliced back, is the affine image of the aggregate. -/
theorem out6 : extractStridedSlice S100000x32 ![0, 0] (W37 m ρ c (Proc.devRef .tc main_v95)) slices_S102400x32_S100000x32_0_0 = Spec.affine (A2 m c) (ND m c) (b₃ m c) := by
  have e : W37 m ρ c (Proc.devRef .tc main_v95)
      = Blocks.affineRows (W36 m ρ c (Proc.devRef .tc main_v92)) (W36 m ρ c (Proc.devRef .tc main_v93)) (W36 m ρ c (Proc.devRef .tc main_v94)) :=
    (W37_arr m ρ c 3).trans (Region6.final (V36 m ρ) c)
  rw [e, in92 m ρ c, in93 m ρ c, in94 m ρ c]
  exact Cert.Stages.affine_stage _ _ _ _ _

/-! ## The result -/

/-- The program's result buffer after its last host operation is the specification's network of the arguments. -/
theorem result_eq : W38 m ρ c (Proc.devRef .tc main_v96)
    = Spec.result (X m c) (W₁ m c) (b₁ m c) (W₃ m c) (b₃ m c) (src m c) (dst m c) := by
  show StableHlo.after hostOps7 (W37 m ρ c) (Proc.devRef .tc main_v96) = _
  after_results_simp
  exact out6 m ρ c

end Cert.KernelIdeal.Chain

end
-- ==== Proof.RefSide.lean ====
/-
  The reference program's result, as the composed term of its host operations, is the network of "Spec.result": the
  three residual layers, the scaling by the inverse square root of the out-degree, the first graph convolution
  (aggregate, multiply by the weights, scale by the inverse square root of the in-degree, add the bias, clamp at zero)
  and the second (scale, multiply by the weights, aggregate, scale, add the bias). The stages of "Spec" are names for
  sub-terms of that composed term, so the two sides are the same term once the names are unfolded.
-/
import proofs.«163301_j29386166239874_1_alg».proof.Proof.Gen.ReferenceIdeal.Run
import proofs.«163301_j29386166239874_1_alg».proof.Proof.Spec

noncomputable section

namespace Cert.ReferenceIdeal.RefValue

open Cert.ReferenceIdeal Cert.ReferenceIdeal.Gen Idealize.ShloMosaic Idealize.ShloMosaic.TcCoe Idealize.SL.Sem

set_option maxRecDepth 8192 in
/-- The value the reference program returns is the whole network applied to the program's seven arguments: the node
    features, the two weight matrices with their biases, and the edge sources and destinations. -/
theorem result_eq (m : (ℓ : Loc nD τ sig) → Buf (Elt Ideal) ℓ) (c : Dev nD) :
    Cert.ReferenceIdeal.Value.res_main_v88 (F := Ideal) m c
      = Spec.result (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) (m ((c.tc : Thread nD τ).loc main_arg6)) := by
  unfold Cert.ReferenceIdeal.Value.res_main_v88 Spec.result Spec.affine Spec.gatherSum32 Spec.pre2 Spec.conv1
    Spec.gatherSum64 Spec.scaled64 Spec.residual Spec.invSqrtDeg Spec.wrapped Spec.column
  rfl

end Cert.ReferenceIdeal.RefValue

end
-- ==== Proof.lean ====
/-
  A graph network on 100000 nodes and 1600000 edges: three residual message-passing layers (each adds to a node's
  features the sum of its in-neighbours' features), then two graph convolutions normalised on both sides by the
  inverse square roots of the degrees, the first aggregating before its matrix product and clamped below at zero,
  the second aggregating after it.

  The kernel program computes the dense steps — the residual additions, the row scaling, the two matrix products with
  their scalings and biases — in seven row-tiled regions over the node arrays padded with zero rows to 25 tiles of
  4096 rows, slicing the 100000 rows back after each; the gathers and scatter-adds over the edges are host operations,
  the same ones the reference applies. Over the extended reals a change of float format is the identity and both
  kinds of matrix product are the plain sums, so tile by tile each region leaves the whole-array stage of the
  reference on the first 100000 rows, and the two programs' results are one function of the seven argument arrays.
  No algebraic law beyond that is used, and the precondition (finite inputs) is never opened.

  The three frames are the programs' runs with the results dropped; the idealisation rewrote nothing, so `preserves`
  has no conjunct.
-/
import proofs.«163301_j29386166239874_1_alg».proof.Defs
import proofs.«163301_j29386166239874_1_alg».proof.Proof.Gen.Kernel
import proofs.«163301_j29386166239874_1_alg».proof.Proof.Gen.Kernel.Skeleton
import proofs.«163301_j29386166239874_1_alg».proof.Proof.Gen.Kernel.Launch
import proofs.«163301_j29386166239874_1_alg».proof.Proof.Gen.Kernel.Points
import proofs.«163301_j29386166239874_1_alg».proof.Proof.Gen.Kernel.Frame
import proofs.«163301_j29386166239874_1_alg».proof.Proof.Gen.KernelIdeal
import proofs.«163301_j29386166239874_1_alg».proof.Proof.Gen.KernelIdeal.Skeleton
import proofs.«163301_j29386166239874_1_alg».proof.Proof.Gen.KernelIdeal.Launch
import proofs.«163301_j29386166239874_1_alg».proof.Proof.Gen.KernelIdeal.Points
import proofs.«163301_j29386166239874_1_alg».proof.Proof.Gen.KernelIdeal.Frame
import proofs.«163301_j29386166239874_1_alg».proof.Proof.Gen.ReferenceIdeal
import proofs.«163301_j29386166239874_1_alg».proof.Proof.Gen.Pre_finite_inputs
import proofs.«163301_j29386166239874_1_alg».proof.Proof.Gen.ReferenceIdeal.Run
import proofs.«163301_j29386166239874_1_alg».proof.Proof.Gen.ReferenceIdeal.Read
import proofs.«163301_j29386166239874_1_alg».proof.Proof.KRun
import proofs.«163301_j29386166239874_1_alg».proof.Proof.ChainC
import proofs.«163301_j29386166239874_1_alg».proof.Proof.RefSide
import Idealize.ShloMosaic.Adequacy
import Idealize.ShloMosaic.Init

noncomputable section

namespace Cert.Proof

open Idealize.ShloMosaic Idealize.SL.Sem

/-- The kernel program as printed runs to the end, its arguments unchanged. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealisation rewrote no operation. -/
theorem preserves : Cert.preserves_Kernel_KernelIdeal := trivial

/-- Both programs, run from memories that agree on the seven arguments, end with the specification's network of those
    arguments in their result arrays: the kernel program by the walk through its regions, the reference because
    its run's term is that network spelt out. -/
theorem algebraic : Cert.algebraic_KernelIdeal_ReferenceIdeal := by
  intro m ρ m' ρ' _ hagree
  refine ⟨fun c => Cert.ReferenceIdeal.Spec.result (Cert.KernelIdeal.Chain.X m c) (Cert.KernelIdeal.Chain.W₁ m c)
      (Cert.KernelIdeal.Chain.b₁ m c) (Cert.KernelIdeal.Chain.W₃ m c) (Cert.KernelIdeal.Chain.b₃ m c)
      (Cert.KernelIdeal.Chain.src m c) (Cert.KernelIdeal.Chain.dst m c), ?_, ?_⟩
  · exact (θ_run Cert.KernelIdeal.defs _ _).mono
      (fun r h c => ⟨(h c).1.trans (Cert.KernelIdeal.Chain.result_eq m ρ c), (h c).2⟩)
      (Cert.KernelIdeal.Run.run_result (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.RefValue.result_eq m' c, (hagree c).1, (hagree c).2.1, (hagree c).2.2.1, (hagree c).2.2.2.1,
      (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
